-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x512 : Shape := ⟨2, ![1024, 512]⟩
abbrev S512 : Shape := ⟨1, ![512]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S1024x512 .f32) (main_arg6 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8x2048x1024 .f32) (main_arg1 : FVec F S1024x512 .f32) (main_arg2 : FVec F S512 .f32) (main_arg3 : FVec F S1024x512 .f32) (main_arg4 : FVec F S512 .f32) (main_arg5 : FVec F S1024x512 .f32) (main_arg6 : FVec F S512 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_v13 main_v16
-- ==== Kernel.lean ====
abbrev S8x2048x1024 : Shape := ⟨3, ![8, 2048, 1024]⟩
abbrev S1024x512 : Shape := ⟨2, ![1024, 512]⟩
abbrev S512 : Shape := ⟨1, ![512]⟩
abbrev S8x2048x512 : Shape := ⟨3, ![8, 2048, 512]⟩
abbrev S8x128x1024 : Shape := ⟨3, ![8, 128, 1024]⟩
abbrev S8x128x512 : Shape := ⟨3, ![8, 128, 512]⟩
abbrev S1024x1024 : Shape := ⟨2, ![1024, 1024]⟩
abbrev S1x512 : Shape := ⟨2, ![1, 512]⟩
abbrev S8x2048x1 : Shape := ⟨3, ![8, 2048, 1]⟩
abbrev S8x512x512 : Shape := ⟨3, ![8, 512, 512]⟩
abbrev S8x256x512 : Shape := ⟨3, ![8, 256, 512]⟩
abbrev S8x512x1 : Shape := ⟨3, ![8, 512, 1]⟩
abbrev S8x512x256 : Shape := ⟨3, ![8, 512, 256]⟩
abbrev S8x512 : Shape := ⟨2, ![8, 512]⟩
abbrev S4x256x512 : Shape := ⟨3, ![4, 256, 512]⟩
abbrev S4x256x1024 : Shape := ⟨3, ![4, 256, 1024]⟩
abbrev S4x256x1 : Shape := ⟨3, ![4, 256, 1]⟩
abbrev S4x256x256 : Shape := ⟨3, ![4, 256, 256]⟩

abbrev nBuf : Space → Nat
  | .hbm => 14
  | .vmem => 33
  | .smem => 0
  | _ => 0

abbrev bufTy : (tb : Table) → Fin (tcTables nBuf tb) → BufTy
  | .hbm, ⟨0, _⟩ => ⟨S8x2048x1024, .f32⟩
  | .hbm, ⟨1, _⟩ => ⟨S1024x512, .f32⟩
  | .hbm, ⟨2, _⟩ => ⟨S512, .f32⟩
  | .hbm, ⟨3, _⟩ => ⟨S1024x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S1024x512, .bf16⟩
  | .hbm, ⟨8, _⟩ => ⟨S1024x512, .bf16⟩
  | .hbm, ⟨9, _⟩ => ⟨S8x2048x512, .bf16⟩
  | .hbm, ⟨10, _⟩ => ⟨S8x2048x512, .bf16⟩
  | .hbm, ⟨11, _⟩ => ⟨S8x2048x1024, .bf16⟩
  | .hbm, ⟨12, _⟩ => ⟨S8x2048x1, .f32⟩
  | .hbm, ⟨13, _⟩ => ⟨S8x2048x1024, .f32⟩
  | .local _ .vmem, ⟨0, _⟩ => ⟨S8x128x1024, .f32⟩
  | .local _ .vmem, ⟨1, _⟩ => ⟨S8x128x1024, .f32⟩
  | .local _ .vmem, ⟨2, _⟩ => ⟨S1024x512, .bf16⟩
  | .local _ .vmem, ⟨3, _⟩ => ⟨S512, .f32⟩
  | .local _ .vmem, ⟨4, _⟩ => ⟨S1024x512, .bf16⟩
  | .local _ .vmem, ⟨5, _⟩ => ⟨S512, .f32⟩
  | .local _ .vmem, ⟨6, _⟩ => ⟨S8x128x512, .bf16⟩
  | .local _ .vmem, ⟨7, _⟩ => ⟨S8x128x512, .bf16⟩
  | .local _ .vmem, ⟨8, _⟩ => ⟨S8x128x512, .bf16⟩
  | .local _ .vmem, ⟨9, _⟩ => ⟨S8x128x512, .bf16⟩
  | .local _ .vmem, ⟨10, _⟩ => ⟨S8x128x1024, .bf16⟩
  | .local _ .vmem, ⟨11, _⟩ => ⟨S8x128x1024, .bf16⟩
  | .local _ .vmem, ⟨12, _⟩ => ⟨S8x512x512, .bf16⟩
  | .local _ .vmem, ⟨13, _⟩ => ⟨S8x512x512, .bf16⟩
  | .local _ .vmem, ⟨14, _⟩ => ⟨S8x256x512, .bf16⟩
  | .local _ .vmem, ⟨15, _⟩ => ⟨S8x256x512, .bf16⟩
  | .local _ .vmem, ⟨16, _⟩ => ⟨S8x512x1, .f32⟩
  | .local _ .vmem, ⟨17, _⟩ => ⟨S8x512x1, .f32⟩
  | .local _ .vmem, ⟨18, _⟩ => ⟨S8x512x1, .f32⟩
  | .local _ .vmem, ⟨19, _⟩ => ⟨S8x512x1, .f32⟩
  | .local _ .vmem, ⟨20, _⟩ => ⟨S4x256x512, .bf16⟩
  | .local _ .vmem, ⟨21, _⟩ => ⟨S4x256x512, .bf16⟩
  | .local _ .vmem, ⟨22, _⟩ => ⟨S4x256x512, .bf16⟩
  | .local _ .vmem, ⟨23, _⟩ => ⟨S4x256x512, .bf16⟩
  | .local _ .vmem, ⟨24, _⟩ => ⟨S4x256x1024, .bf16⟩
  | .local _ .vmem, ⟨25, _⟩ => ⟨S4x256x1024, .bf16⟩
  | .local _ .vmem, ⟨26, _⟩ => ⟨S4x256x1, .f32⟩
  | .local _ .vmem, ⟨27, _⟩ => ⟨S4x256x1, .f32⟩
  | .local _ .vmem, ⟨28, _⟩ => ⟨S4x256x1024, .f32⟩
  | .local _ .vmem, ⟨29, _⟩ => ⟨S4x256x1024, .f32⟩
  | .local _ .vmem, ⟨30, _⟩ => ⟨S4x256x1024, .f32⟩
  | .local _ .vmem, ⟨31, _⟩ => ⟨S4x256x1024, .f32⟩
  | .local _ .vmem, ⟨32, _⟩ => ⟨S4x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_23 : BitVec 32 := 0#32
  let v31 : BitVec 1 := Scalar.cmpi .ne v30 c0_i32_23
  v31

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨3, ![2, 8, 8], ![false, false, false]⟩

def k2_cond2 (i : grid2.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_19 : BitVec 32 := 0#32
  let v24 : BitVec 1 := Scalar.cmpi .ne v23 c0_i32_19
  v24

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S4x256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S4x256x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S4x256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S4x256x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S4x256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S4x256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

class Facts₀ : Prop where
  bitsLt_bf16_f32 : FTy.bits .bf16 < FTy.bits .f32
  inb_S8x128x1024_S8x128x1024_0_0_0 : ∀ a, (![0, 0, 0] : Fin 3 → Nat) a + S8x128x1024.size a ≤ S8x128x1024.size a
  h_S8x128x1024 : 0 < S8x128x1024.numel
  packedbf16_S8x128x1024_S8x128x1024_0_0_0 : (Rect.unit (s := S8x128x1024) ![0, 0, 0] S8x128x1024.size inb_S8x128x1024_S8x128x1024_0_0_0).PackedRows (EltTy.packing .bf16)
  shapeCasts_S8x128x1024_S1024x1024 : S8x128x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  shapeCasts_S1024x512_S8x128x512 : S1024x512.ShapeCasts S8x128x512
  inb_S8x128x512_S8x128x512_0_0_0 : ∀ a, (![0, 0, 0] : Fin 3 → Nat) a + S8x128x512.size a ≤ S8x128x512.size a
  h_S8x128x512 : 0 < S8x128x512.numel
  packedbf16_S8x128x512_S8x128x512_0_0_0 : (Rect.unit (s := S8x128x512) ![0, 0, 0] S8x128x512.size inb_S8x128x512_S8x128x512_0_0_0).PackedRows (EltTy.packing .bf16)
  inb_S8x512x1_S8x512x1_0_0_0 : ∀ a, (![0, 0, 0] : Fin 3 → Nat) a + S8x512x1.size a ≤ S8x512x1.size a
  h_S8x512x1 : 0 < S8x512x1.numel
  shapeCasts_S8x512x1_S8x512x1 : S8x512x1.ShapeCasts S8x512x1
  inb_S8x512x512_S8x512x512_0_0_0 : ∀ a, (![0, 0, 0] : Fin 3 → Nat) a + S8x512x512.size a ≤ S8x512x512.size a
  h_S8x512x512 : 0 < S8x512x512.numel
  shapeCasts_S8x512x512_S8x512x512 : S8x512x512.ShapeCasts S8x512x512
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  reduces_S8x512x256_S8x512 : S8x512x256.Reduces [2] S8x512
  shapeCasts_S8x512_S8x512x1 : S8x512.ShapeCasts S8x512x1
  broadcasts_S8x512x1_S8x512x256 : S8x512x1.Broadcasts S8x512x256
  inb_S4x256x1024_S4x256x1024_0_0_0 : ∀ a, (![0, 0, 0] : Fin 3 → Nat) a + S4x256x1024.size a ≤ S4x256x1024.size a
  h_S4x256x1024 : 0 < S4x256x1024.numel
  shapeCasts_S4x256x1024_S4x256x1024 : S4x256x1024.ShapeCasts S4x256x1024
  inb_S4x256x512_S4x256x512_0_0_0 : ∀ a, (![0, 0, 0] : Fin 3 → Nat) a + S4x256x512.size a ≤ S4x256x512.size a
  h_S4x256x512 : 0 < S4x256x512.numel
  shapeCasts_S4x256x512_S4x256x512 : S4x256x512.ShapeCasts S4x256x512
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  broadcasts_S4x256x1_S4x256x256 : S4x256x1.Broadcasts S4x256x256
  dot_S1024x1024_S1024x512_S1024x512_1_0_0_1_n_n_wf : DotDims.WF S1024x1024 S1024x512 S1024x512 [1] [0] [0] [1] [] []
  dot_S8x512x512_S8x256x512_S8x512x256_2_2_1_1_0_0_wf : DotDims.WF S8x512x512 S8x256x512 S8x512x256 [2] [2] [1] [1] [0] [0]
  dot_S4x256x512_S4x256x512_S4x256x256_2_2_1_1_0_0_wf : DotDims.WF S4x256x512 S4x256x512 S4x256x256 [2] [2] [1] [1] [0] [0]
  dot_S4x256x256_S4x256x1024_S4x256x1024_1_1_2_2_0_0_wf : DotDims.WF S4x256x256 S4x256x1024 S4x256x1024 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S8x2048x1024.size a
  hwx0_0 : ∀ i : grid0.Coords, EltTy.bits .f32 = 32 ∨ (Rect.block (s := S8x2048x1024) S8x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128x512.size a ≤ S8x2048x512.size a
  hwx0_5 : ∀ i : grid0.Coords, EltTy.bits .bf16 = 32 ∨ (Rect.block (s := S8x2048x512) S8x128x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128x512.size a ≤ S8x2048x512.size a
  hwx0_6 : ∀ i : grid0.Coords, EltTy.bits .bf16 = 32 ∨ (Rect.block (s := S8x2048x512) S8x128x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128x1024.size a ≤ S8x2048x1024.size a
  hwx0_7 : ∀ i : grid0.Coords, EltTy.bits .bf16 = 32 ∨ (Rect.block (s := S8x2048x1024) S8x128x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x512.size a ≤ S8x2048x512.size a
  hwx1_0 : ∀ i : grid1.Coords, EltTy.bits .bf16 = 32 ∨ (Rect.block (s := S8x2048x512) S8x512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x512.size a ≤ S8x2048x512.size a
  hwx1_1 : ∀ i : grid1.Coords, EltTy.bits .bf16 = 32 ∨ (Rect.block (s := S8x2048x512) S8x256x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512x1.size a ≤ S8x2048x1.size a
  hwx1_2 : ∀ i : grid1.Coords, EltTy.bits .f32 = 32 ∨ (Rect.block (s := S8x2048x1) S8x512x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x256x512.size a ≤ S8x2048x512.size a
  hwx2_0 : ∀ i : grid2.Coords, EltTy.bits .bf16 = 32 ∨ (Rect.block (s := S8x2048x512) S4x256x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4x256x512.size a ≤ S8x2048x512.size a
  hwx2_1 : ∀ i : grid2.Coords, EltTy.bits .bf16 = 32 ∨ (Rect.block (s := S8x2048x512) S4x256x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x256x1024.size a ≤ S8x2048x1024.size a
  hwx2_2 : ∀ i : grid2.Coords, EltTy.bits .bf16 = 32 ∨ (Rect.block (s := S8x2048x1024) S4x256x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4x256x1.size a ≤ S8x2048x1.size a
  hwx2_3 : ∀ i : grid2.Coords, EltTy.bits .f32 = 32 ∨ (Rect.block (s := S8x2048x1) S4x256x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4x256x1024.size a ≤ S8x2048x1024.size a
  hwx2_4 : ∀ i : grid2.Coords, EltTy.bits .f32 = 32 ∨ (Rect.block (s := S8x2048x1024) S4x256x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4x256x1024.size a ≤ S8x2048x1024.size a
  hwx2_5 : ∀ i : grid2.Coords, EltTy.bits .f32 = 32 ∨ (Rect.block (s := S8x2048x1024) S4x256x1024.size (cc2_transform_5 i) (hinb2_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S8x512x512_S8x256x512_S8x512x256_2_2_1_1_0_0 : DotDims S8x512x512 S8x256x512 S8x512x256 where
  lhsContracting := [2]
  rhsContracting := [2]
  lhsNonContracting := [1]
  rhsNonContracting := [1]
  lhsBatch := [0]
  rhsBatch := [0]
  wf := dot_S8x512x512_S8x256x512_S8x512x256_2_2_1_1_0_0_wf
def dot_S4x256x512_S4x256x512_S4x256x256_2_2_1_1_0_0 : DotDims S4x256x512 S4x256x512 S4x256x256 where
  lhsContracting := [2]
  rhsContracting := [2]
  lhsNonContracting := [1]
  rhsNonContracting := [1]
  lhsBatch := [0]
  rhsBatch := [0]
  wf := dot_S4x256x512_S4x256x512_S4x256x256_2_2_1_1_0_0_wf
def dot_S4x256x256_S4x256x1024_S4x256x1024_1_1_2_2_0_0 : DotDims S4x256x256 S4x256x1024 S4x256x1024 where
  lhsContracting := [1]
  rhsContracting := [1]
  lhsNonContracting := [2]
  rhsNonContracting := [2]
  lhsBatch := [0]
  rhsBatch := [0]
  wf := dot_S4x256x256_S4x256x1024_S4x256x1024_1_1_2_2_0_0_wf

abbrev win0_0 : Pipeline.Window sig grid0 :=
  Pipeline.Window.ofSpec (Memref.whole main_arg0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S8x128x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S8x128x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S8x128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_1) S8x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S8x256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S8x512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v2_0) S4x256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_1) S4x256x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2_2) S4x256x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S4x256x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg0) S4x256x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v4) S4x256x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x512 : Shape := ⟨2, ![1024, 512]⟩
abbrev S512 : Shape := ⟨1, ![512]⟩
abbrev S8x2048x512 : Shape := ⟨3, ![8, 2048, 512]⟩
abbrev S1x1x512 : Shape := ⟨3, ![1, 1, 512]⟩
abbrev S_ : Shape := ⟨0, ![]⟩
abbrev S8x2048x2048 : Shape := ⟨3, ![8, 2048, 2048]⟩
abbrev S8x2048 : Shape := ⟨2, ![8, 2048]⟩
abbrev S8x1x2048 : Shape := ⟨3, ![8, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x512, .f32⟩
  | .hbm, ⟨2, _⟩ => ⟨S512, .f32⟩
  | .hbm, ⟨3, _⟩ => ⟨S1024x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S8x2048x512, .f32⟩
  | .hbm, ⟨8, _⟩ => ⟨S1x1x512, .f32⟩
  | .hbm, ⟨9, _⟩ => ⟨S8x2048x512, .f32⟩
  | .hbm, ⟨10, _⟩ => ⟨S8x2048x512, .f32⟩
  | .hbm, ⟨11, _⟩ => ⟨S8x2048x512, .f32⟩
  | .hbm, ⟨12, _⟩ => ⟨S8x2048x512, .f32⟩
  | .hbm, ⟨13, _⟩ => ⟨S1x1x512, .f32⟩
  | .hbm, ⟨14, _⟩ => ⟨S8x2048x512, .f32⟩
  | .hbm, ⟨15, _⟩ => ⟨S8x2048x512, .f32⟩
  | .hbm, ⟨16, _⟩ => ⟨S8x2048x512, .f32⟩
  | .hbm, ⟨17, _⟩ => ⟨S8x2048x512, .f32⟩
  | .hbm, ⟨18, _⟩ => ⟨S_, .f32⟩
  | .hbm, ⟨19, _⟩ => ⟨S8x2048x512, .f32⟩
  | .hbm, ⟨20, _⟩ => ⟨S8x2048x512, .f32⟩
  | .hbm, ⟨21, _⟩ => ⟨S_, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S1x1x512, .f32⟩
  | .hbm, ⟨26, _⟩ => ⟨S8x2048x512, .f32⟩
  | .hbm, ⟨27, _⟩ => ⟨S8x2048x512, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x1x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x1x2048, .f32⟩
  | .hbm, ⟨41, _⟩ => ⟨S8x2048x2048, .f32⟩
  | .hbm, ⟨42, _⟩ => ⟨S8x2048x2048, .f32⟩
  | .hbm, ⟨43, _⟩ => ⟨S8x2048x1024, .f32⟩
  | .hbm, ⟨44, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  bcast_S_S8x2048x512 : S_.BroadcastsInDim S8x2048x512 (![] : Fin 0 → Fin S8x2048x512.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x1024_S1024x512_S8x2048x512_2_0_01_1_n_n_wf : DotDims.WF S8x2048x1024 S1024x512 S8x2048x512 [2] [0] [0, 1] [1] [] []
  dot_S8x2048x512_S8x2048x512_S8x2048x2048_2_2_1_1_0_0_wf : DotDims.WF S8x2048x512 S8x2048x512 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x512_S8x2048x512_2_0_01_1_n_n : DotDims S8x2048x1024 S1024x512 S8x2048x512 where
  lhsContracting := [2]
  rhsContracting := [0]
  lhsNonContracting := [0, 1]
  rhsNonContracting := [1]
  lhsBatch := []
  rhsBatch := []
  wf := dot_S8x2048x1024_S1024x512_S8x2048x512_2_0_01_1_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KB.R0.lean ====
/-
  The first kernel region (the projections) at a generic grid point, for any float instance.

  A point of the grid of 16 takes the block of 128 rows of every batch of the input, the two weight matrices and the
  two bias rows, and leaves three blocks: the sigmoid of the first projection, the second projection, and the input
  block itself in the narrow format. Each output buffer is stored whole, once, with a pure function of the loaded
  input blocks, so what it holds after the body is that function of the blocks the windows stage at the point.
-/
import proofs.«133348_j60799557042445_2_alg».proof.Proof.Gen.Kernel.Launch
import proofs.«133348_j60799557042445_2_alg».proof.Proof.Gen.Kernel.Skeleton
import proofs.«133348_j60799557042445_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S8x128x1024 := Rect.unit (s := S8x128x1024) ![0, 0, 0] S8x128x1024.size inb_S8x128x1024_S8x128x1024_0_0_0
abbrev r0_w : Rect S1024x512 := Rect.unit (s := S1024x512) ![0, 0] S1024x512.size inb_S1024x512_S1024x512_0_0
abbrev r0_b : Rect S512 := Rect.unit (s := S512) ![0] S512.size inb_S512_S512_0
abbrev r0_o : Rect S8x128x512 := Rect.unit (s := S8x128x512) ![0, 0, 0] S8x128x512.size inb_S8x128x512_S8x128x512_0_0_0

/-- The first projection's output block: one whole store of the sigmoid of the block's rows times the first weight plus its bias. -/
def out0_5 (x0 : Vec F S8x128x1024 .f32) (x1 : Vec F S1024x512 .bf16) (x2 : Vec F S512 .f32) : Vec F S8x128x512 .bf16 :=
  View.canon [⟨r0_o, k0_pay3 (View.ld x0 r0_x) (View.ld x1 r0_w) (View.ld x2 r0_b)⟩]
/-- The second projection's output block: one whole store of the block's rows times the second weight plus its bias. -/
def out0_6 (x0 : Vec F S8x128x1024 .f32) (x3 : Vec F S1024x512 .bf16) (x4 : Vec F S512 .f32) : Vec F S8x128x512 .bf16 :=
  View.canon [⟨r0_o, k0_pay4 (View.ld x0 r0_x) (View.ld x3 r0_w) (View.ld x4 r0_b)⟩]
/-- The narrow copy of the input block: one whole store. -/
def out0_7 (x0 : Vec F S8x128x1024 .f32) : Vec F S8x128x1024 .bf16 :=
  View.canon [⟨r0_x, k0_pay1 (View.ld x0 r0_x)⟩]

theorem cover0_o (p0 : Vec F S8x128x512 .bf16) (y : S8x128x512.Idx) :
    ∃ pc ∈ ([⟨r0_o, p0⟩] : List (View.Piece (Elt F) S8x128x512 .bf16)), y ∈ pc.1.set :=
  View.cover_of_tiled [⟨r0_o, p0⟩] S8x128x512.size (by rfl) y
theorem cover0_x (p0 : Vec F S8x128x1024 .bf16) (y : S8x128x1024.Idx) :
    ∃ pc ∈ ([⟨r0_x, p0⟩] : List (View.Piece (Elt F) S8x128x1024 .bf16)), y ∈ pc.1.set :=
  View.cover_of_tiled [⟨r0_x, p0⟩] S8x128x1024.size (by rfl) y

set_option maxHeartbeats 4000000 in
/-- The body on whole staging memrefs: the five inputs at read contents, the three outputs at anything, runs to the
    continuation holding the inputs as they were and each output at its function of the inputs. -/
theorem sound_kernel0 (c : Dev nD) (E : Set ℕ) (i : grid0.Coords)
    (arg1 : Memref sig .tc .vmem S8x128x1024 .f32) (harg1 : arg1.IsWhole) (arg2 : Memref sig .tc .vmem S1024x512 .bf16) (harg2 : arg2.IsWhole)
    (arg3 : Memref sig .tc .vmem S512 .f32) (harg3 : arg3.IsWhole) (arg4 : Memref sig .tc .vmem S1024x512 .bf16) (harg4 : arg4.IsWhole)
    (arg5 : Memref sig .tc .vmem S512 .f32) (harg5 : arg5.IsWhole) (arg6 : Memref sig .tc .vmem S8x128x512 .bf16) (harg6 : arg6.IsWhole)
    (arg7 : Memref sig .tc .vmem S8x128x512 .bf16) (harg7 : arg7.IsWhole) (arg8 : Memref sig .tc .vmem S8x128x1024 .bf16) (harg8 : arg8.IsWhole)
    (x0 : Vec F S8x128x1024 .f32) (x1 : Vec F S1024x512 .bf16) (x2 : Vec F S512 .f32) (x3 : Vec F S1024x512 .bf16) (x4 : Vec F S512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x3 x4)
            ∗ owns (c : Thread nD τ) arg8 fullShare (out0_7 x0)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_o _)
  isplitl [H6]
  · iexists _; isplitr
    swap; · iexact H6
    ipureintro
    exact View.read_writes_eq_canon _ _ _ (cover0_o _)
  iexists _; isplitr
  swap; · iexact H7
  ipureintro
  exact View.read_writes_eq_canon _ _ _ (cover0_x _)

/-- The proof data of the first region on core `c`: the arrays as the region finds them; after the body at a point
    each input's buffer at its block, each output's at its function of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
    | ⟨7, _⟩ => out0_7 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 3 t) (iblk0 V c 4 t) := by dsimp only [dat0]
theorem after0_7 (c : Dev nD) (t : Fin cfg0.N) : (dat0 V c).after 7 t = out0_7 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KB.R1Runs.lean ====
/-
  The second kernel region (the column statistics): what its cases share, for any float instance.

  The grid is 4 × 8: the first coordinate picks a block of 512 columns, the second sweeps the 2048 rows in blocks of
  256. At the first row block the running maximum and the running sum kept in the two scratch buffers are reset; at
  every row block they are updated; at the last one the output block receives maximum + log sum. So a point is in one
  of three cases (first, middle, last), the output window is idle except at the last row block, and the two scratch
  buffers are carried from point to point.
-/
import proofs.«133348_j60799557042445_2_alg».proof.Proof.Gen.Kernel.Launch
import proofs.«133348_j60799557042445_2_alg».proof.Proof.Gen.Kernel.Skeleton
import proofs.«133348_j60799557042445_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-- The first row block: the reset is taken. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The last row block: the output is written. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev VO1_2 : View sig .tc .vmem S8x512x1 .f32 := (Memref.whole cc1_stg2_0 : Memref sig .tc .vmem S8x512x1 .f32).view
abbrev ms1_0 (t : Fin cfg1.N) : Memref sig .tc .vmem S8x512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x256x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x512x1 .f32 := win1_2.stage (cfg1.slots t 2)
abbrev hs1_2 (t : Fin cfg1.N) : (ms1_2 t).IsWhole := hstage1_2 ((cfg1.slots t 2).cast nbuf1_2)
abbrev scM1_0 : Memref sig .tc .vmem S8x512x1 .f32 := Memref.whole cc1_scratch0
abbrev scM1_1 : Memref sig .tc .vmem S8x512x1 .f32 := Memref.whole cc1_scratch1
abbrev VS1_0 : View sig .tc .vmem S8x512x1 .f32 := scM1_0.view
abbrev VS1_1 : View sig .tc .vmem S8x512x1 .f32 := scM1_1.view

/-- The region's invariant with the two scratch buffers as memrefs owned at some contents, the other scoped
    buffers unopened. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

end Cert.Kernel.Hand

end
-- ==== Proof.KB.R1A.lean ====
/- The second region's body run in case A (first row block: reset, then update). -/
import proofs.«133348_j60799557042445_2_alg».proof.Proof.KB.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case A: the pieces the stores leave in the output's buffer and in the two scratch buffers (last
    first) are found by running the body; the inputs are handed back as they were. -/
noncomputable def kernelRun1_A (c : Dev nD) (i : grid1.Coords) (arg2 : Memref sig .tc .vmem S8x512x512 .bf16) (harg2 : arg2.IsWhole) (arg3 : Memref sig .tc .vmem S8x256x512 .bf16) (harg3 : arg3.IsWhole) (arg4 : Memref sig .tc .vmem S8x512x1 .f32) (harg4 : arg4.IsWhole) (arg5 : Memref sig .tc .vmem S8x512x1 .f32) (harg5 : arg5.IsWhole) (arg6 : Memref sig .tc .vmem S8x512x1 .f32) (harg6 : arg6.IsWhole) (hc0 : cond1_0 i) (hc1 : ¬cond1_1 i)
    (x0 : Vec F S8x512x512 .bf16) (x1 : Vec F S8x256x512 .bf16) :
    Σ' (L2 : List (View.Piece (Elt F) S8x512x1 .f32)) (LS0 : List (View.Piece (Elt F) S8x512x1 .f32)), { LS1 : List (View.Piece (Elt F) S8x512x1 .f32) //
      ∀ (xi2 : Vec F S8x512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg2 harg2 arg3 harg3 arg4 harg4 arg5 harg5 arg6 harg6) K } := by
  refine ⟨[], ?_, ?_, fun xi2 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.KB.R1B.lean ====
/- The second region's body run in case B (a middle row block: update). -/
import proofs.«133348_j60799557042445_2_alg».proof.Proof.KB.R1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case B: the pieces the stores leave in the output's buffer and in the two scratch buffers (last
    first) are found by running the body; the inputs are handed back as they were. -/
noncomputable def kernelRun1_B (c : Dev nD) (i : grid1.Coords) (arg2 : Memref sig .tc .vmem S8x512x512 .bf16) (harg2 : arg2.IsWhole) (arg3 : Memref sig .tc .vmem S8x256x512 .bf16) (harg3 : arg3.IsWhole) (arg4 : Memref sig .tc .vmem S8x512x1 .f32) (harg4 : arg4.IsWhole) (arg5 : Memref sig .tc .vmem S8x512x1 .f32) (harg5 : arg5.IsWhole) (arg6 : Memref sig .tc .vmem S8x512x1 .f32) (harg6 : arg6.IsWhole) (hc0 : ¬cond1_0 i) (hc1 : ¬cond1_1 i)
    (x0 : Vec F S8x512x512 .bf16) (x1 : Vec F S8x256x512 .bf16) (xs0 : Vec F S8x512x1 .f32) (xs1 : Vec F S8x512x1 .f32) :
    Σ' (L2 : List (View.Piece (Elt F) S8x512x1 .f32)) (LS0 : List (View.Piece (Elt F) S8x512x1 .f32)), { LS1 : List (View.Piece (Elt F) S8x512x1 .f32) //
      ∀ (xi2 : Vec F S8x512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg2 harg2 arg3 harg3 arg4 harg4 arg5 harg5 arg6 harg6) K } := by
  refine ⟨[], ?_, ?_, fun xi2 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.KB.R1C.lean ====
/- The second region's body run in case C (last row block: update, then the output). -/
import proofs.«133348_j60799557042445_2_alg».proof.Proof.KB.R1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case C: the pieces the stores leave in the output's buffer and in the two scratch buffers (last
    first) are found by running the body; the inputs are handed back as they were. -/
noncomputable def kernelRun1_C (c : Dev nD) (i : grid1.Coords) (arg2 : Memref sig .tc .vmem S8x512x512 .bf16) (harg2 : arg2.IsWhole) (arg3 : Memref sig .tc .vmem S8x256x512 .bf16) (harg3 : arg3.IsWhole) (arg4 : Memref sig .tc .vmem S8x512x1 .f32) (harg4 : arg4.IsWhole) (arg5 : Memref sig .tc .vmem S8x512x1 .f32) (harg5 : arg5.IsWhole) (arg6 : Memref sig .tc .vmem S8x512x1 .f32) (harg6 : arg6.IsWhole) (hc0 : ¬cond1_0 i) (hc1 : cond1_1 i)
    (x0 : Vec F S8x512x512 .bf16) (x1 : Vec F S8x256x512 .bf16) (xs0 : Vec F S8x512x1 .f32) (xs1 : Vec F S8x512x1 .f32) :
    Σ' (L2 : List (View.Piece (Elt F) S8x512x1 .f32)) (LS0 : List (View.Piece (Elt F) S8x512x1 .f32)), { LS1 : List (View.Piece (Elt F) S8x512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg2 harg2 arg3 harg3 arg4 harg4 arg5 harg5 arg6 harg6) K } := by
  refine ⟨?_, ?_, ?_, fun E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.KB.R1.lean ====
/-
  The second kernel region (the column statistics), point by point: what the output's buffer and the two carried
  scratch buffers hold after each point, the proof data, and the body obligation at a generic point.
-/
import proofs.«133348_j60799557042445_2_alg».proof.Proof.KB.R1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The run of case A at the point `t`, on the point's staging memrefs and the scratch. -/
abbrev run1_A (c : Dev nD) (t : Fin cfg1.N) (hc0 : cond1_0 (grid1.coords t)) (hc1 : ¬cond1_1 (grid1.coords t)) (x0 : Vec F S8x512x512 .bf16) (x1 : Vec F S8x256x512 .bf16) :=
  (kernelRun1_A c (grid1.coords t) (ms1_0 t) (hs1_0 t) (ms1_1 t) (hs1_1 t) (ms1_2 t) (hs1_2 t) scM1_0 (Memref.isWhole_whole _) scM1_1 (Memref.isWhole_whole _) hc0 hc1 x0 x1)

/-- What case A leaves at the point: the output's buffer (a placeholder where the case stores nothing into it) and the
    scratch, each its pieces read back. -/
def res1_A (c : Dev nD) (t : Fin cfg1.N) (hc0 : cond1_0 (grid1.coords t)) (hc1 : ¬cond1_1 (grid1.coords t)) (x0 : Vec F S8x512x512 .bf16) (x1 : Vec F S8x256x512 .bf16) : Vec F S8x512x1 .f32 × Vec F S8x512x1 .f32 × Vec F S8x512x1 .f32 :=
  (VO1_2.read (Elt F) (VO1_2.writes (Elt F) VO1_2.junk (run1_A c t hc0 hc1 x0 x1).1), VS1_0.read (Elt F) (VS1_0.writes (Elt F) VS1_0.junk (run1_A c t hc0 hc1 x0 x1).2.1), VS1_1.read (Elt F) (VS1_1.writes (Elt F) VS1_1.junk (run1_A c t hc0 hc1 x0 x1).2.2.1))

theorem scover1_A_0 (c : Dev nD) (t : Fin cfg1.N) (hc0 : cond1_0 (grid1.coords t)) (hc1 : ¬cond1_1 (grid1.coords t)) (x0 : Vec F S8x512x512 .bf16) (x1 : Vec F S8x256x512 .bf16) (y : S8x512x1.Idx) :
    ∃ pc ∈ (run1_A c t hc0 hc1 x0 x1).2.1, y ∈ pc.1.set :=
  View.cover_of_tiledL (run1_A c t hc0 hc1 x0 x1).2.1 S8x512x1.size (by sl_kernel_rfl) y
theorem scover1_A_1 (c : Dev nD) (t : Fin cfg1.N) (hc0 : cond1_0 (grid1.coords t)) (hc1 : ¬cond1_1 (grid1.coords t)) (x0 : Vec F S8x512x512 .bf16) (x1 : Vec F S8x256x512 .bf16) (y : S8x512x1.Idx) :
    ∃ pc ∈ (run1_A c t hc0 hc1 x0 x1).2.2.1, y ∈ pc.1.set :=
  View.cover_of_tiledL (run1_A c t hc0 hc1 x0 x1).2.2.1 S8x512x1.size (by sl_kernel_rfl) y

/-- The run of case B at the point `t`, on the point's staging memrefs and the scratch. -/
abbrev run1_B (c : Dev nD) (t : Fin cfg1.N) (hc0 : ¬cond1_0 (grid1.coords t)) (hc1 : ¬cond1_1 (grid1.coords t)) (x0 : Vec F S8x512x512 .bf16) (x1 : Vec F S8x256x512 .bf16) (xs0 : Vec F S8x512x1 .f32) (xs1 : Vec F S8x512x1 .f32) :=
  (kernelRun1_B c (grid1.coords t) (ms1_0 t) (hs1_0 t) (ms1_1 t) (hs1_1 t) (ms1_2 t) (hs1_2 t) scM1_0 (Memref.isWhole_whole _) scM1_1 (Memref.isWhole_whole _) hc0 hc1 x0 x1 xs0 xs1)

/-- What case B leaves at the point: the output's buffer (a placeholder where the case stores nothing into it) and the
    scratch, each its pieces read back. -/
def res1_B (c : Dev nD) (t : Fin cfg1.N) (hc0 : ¬cond1_0 (grid1.coords t)) (hc1 : ¬cond1_1 (grid1.coords t)) (x0 : Vec F S8x512x512 .bf16) (x1 : Vec F S8x256x512 .bf16) (xs0 : Vec F S8x512x1 .f32) (xs1 : Vec F S8x512x1 .f32) : Vec F S8x512x1 .f32 × Vec F S8x512x1 .f32 × Vec F S8x512x1 .f32 :=
  (VO1_2.read (Elt F) (VO1_2.writes (Elt F) VO1_2.junk (run1_B c t hc0 hc1 x0 x1 xs0 xs1).1), VS1_0.read (Elt F) (VS1_0.writes (Elt F) VS1_0.junk (run1_B c t hc0 hc1 x0 x1 xs0 xs1).2.1), VS1_1.read (Elt F) (VS1_1.writes (Elt F) VS1_1.junk (run1_B c t hc0 hc1 x0 x1 xs0 xs1).2.2.1))

theorem scover1_B_0 (c : Dev nD) (t : Fin cfg1.N) (hc0 : ¬cond1_0 (grid1.coords t)) (hc1 : ¬cond1_1 (grid1.coords t)) (x0 : Vec F S8x512x512 .bf16) (x1 : Vec F S8x256x512 .bf16) (xs0 : Vec F S8x512x1 .f32) (xs1 : Vec F S8x512x1 .f32) (y : S8x512x1.Idx) :
    ∃ pc ∈ (run1_B c t hc0 hc1 x0 x1 xs0 xs1).2.1, y ∈ pc.1.set :=
  View.cover_of_tiledL (run1_B c t hc0 hc1 x0 x1 xs0 xs1).2.1 S8x512x1.size (by sl_kernel_rfl) y
theorem scover1_B_1 (c : Dev nD) (t : Fin cfg1.N) (hc0 : ¬cond1_0 (grid1.coords t)) (hc1 : ¬cond1_1 (grid1.coords t)) (x0 : Vec F S8x512x512 .bf16) (x1 : Vec F S8x256x512 .bf16) (xs0 : Vec F S8x512x1 .f32) (xs1 : Vec F S8x512x1 .f32) (y : S8x512x1.Idx) :
    ∃ pc ∈ (run1_B c t hc0 hc1 x0 x1 xs0 xs1).2.2.1, y ∈ pc.1.set :=
  View.cover_of_tiledL (run1_B c t hc0 hc1 x0 x1 xs0 xs1).2.2.1 S8x512x1.size (by sl_kernel_rfl) y

/-- The run of case C at the point `t`, on the point's staging memrefs and the scratch. -/
abbrev run1_C (c : Dev nD) (t : Fin cfg1.N) (hc0 : ¬cond1_0 (grid1.coords t)) (hc1 : cond1_1 (grid1.coords t)) (x0 : Vec F S8x512x512 .bf16) (x1 : Vec F S8x256x512 .bf16) (xs0 : Vec F S8x512x1 .f32) (xs1 : Vec F S8x512x1 .f32) :=
  (kernelRun1_C c (grid1.coords t) (ms1_0 t) (hs1_0 t) (ms1_1 t) (hs1_1 t) (ms1_2 t) (hs1_2 t) scM1_0 (Memref.isWhole_whole _) scM1_1 (Memref.isWhole_whole _) hc0 hc1 x0 x1 xs0 xs1)

/-- What case C leaves at the point: the output's buffer (a placeholder where the case stores nothing into it) and the
    scratch, each its pieces read back. -/
def res1_C (c : Dev nD) (t : Fin cfg1.N) (hc0 : ¬cond1_0 (grid1.coords t)) (hc1 : cond1_1 (grid1.coords t)) (x0 : Vec F S8x512x512 .bf16) (x1 : Vec F S8x256x512 .bf16) (xs0 : Vec F S8x512x1 .f32) (xs1 : Vec F S8x512x1 .f32) : Vec F S8x512x1 .f32 × Vec F S8x512x1 .f32 × Vec F S8x512x1 .f32 :=
  (VO1_2.read (Elt F) (VO1_2.writes (Elt F) VO1_2.junk (run1_C c t hc0 hc1 x0 x1 xs0 xs1).1), VS1_0.read (Elt F) (VS1_0.writes (Elt F) VS1_0.junk (run1_C c t hc0 hc1 x0 x1 xs0 xs1).2.1), VS1_1.read (Elt F) (VS1_1.writes (Elt F) VS1_1.junk (run1_C c t hc0 hc1 x0 x1 xs0 xs1).2.2.1))

theorem scover1_C_0 (c : Dev nD) (t : Fin cfg1.N) (hc0 : ¬cond1_0 (grid1.coords t)) (hc1 : cond1_1 (grid1.coords t)) (x0 : Vec F S8x512x512 .bf16) (x1 : Vec F S8x256x512 .bf16) (xs0 : Vec F S8x512x1 .f32) (xs1 : Vec F S8x512x1 .f32) (y : S8x512x1.Idx) :
    ∃ pc ∈ (run1_C c t hc0 hc1 x0 x1 xs0 xs1).2.1, y ∈ pc.1.set :=
  View.cover_of_tiledL (run1_C c t hc0 hc1 x0 x1 xs0 xs1).2.1 S8x512x1.size (by sl_kernel_rfl) y
theorem scover1_C_1 (c : Dev nD) (t : Fin cfg1.N) (hc0 : ¬cond1_0 (grid1.coords t)) (hc1 : cond1_1 (grid1.coords t)) (x0 : Vec F S8x512x512 .bf16) (x1 : Vec F S8x256x512 .bf16) (xs0 : Vec F S8x512x1 .f32) (xs1 : Vec F S8x512x1 .f32) (y : S8x512x1.Idx) :
    ∃ pc ∈ (run1_C c t hc0 hc1 x0 x1 xs0 xs1).2.2.1, y ∈ pc.1.set :=
  View.cover_of_tiledL (run1_C c t hc0 hc1 x0 x1 xs0 xs1).2.2.1 S8x512x1.size (by sl_kernel_rfl) y
theorem cover1_C_2 (c : Dev nD) (t : Fin cfg1.N) (hc0 : ¬cond1_0 (grid1.coords t)) (hc1 : cond1_1 (grid1.coords t)) (x0 : Vec F S8x512x512 .bf16) (x1 : Vec F S8x256x512 .bf16) (xs0 : Vec F S8x512x1 .f32) (xs1 : Vec F S8x512x1 .f32) (y : S8x512x1.Idx) :
    ∃ pc ∈ (run1_C c t hc0 hc1 x0 x1 xs0 xs1).1, y ∈ pc.1.set :=
  View.cover_of_tiledL (run1_C c t hc0 hc1 x0 x1 xs0 xs1).1 S8x512x1.size (by sl_kernel_rfl) y

/-- THE ACCUMULATION. What the output's buffer and the carried scratch hold after the body at position `n`: the
    case the position is in, run at the point's input blocks, the scratch it starts from what position `n - 1` left. -/
def outsAt1 (c : Dev nD) : (n : ℕ) → n < cfg1.N → Vec F S8x512x1 .f32 × Vec F S8x512x1 .f32 × Vec F S8x512x1 .f32
  | 0, hn => res1_A c ⟨0, hn⟩ ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩)
  | n + 1, hn =>
    if h0 : (n + 1) % 8 = 0 then
      if h1 : (n + 1) % 8 = 7 then
        False.elim (by omega)
      else
        res1_A c ⟨n + 1, hn⟩ ((hcond1_0 ⟨n + 1, hn⟩).mpr h0) (fun h => h1 ((hcond1_1 ⟨n + 1, hn⟩).mp h)) (iblk1 V c 0 ⟨n + 1, hn⟩) (iblk1 V c 1 ⟨n + 1, hn⟩)
    else
      if h1 : (n + 1) % 8 = 7 then
        res1_C c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2
      else
        res1_B c ⟨n + 1, hn⟩ (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2

theorem outsAt1_A (c : Dev nD) (t : Fin cfg1.N) (h0 : t.val % 8 = 0) (h1 : ¬t.val % 8 = 7) :
    outsAt1 V c t.val t.isLt = res1_A c t ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = res1_B c t (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = res1_C c t (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scoped rest at anything and the generator
    register; afterwards the carried scratch at what the point before left, the other scoped buffers unopened. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2)) ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2)) ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2)) ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point: the inputs' memrefs hold their blocks; the position modulo 8 says which case the point is
    in; the invariant hands the body the carried scratch at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold res1_A; (try dsimp only)
      by_cases hz : t.val = 0
      · rw [PhiS1_castSucc V c t, PhiS1_zero V c _ _ hz, PhiA1_eq]
        iintro ⟨⟨⟨⟨HS0, HS1⟩, Hrest⟩, Hg⟩, Ho, ⟨%d0, H0⟩, ⟨%d1, H1⟩, ⟨%d2, H2⟩⟩
        iapply ((run1_A c t ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_A_0 c t _ _ _ _)
              unfold owns; iexists _; isplitr
              swap; · iexact HS1
              ipureintro; exact View.read_writes_of_cover _ _ _ _ _ (scover1_A_1 c t _ _ _ _)
            iexact Hrest
          iexact Hg
        isplitl [Ho]; · iexact Ho
        isplitl [H0]; · iexact H0
        isplitl [H1]; · iexact H1
        iexists _; iexact H2

      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩⟩
        iapply ((run1_A c t ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_A_0 c t _ _ _ _)
              unfold owns; iexists _; isplitr
              swap; · iexact HS1
              ipureintro; exact View.read_writes_of_cover _ _ _ _ _ (scover1_A_1 c t _ _ _ _)
            iexact Hrest
          iexact Hg
        isplitl [Ho]; · iexact Ho
        isplitl [H0]; · iexact H0
        isplitl [H1]; · iexact H1
        iexists _; iexact H2

  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold res1_C; (try dsimp only)
      by_cases hz : t.val = 0
      · exfalso; omega
      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩⟩
        iapply ((run1_C c t (fun h => h0 ((hcond1_0 t).mp h)) ((hcond1_1 t).mpr h1) (iblk1 V c 0 t) (iblk1 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_C_0 c t _ _ _ _ _ _)
              unfold owns; iexists _; isplitr
              swap; · iexact HS1
              ipureintro; exact View.read_writes_of_cover _ _ _ _ _ (scover1_C_1 c t _ _ _ _ _ _)
            iexact Hrest
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c t _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold res1_B; (try dsimp only)
      by_cases hz : t.val = 0
      · exfalso; omega
      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩⟩
        iapply ((run1_B c t (fun h => h0 ((hcond1_0 t).mp h)) (fun h => h1 ((hcond1_1 t).mp h)) (iblk1 V c 0 t) (iblk1 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_B_0 c t _ _ _ _ _ _)
              unfold owns; iexists _; isplitr
              swap; · iexact HS1
              ipureintro; exact View.read_writes_of_cover _ _ _ _ _ (scover1_B_1 c t _ _ _ _ _ _)
            iexact Hrest
          iexact Hg
        isplitl [Ho]; · iexact Ho
        isplitl [H0]; · iexact H0
        isplitl [H1]; · iexact H1
        iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the carried scratch's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region1

end Cert.Kernel.Hand

end
-- ==== Proof.KB.R2Runs.lean ====
/-
  The third kernel region (the weighted sum): what its cases share, for any float instance.

  The grid is 2 × 8 × 8: a block of 4 batches, a block of 256 output rows, and a sweep over the 2048 summed rows in
  blocks of 256. At the first summed block the accumulator kept in the scratch buffer is reset; at every block the
  product of the normalised weights with the rows is added to it; at the last block the output block receives the
  accumulator plus the input rows. The output window is idle except at the last summed block.
-/
import proofs.«133348_j60799557042445_2_alg».proof.Proof.Gen.Kernel.Launch
import proofs.«133348_j60799557042445_2_alg».proof.Proof.Gen.Kernel.Skeleton
import proofs.«133348_j60799557042445_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Region2

/-- The first summed block: the reset is taken. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The last summed block: the output is written. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

abbrev VO2_5 : View sig .tc .vmem S4x256x1024 .f32 := (Memref.whole cc2_stg5_0 : Memref sig .tc .vmem S4x256x1024 .f32).view
abbrev ms2_0 (t : Fin cfg2.N) : Memref sig .tc .vmem S4x256x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4x256x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x256x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4x256x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4x256x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4x256x1024 .f32 := win2_5.stage (cfg2.slots t 5)
abbrev hs2_5 (t : Fin cfg2.N) : (ms2_5 t).IsWhole := hstage2_5 ((cfg2.slots t 5).cast nbuf2_5)
abbrev scM2_0 : Memref sig .tc .vmem S4x256x1024 .f32 := Memref.whole cc2_scratch0
abbrev VS2_0 : View sig .tc .vmem S4x256x1024 .f32 := scM2_0.view

/-- The third region's scoped rest split at its accumulator. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The region's invariant with the accumulator as a memref owned at some contents, the other scoped buffers unopened. -/
theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2_0, owns_whole]; try rfl

end Cert.Kernel.Hand

end
-- ==== Proof.KB.R2A.lean ====
/- The third region's body run in case A (first summed block: reset, then accumulate). -/
import proofs.«133348_j60799557042445_2_alg».proof.Proof.KB.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case A: the pieces the stores leave in the output's buffer and in the accumulator (last first)
    are found by running the body; the inputs are handed back as they were. -/
noncomputable def kernelRun2_A (c : Dev nD) (i : grid2.Coords) (arg3 : Memref sig .tc .vmem S4x256x512 .bf16) (harg3 : arg3.IsWhole) (arg4 : Memref sig .tc .vmem S4x256x512 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1024 .f32) (harg7 : arg7.IsWhole) (arg8 : Memref sig .tc .vmem S4x256x1024 .f32) (harg8 : arg8.IsWhole) (arg9 : Memref sig .tc .vmem S4x256x1024 .f32) (harg9 : arg9.IsWhole) (hc0 : cond2_0 i) (hc1 : ¬cond2_1 i)
    (x0 : Vec F S4x256x512 .bf16) (x1 : Vec F S4x256x512 .bf16) (x2 : Vec F S4x256x1024 .bf16) (x3 : Vec F S4x256x1 .f32) (x4 : Vec F S4x256x1024 .f32) :
    Σ' (L5 : List (View.Piece (Elt F) S4x256x1024 .f32)), { LS0 : List (View.Piece (Elt F) S4x256x1024 .f32) //
      ∀ (xi5 : Vec F S4x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2__weighted_kernel i arg3 harg3 arg4 harg4 arg5 harg5 arg6 harg6 arg7 harg7 arg8 harg8 arg9 harg9) K } := by
  refine ⟨[], ?_, fun xi5 E K => ?run⟩
  case run =>
    simp only [cc2__weighted_kernel_eq_skeleton]; unfold cc2__weighted_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.KB.R2B.lean ====
/- The third region's body run in case B (a middle summed block: accumulate). -/
import proofs.«133348_j60799557042445_2_alg».proof.Proof.KB.R2A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case B: the pieces the stores leave in the output's buffer and in the accumulator (last first)
    are found by running the body; the inputs are handed back as they were. -/
noncomputable def kernelRun2_B (c : Dev nD) (i : grid2.Coords) (arg3 : Memref sig .tc .vmem S4x256x512 .bf16) (harg3 : arg3.IsWhole) (arg4 : Memref sig .tc .vmem S4x256x512 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1024 .f32) (harg7 : arg7.IsWhole) (arg8 : Memref sig .tc .vmem S4x256x1024 .f32) (harg8 : arg8.IsWhole) (arg9 : Memref sig .tc .vmem S4x256x1024 .f32) (harg9 : arg9.IsWhole) (hc0 : ¬cond2_0 i) (hc1 : ¬cond2_1 i)
    (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) :
    Σ' (L5 : List (View.Piece (Elt F) S4x256x1024 .f32)), { LS0 : List (View.Piece (Elt F) S4x256x1024 .f32) //
      ∀ (xi5 : Vec F S4x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2__weighted_kernel i arg3 harg3 arg4 harg4 arg5 harg5 arg6 harg6 arg7 harg7 arg8 harg8 arg9 harg9) K } := by
  refine ⟨[], ?_, fun xi5 E K => ?run⟩
  case run =>
    simp only [cc2__weighted_kernel_eq_skeleton]; unfold cc2__weighted_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.KB.R2C.lean ====
/- The third region's body run in case C (last summed block: accumulate, then the output). -/
import proofs.«133348_j60799557042445_2_alg».proof.Proof.KB.R2B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case C: the pieces the stores leave in the output's buffer and in the accumulator (last first)
    are found by running the body; the inputs are handed back as they were. -/
noncomputable def kernelRun2_C (c : Dev nD) (i : grid2.Coords) (arg3 : Memref sig .tc .vmem S4x256x512 .bf16) (harg3 : arg3.IsWhole) (arg4 : Memref sig .tc .vmem S4x256x512 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1024 .f32) (harg7 : arg7.IsWhole) (arg8 : Memref sig .tc .vmem S4x256x1024 .f32) (harg8 : arg8.IsWhole) (arg9 : Memref sig .tc .vmem S4x256x1024 .f32) (harg9 : arg9.IsWhole) (hc0 : ¬cond2_0 i) (hc1 : cond2_1 i)
    (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) :
    Σ' (L5 : List (View.Piece (Elt F) S4x256x1024 .f32)), { LS0 : List (View.Piece (Elt F) S4x256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc2__weighted_kernel i arg3 harg3 arg4 harg4 arg5 harg5 arg6 harg6 arg7 harg7 arg8 harg8 arg9 harg9) K } := by
  refine ⟨?_, ?_, fun E K => ?run⟩
  case run =>
    simp only [cc2__weighted_kernel_eq_skeleton]; unfold cc2__weighted_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Hand

end
-- ==== Proof.KB.R2.lean ====
/-
  The third kernel region (the weighted sum), point by point: what the output's buffer and the carried accumulator
  hold after each point, the proof data, and the body obligation at a generic point.
-/
import proofs.«133348_j60799557042445_2_alg».proof.Proof.KB.R2C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- The run of case A at the point `t`, on the point's staging memrefs and the scratch. -/
abbrev run2_A (c : Dev nD) (t : Fin cfg2.N) (hc0 : cond2_0 (grid2.coords t)) (hc1 : ¬cond2_1 (grid2.coords t)) (x0 : Vec F S4x256x512 .bf16) (x1 : Vec F S4x256x512 .bf16) (x2 : Vec F S4x256x1024 .bf16) (x3 : Vec F S4x256x1 .f32) (x4 : Vec F S4x256x1024 .f32) :=
  (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) hc0 hc1 x0 x1 x2 x3 x4)

/-- What case A leaves at the point: the output's buffer (a placeholder where the case stores nothing into it) and the
    scratch, each its pieces read back. -/
def res2_A (c : Dev nD) (t : Fin cfg2.N) (hc0 : cond2_0 (grid2.coords t)) (hc1 : ¬cond2_1 (grid2.coords t)) (x0 : Vec F S4x256x512 .bf16) (x1 : Vec F S4x256x512 .bf16) (x2 : Vec F S4x256x1024 .bf16) (x3 : Vec F S4x256x1 .f32) (x4 : Vec F S4x256x1024 .f32) : Vec F S4x256x1024 .f32 × Vec F S4x256x1024 .f32 :=
  (VO2_5.read (Elt F) (VO2_5.writes (Elt F) VO2_5.junk (run2_A c t hc0 hc1 x0 x1 x2 x3 x4).1), VS2_0.read (Elt F) (VS2_0.writes (Elt F) VS2_0.junk (run2_A c t hc0 hc1 x0 x1 x2 x3 x4).2.1))

theorem scover2_A_0 (c : Dev nD) (t : Fin cfg2.N) (hc0 : cond2_0 (grid2.coords t)) (hc1 : ¬cond2_1 (grid2.coords t)) (x0 : Vec F S4x256x512 .bf16) (x1 : Vec F S4x256x512 .bf16) (x2 : Vec F S4x256x1024 .bf16) (x3 : Vec F S4x256x1 .f32) (x4 : Vec F S4x256x1024 .f32) (y : S4x256x1024.Idx) :
    ∃ pc ∈ (run2_A c t hc0 hc1 x0 x1 x2 x3 x4).2.1, y ∈ pc.1.set :=
  View.cover_of_tiledL (run2_A c t hc0 hc1 x0 x1 x2 x3 x4).2.1 S4x256x1024.size (by sl_kernel_rfl) y

/-- The run of case B at the point `t`, on the point's staging memrefs and the scratch. -/
abbrev run2_B (c : Dev nD) (t : Fin cfg2.N) (hc0 : ¬cond2_0 (grid2.coords t)) (hc1 : ¬cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) :=
  (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) hc0 hc1 x0 x1 x2 x3 x4 xs0)

/-- What case B leaves at the point: the output's buffer (a placeholder where the case stores nothing into it) and the
    scratch, each its pieces read back. -/
def res2_B (c : Dev nD) (t : Fin cfg2.N) (hc0 : ¬cond2_0 (grid2.coords t)) (hc1 : ¬cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) : Vec F S4x256x1024 .f32 × Vec F S4x256x1024 .f32 :=
  (VO2_5.read (Elt F) (VO2_5.writes (Elt F) VO2_5.junk (run2_B c t hc0 hc1 x0 x1 x2 x3 x4 xs0).1), VS2_0.read (Elt F) (VS2_0.writes (Elt F) VS2_0.junk (run2_B c t hc0 hc1 x0 x1 x2 x3 x4 xs0).2.1))

theorem scover2_B_0 (c : Dev nD) (t : Fin cfg2.N) (hc0 : ¬cond2_0 (grid2.coords t)) (hc1 : ¬cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) (y : S4x256x1024.Idx) :
    ∃ pc ∈ (run2_B c t hc0 hc1 x0 x1 x2 x3 x4 xs0).2.1, y ∈ pc.1.set :=
  View.cover_of_tiledL (run2_B c t hc0 hc1 x0 x1 x2 x3 x4 xs0).2.1 S4x256x1024.size (by sl_kernel_rfl) y

/-- The run of case C at the point `t`, on the point's staging memrefs and the scratch. -/
abbrev run2_C (c : Dev nD) (t : Fin cfg2.N) (hc0 : ¬cond2_0 (grid2.coords t)) (hc1 : cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) :=
  (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) hc0 hc1 x0 x1 x2 x3 x4 xs0)

/-- What case C leaves at the point: the output's buffer (a placeholder where the case stores nothing into it) and the
    scratch, each its pieces read back. -/
def res2_C (c : Dev nD) (t : Fin cfg2.N) (hc0 : ¬cond2_0 (grid2.coords t)) (hc1 : cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) : Vec F S4x256x1024 .f32 × Vec F S4x256x1024 .f32 :=
  (VO2_5.read (Elt F) (VO2_5.writes (Elt F) VO2_5.junk (run2_C c t hc0 hc1 x0 x1 x2 x3 x4 xs0).1), VS2_0.read (Elt F) (VS2_0.writes (Elt F) VS2_0.junk (run2_C c t hc0 hc1 x0 x1 x2 x3 x4 xs0).2.1))

theorem scover2_C_0 (c : Dev nD) (t : Fin cfg2.N) (hc0 : ¬cond2_0 (grid2.coords t)) (hc1 : cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) (y : S4x256x1024.Idx) :
    ∃ pc ∈ (run2_C c t hc0 hc1 x0 x1 x2 x3 x4 xs0).2.1, y ∈ pc.1.set :=
  View.cover_of_tiledL (run2_C c t hc0 hc1 x0 x1 x2 x3 x4 xs0).2.1 S4x256x1024.size (by sl_kernel_rfl) y
theorem cover2_C_5 (c : Dev nD) (t : Fin cfg2.N) (hc0 : ¬cond2_0 (grid2.coords t)) (hc1 : cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) (y : S4x256x1024.Idx) :
    ∃ pc ∈ (run2_C c t hc0 hc1 x0 x1 x2 x3 x4 xs0).1, y ∈ pc.1.set :=
  View.cover_of_tiledL (run2_C c t hc0 hc1 x0 x1 x2 x3 x4 xs0).1 S4x256x1024.size (by sl_kernel_rfl) y

/-- THE ACCUMULATION. What the output's buffer and the carried scratch hold after the body at position `n`: the
    case the position is in, run at the point's input blocks, the scratch it starts from what position `n - 1` left. -/
def outsAt2 (c : Dev nD) : (n : ℕ) → n < cfg2.N → Vec F S4x256x1024 .f32 × Vec F S4x256x1024 .f32
  | 0, hn => res2_A c ⟨0, hn⟩ ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn =>
    if h0 : (n + 1) % 8 = 0 then
      if h1 : (n + 1) % 8 = 7 then
        False.elim (by omega)
      else
        res2_A c ⟨n + 1, hn⟩ ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
    else
      if h1 : (n + 1) % 8 = 7 then
        res2_C c ⟨n + 1, hn⟩ (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2
      else
        res2_B c ⟨n + 1, hn⟩ (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2

theorem outsAt2_A (c : Dev nD) (t : Fin cfg2.N) (h0 : t.val % 8 = 0) (h1 : ¬t.val % 8 = 7) :
    outsAt2 V c t.val t.isLt = res2_A c t ((hcond2_0 t).mpr h0) (fun h => h1 ((hcond2_1 t).mp h)) (iblk2 V c 0 t) (iblk2 V c 1 t) (iblk2 V c 2 t) (iblk2 V c 3 t) (iblk2 V c 4 t) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = res2_B c t (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = res2_C c t (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scoped rest at anything and the generator
    register; afterwards the carried scratch at what the point before left, the other scoped buffers unopened. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of the region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point: the inputs' memrefs hold their blocks; the position modulo 8 says which case the point is
    in; the invariant hands the body the carried scratch at what the point before left (at anything at the first point) and
    takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 8 = 0
  · by_cases h1 : t.val % 8 = 7
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5 t (fun h => h1 ((hcond2_1 t).mp h))) (noFlush2_5 t (fun h => h1 ((hcond2_1 t).mp h)))]
      rw [outsAt2_A V c t h0 h1]
      unfold res2_A; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((run2_A c t ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c t _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((run2_A c t ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c t _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

  · by_cases h1 : t.val % 8 = 7
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold res2_C; (try dsimp only)
      by_cases hz : t.val = 0
      · exfalso; omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((run2_C c t (fun h => h0 ((hcond2_0 t).mp h)) ((hcond2_1 t).mpr h1) (iblk2 V c 0 t) (iblk2 V c 1 t) (iblk2 V c 2 t) (iblk2 V c 3 t) (iblk2 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_C_0 c t _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 c t _ _ _ _ _ _ _ _)

    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5 t (fun h => h1 ((hcond2_1 t).mp h))) (noFlush2_5 t (fun h => h1 ((hcond2_1 t).mp h)))]
      rw [outsAt2_B V c t h0 h1]
      unfold res2_B; (try dsimp only)
      by_cases hz : t.val = 0
      · exfalso; omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((run2_B c t (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_B_0 c t _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back: the carried scratch's named contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 128 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

end Region2

end Cert.Kernel.Hand

end
-- ==== Proof.KB.Run.lean ====
/-
  The whole run of the three-region program, for any float instance: the buffer contents at every boundary of @main
  (the launch memory, after the two host conversions, after each region's write-backs), each region as a segment over
  the thread state "every unscoped buffer at the boundary's contents", and the run: every weakly fair execution of
  @main terminates without a fault with every unscoped buffer at the last boundary's contents. The argument arrays are
  read back through the boundaries to the launch memory (no host operation and no region writes one).
-/
import proofs.«133348_j60799557042445_2_alg».proof.Proof.KB.R0
import proofs.«133348_j60799557042445_2_alg».proof.Proof.KB.R1
import proofs.«133348_j60799557042445_2_alg».proof.Proof.KB.R2
import proofs.«133348_j60799557042445_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the two host conversions (the first region's entry). -/
abbrev W1 : Dev nD → Valuation τ sig (Elt F) := fun c => StableHlo.after hostOps0 (W0 m c)
abbrev V1' : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1' m) c).arrAt w cfg0.N
theorem W2_arr (c : Dev nD) (w : Fin cfg0.W) :
    W2 m c (Proc.devRef .tc (Pipeline.arrRef spec0 w)) = (dat0 (V1' m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2' : (c : Dev nD) → (b : Ref sig .tc) → Buf (Elt F) ((c : Thread nD τ).loc b) := fun c b => W2 m c b
theorem hF0 (c : Dev nD) (w : Fin cfg0.W) : (dat0 (V1' m) c).arrAt w cfg0.N = V2' m c (Pipeline.arrRef spec0 w) :=
  (W2_arr m c w).symm
theorem hrest0 (c : Dev nD) : ∀ b, b ∉ Finset.univ.image (Pipeline.arrRef spec0) → V2' m c b = V1' m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (V2' m) c).arrAt w cfg1.N
theorem W3_arr (c : Dev nD) (w : Fin cfg1.W) :
    W3 m c (Proc.devRef .tc (Pipeline.arrRef spec1 w)) = (dat1 (V2' m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3' : (c : Dev nD) → (b : Ref sig .tc) → Buf (Elt F) ((c : Thread nD τ).loc b) := fun c b => W3 m c b
theorem hF1 (c : Dev nD) (w : Fin cfg1.W) : (dat1 (V2' m) c).arrAt w cfg1.N = V3' m c (Pipeline.arrRef spec1 w) :=
  (W3_arr m c w).symm
theorem hrest1 (c : Dev nD) : ∀ b, b ∉ Finset.univ.image (Pipeline.arrRef spec1) → V3' m c b = V2' m c b :=
  fun b hb => W3_of_ne m c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m c) fun w => (dat2 (V3' m) c).arrAt w cfg2.N
theorem W4_arr (c : Dev nD) (w : Fin cfg2.W) :
    W4 m c (Proc.devRef .tc (Pipeline.arrRef spec2 w)) = (dat2 (V3' m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4' : (c : Dev nD) → (b : Ref sig .tc) → Buf (Elt F) ((c : Thread nD τ).loc b) := fun c b => W4 m c b
theorem hF2 (c : Dev nD) (w : Fin cfg2.W) : (dat2 (V3' m) c).arrAt w cfg2.N = V4' m c (Pipeline.arrRef spec2 w) :=
  (W4_arr m c w).symm
theorem hrest2 (c : Dev nD) : ∀ b, b ∉ Finset.univ.image (Pipeline.arrRef spec2) → V4' m c b = V3' m c b :=
  fun b hb => W4_of_ne m c b fun w e => hb (Finset.mem_image.mpr ⟨w, Finset.mem_univ _, e⟩)

/-- No host operation writes a buffer other than the two converted weights. -/
theorem W1_of (c : Dev nD) (r : Ref sig .tc) (h : r ∉ hostOps0_W) : W1 m c r = W0 m c r :=
  StableHlo.after_of_writes_sub hostOps0 _ hostOps0_writes h

/-- An argument that no region stages ends as launched. -/
theorem W4_bypass (c : Dev nD) (b : Ref sig .tc) (h2 : ∀ w, Pipeline.arrRef spec2 w ≠ b) (h1 : ∀ w, Pipeline.arrRef spec1 w ≠ b)
    (h0 : ∀ w, Pipeline.arrRef spec0 w ≠ b) (hh : b ∉ hostOps0_W) : W4 m c (Proc.devRef .tc b) = m ((c : Thread nD τ).loc b) :=
  (W4_of_ne m c b h2).trans <| (W3_of_ne m c b h1).trans <| (W2_of_ne m c b h0).trans <| (W1_of m c b hh).trans rfl

theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1' m) c).arrAt_in w hw _).trans (A_eq0 (V1' m) c w))

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 4).trans (((dat2 (V3' m) c).arrAt_in 4 rfl _).trans (A_eq2 (V3' m) c 4))
    _ = W2 m c (Proc.devRef .tc main_arg0) := W3_of_ne m c main_arg0 (by decide)
    _ = W1 m c (Proc.devRef .tc main_arg0) := W2_in m c 0 rfl
    _ = m ((c : Thread nD τ).loc main_arg0) := (W1_of m c main_arg0 (by decide)).trans rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_in m c 2 rfl
    _ = m ((c : Thread nD τ).loc main_arg4) := (W1_of m c main_arg4 (by decide)).trans rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_in m c 4 rfl
    _ = m ((c : Thread nD τ).loc main_arg6) := (W1_of m c main_arg6 (by decide)).trans rfl
theorem W4_main_arg1 (c : Dev nD) : W4 m c (Proc.devRef .tc main_arg1) = m ((c : Thread nD τ).loc main_arg1) :=
  W4_bypass m c main_arg1 (by decide) (by decide) (by decide) (by decide)
theorem W4_main_arg2 (c : Dev nD) : W4 m c (Proc.devRef .tc main_arg2) = m ((c : Thread nD τ).loc main_arg2) :=
  W4_bypass m c main_arg2 (by decide) (by decide) (by decide) (by decide)
theorem W4_main_arg3 (c : Dev nD) : W4 m c (Proc.devRef .tc main_arg3) = m ((c : Thread nD τ).loc main_arg3) :=
  W4_bypass m c main_arg3 (by decide) (by decide) (by decide) (by decide)
theorem W4_main_arg5 (c : Dev nD) : W4 m c (Proc.devRef .tc main_arg5) = m ((c : Thread nD τ).loc main_arg5) :=
  W4_bypass m c main_arg5 (by decide) (by decide) (by decide) (by decide)

/-- The result array at the end is what the last region's write-backs leave in its output window's array. -/
theorem W4_main_v4 (c : Dev nD) : W4 m c (Proc.devRef .tc main_v4) = (dat2 (V3' m) c).arrAt 5 cfg2.N := W4_arr m c 5

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1' m) c
  | ⟨1, _⟩ => fun c => dat1 (V2' m) c
  | ⟨2, _⟩ => fun c => dat2 (V3' m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
/-- Region 0 over the thread state "every unscoped buffer at the boundary's contents, the generator register at some
    state, nothing owed": its arrays split out of the unscoped buffers at entry and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1' m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1' m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1' m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1' m c) (V2' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at the exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2' m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2' m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2' m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (V2' m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (V2' m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2' m c) (V3' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays split out of the unscoped buffers at entry and put back at the exit contents. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3' m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3' m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3' m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m 2 c).Φ 0 from hin2 (V3' m) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ Pipeline.ΦA spec2 c from hout2 (V3' m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3' m c) (V4' m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun _ h => h)

/-- The frame: the seven argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

/-- The run with the result array named: the result holds what the last region's write-backs leave, the arguments as launched. -/
theorem run_value (ρ : Dev nD → PrngReg) : θ_run defs (onTc (τ := τ) (main (F := F))) ⟨m, fun _ => 0, ρ⟩ (fun r => ∀ c : Dev nD,
      r.2.mem ((c.tc : Thread nD τ).loc main_v4) = (dat2 (V3' m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v4 (by decide))).trans (W4_main_v4 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.Kernel.Hand

end
-- ==== Proof.KI.R0.lean ====
/-
  The first kernel region (the projections) at a generic grid point, for any float instance.

  A point of the grid of 16 takes the block of 128 rows of every batch of the input, the two weight matrices and the
  two bias rows, and leaves three blocks: the sigmoid of the first projection, the second projection, and the input
  block itself in the narrow format. Each output buffer is stored whole, once, with a pure function of the loaded
  input blocks, so what it holds after the body is that function of the blocks the windows stage at the point.
-/
import proofs.«133348_j60799557042445_2_alg».proof.Proof.Gen.KernelIdeal.Launch
import proofs.«133348_j60799557042445_2_alg».proof.Proof.Gen.KernelIdeal.Skeleton
import proofs.«133348_j60799557042445_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S8x128x1024 := Rect.unit (s := S8x128x1024) ![0, 0, 0] S8x128x1024.size inb_S8x128x1024_S8x128x1024_0_0_0
abbrev r0_w : Rect S1024x512 := Rect.unit (s := S1024x512) ![0, 0] S1024x512.size inb_S1024x512_S1024x512_0_0
abbrev r0_b : Rect S512 := Rect.unit (s := S512) ![0] S512.size inb_S512_S512_0
abbrev r0_o : Rect S8x128x512 := Rect.unit (s := S8x128x512) ![0, 0, 0] S8x128x512.size inb_S8x128x512_S8x128x512_0_0_0

/-- The first projection's output block: one whole store of the sigmoid of the block's rows times the first weight plus its bias. -/
def out0_5 (x0 : Vec F S8x128x1024 .f32) (x1 : Vec F S1024x512 .bf16) (x2 : Vec F S512 .f32) : Vec F S8x128x512 .bf16 :=
  View.canon [⟨r0_o, k0_pay3 (View.ld x0 r0_x) (View.ld x1 r0_w) (View.ld x2 r0_b)⟩]
/-- The second projection's output block: one whole store of the block's rows times the second weight plus its bias. -/
def out0_6 (x0 : Vec F S8x128x1024 .f32) (x3 : Vec F S1024x512 .bf16) (x4 : Vec F S512 .f32) : Vec F S8x128x512 .bf16 :=
  View.canon [⟨r0_o, k0_pay4 (View.ld x0 r0_x) (View.ld x3 r0_w) (View.ld x4 r0_b)⟩]
/-- The narrow copy of the input block: one whole store. -/
def out0_7 (x0 : Vec F S8x128x1024 .f32) : Vec F S8x128x1024 .bf16 :=
  View.canon [⟨r0_x, k0_pay1 (View.ld x0 r0_x)⟩]

theorem cover0_o (p0 : Vec F S8x128x512 .bf16) (y : S8x128x512.Idx) :
    ∃ pc ∈ ([⟨r0_o, p0⟩] : List (View.Piece (Elt F) S8x128x512 .bf16)), y ∈ pc.1.set :=
  View.cover_of_tiled [⟨r0_o, p0⟩] S8x128x512.size (by rfl) y
theorem cover0_x (p0 : Vec F S8x128x1024 .bf16) (y : S8x128x1024.Idx) :
    ∃ pc ∈ ([⟨r0_x, p0⟩] : List (View.Piece (Elt F) S8x128x1024 .bf16)), y ∈ pc.1.set :=
  View.cover_of_tiled [⟨r0_x, p0⟩] S8x128x1024.size (by rfl) y

set_option maxHeartbeats 4000000 in
/-- The body on whole staging memrefs: the five inputs at read contents, the three outputs at anything, runs to the
    continuation holding the inputs as they were and each output at its function of the inputs. -/
theorem sound_kernel0 (c : Dev nD) (E : Set ℕ) (i : grid0.Coords)
    (arg1 : Memref sig .tc .vmem S8x128x1024 .f32) (harg1 : arg1.IsWhole) (arg2 : Memref sig .tc .vmem S1024x512 .bf16) (harg2 : arg2.IsWhole)
    (arg3 : Memref sig .tc .vmem S512 .f32) (harg3 : arg3.IsWhole) (arg4 : Memref sig .tc .vmem S1024x512 .bf16) (harg4 : arg4.IsWhole)
    (arg5 : Memref sig .tc .vmem S512 .f32) (harg5 : arg5.IsWhole) (arg6 : Memref sig .tc .vmem S8x128x512 .bf16) (harg6 : arg6.IsWhole)
    (arg7 : Memref sig .tc .vmem S8x128x512 .bf16) (harg7 : arg7.IsWhole) (arg8 : Memref sig .tc .vmem S8x128x1024 .bf16) (harg8 : arg8.IsWhole)
    (x0 : Vec F S8x128x1024 .f32) (x1 : Vec F S1024x512 .bf16) (x2 : Vec F S512 .f32) (x3 : Vec F S1024x512 .bf16) (x4 : Vec F S512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x3 x4)
            ∗ owns (c : Thread nD τ) arg8 fullShare (out0_7 x0)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_o _)
  isplitl [H6]
  · iexists _; isplitr
    swap; · iexact H6
    ipureintro
    exact View.read_writes_eq_canon _ _ _ (cover0_o _)
  iexists _; isplitr
  swap; · iexact H7
  ipureintro
  exact View.read_writes_eq_canon _ _ _ (cover0_x _)

/-- The proof data of the first region on core `c`: the arrays as the region finds them; after the body at a point
    each input's buffer at its block, each output's at its function of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
    | ⟨7, _⟩ => out0_7 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 3 t) (iblk0 V c 4 t) := by dsimp only [dat0]
theorem after0_7 (c : Dev nD) (t : Fin cfg0.N) : (dat0 V c).after 7 t = out0_7 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Runs.lean ====
/-
  The second kernel region (the column statistics): what its cases share, for any float instance.

  The grid is 4 × 8: the first coordinate picks a block of 512 columns, the second sweeps the 2048 rows in blocks of
  256. At the first row block the running maximum and the running sum kept in the two scratch buffers are reset; at
  every row block they are updated; at the last one the output block receives maximum + log sum. So a point is in one
  of three cases (first, middle, last), the output window is idle except at the last row block, and the two scratch
  buffers are carried from point to point.
-/
import proofs.«133348_j60799557042445_2_alg».proof.Proof.Gen.KernelIdeal.Launch
import proofs.«133348_j60799557042445_2_alg».proof.Proof.Gen.KernelIdeal.Skeleton
import proofs.«133348_j60799557042445_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-- The first row block: the reset is taken. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The last row block: the output is written. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev VO1_2 : View sig .tc .vmem S8x512x1 .f32 := (Memref.whole cc1_stg2_0 : Memref sig .tc .vmem S8x512x1 .f32).view
abbrev ms1_0 (t : Fin cfg1.N) : Memref sig .tc .vmem S8x512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x256x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x512x1 .f32 := win1_2.stage (cfg1.slots t 2)
abbrev hs1_2 (t : Fin cfg1.N) : (ms1_2 t).IsWhole := hstage1_2 ((cfg1.slots t 2).cast nbuf1_2)
abbrev scM1_0 : Memref sig .tc .vmem S8x512x1 .f32 := Memref.whole cc1_scratch0
abbrev scM1_1 : Memref sig .tc .vmem S8x512x1 .f32 := Memref.whole cc1_scratch1
abbrev VS1_0 : View sig .tc .vmem S8x512x1 .f32 := scM1_0.view
abbrev VS1_1 : View sig .tc .vmem S8x512x1 .f32 := scM1_1.view

/-- The region's invariant with the two scratch buffers as memrefs owned at some contents, the other scoped
    buffers unopened. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

end Cert.KernelIdeal.Hand

end
-- ==== Proof.KI.R1A.lean ====
/- The second region's body run in case A (first row block: reset, then update). -/
import proofs.«133348_j60799557042445_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case A: the pieces the stores leave in the output's buffer and in the two scratch buffers (last
    first) are found by running the body; the inputs are handed back as they were. -/
noncomputable def kernelRun1_A (c : Dev nD) (i : grid1.Coords) (arg2 : Memref sig .tc .vmem S8x512x512 .bf16) (harg2 : arg2.IsWhole) (arg3 : Memref sig .tc .vmem S8x256x512 .bf16) (harg3 : arg3.IsWhole) (arg4 : Memref sig .tc .vmem S8x512x1 .f32) (harg4 : arg4.IsWhole) (arg5 : Memref sig .tc .vmem S8x512x1 .f32) (harg5 : arg5.IsWhole) (arg6 : Memref sig .tc .vmem S8x512x1 .f32) (harg6 : arg6.IsWhole) (hc0 : cond1_0 i) (hc1 : ¬cond1_1 i)
    (x0 : Vec F S8x512x512 .bf16) (x1 : Vec F S8x256x512 .bf16) :
    Σ' (L2 : List (View.Piece (Elt F) S8x512x1 .f32)) (LS0 : List (View.Piece (Elt F) S8x512x1 .f32)), { LS1 : List (View.Piece (Elt F) S8x512x1 .f32) //
      ∀ (xi2 : Vec F S8x512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg2 harg2 arg3 harg3 arg4 harg4 arg5 harg5 arg6 harg6) K } := by
  refine ⟨[], ?_, ?_, fun xi2 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KI.R1B.lean ====
/- The second region's body run in case B (a middle row block: update). -/
import proofs.«133348_j60799557042445_2_alg».proof.Proof.KI.R1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case B: the pieces the stores leave in the output's buffer and in the two scratch buffers (last
    first) are found by running the body; the inputs are handed back as they were. -/
noncomputable def kernelRun1_B (c : Dev nD) (i : grid1.Coords) (arg2 : Memref sig .tc .vmem S8x512x512 .bf16) (harg2 : arg2.IsWhole) (arg3 : Memref sig .tc .vmem S8x256x512 .bf16) (harg3 : arg3.IsWhole) (arg4 : Memref sig .tc .vmem S8x512x1 .f32) (harg4 : arg4.IsWhole) (arg5 : Memref sig .tc .vmem S8x512x1 .f32) (harg5 : arg5.IsWhole) (arg6 : Memref sig .tc .vmem S8x512x1 .f32) (harg6 : arg6.IsWhole) (hc0 : ¬cond1_0 i) (hc1 : ¬cond1_1 i)
    (x0 : Vec F S8x512x512 .bf16) (x1 : Vec F S8x256x512 .bf16) (xs0 : Vec F S8x512x1 .f32) (xs1 : Vec F S8x512x1 .f32) :
    Σ' (L2 : List (View.Piece (Elt F) S8x512x1 .f32)) (LS0 : List (View.Piece (Elt F) S8x512x1 .f32)), { LS1 : List (View.Piece (Elt F) S8x512x1 .f32) //
      ∀ (xi2 : Vec F S8x512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg2 harg2 arg3 harg3 arg4 harg4 arg5 harg5 arg6 harg6) K } := by
  refine ⟨[], ?_, ?_, fun xi2 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KI.R1C.lean ====
/- The second region's body run in case C (last row block: update, then the output). -/
import proofs.«133348_j60799557042445_2_alg».proof.Proof.KI.R1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case C: the pieces the stores leave in the output's buffer and in the two scratch buffers (last
    first) are found by running the body; the inputs are handed back as they were. -/
noncomputable def kernelRun1_C (c : Dev nD) (i : grid1.Coords) (arg2 : Memref sig .tc .vmem S8x512x512 .bf16) (harg2 : arg2.IsWhole) (arg3 : Memref sig .tc .vmem S8x256x512 .bf16) (harg3 : arg3.IsWhole) (arg4 : Memref sig .tc .vmem S8x512x1 .f32) (harg4 : arg4.IsWhole) (arg5 : Memref sig .tc .vmem S8x512x1 .f32) (harg5 : arg5.IsWhole) (arg6 : Memref sig .tc .vmem S8x512x1 .f32) (harg6 : arg6.IsWhole) (hc0 : ¬cond1_0 i) (hc1 : cond1_1 i)
    (x0 : Vec F S8x512x512 .bf16) (x1 : Vec F S8x256x512 .bf16) (xs0 : Vec F S8x512x1 .f32) (xs1 : Vec F S8x512x1 .f32) :
    Σ' (L2 : List (View.Piece (Elt F) S8x512x1 .f32)) (LS0 : List (View.Piece (Elt F) S8x512x1 .f32)), { LS1 : List (View.Piece (Elt F) S8x512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg2 harg2 arg3 harg3 arg4 harg4 arg5 harg5 arg6 harg6) K } := by
  refine ⟨?_, ?_, ?_, fun E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.KI.R1.lean ====
/-
  The second kernel region (the column statistics), point by point: what the output's buffer and the two carried
  scratch buffers hold after each point, the proof data, and the body obligation at a generic point.
-/
import proofs.«133348_j60799557042445_2_alg».proof.Proof.KI.R1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The run of case A at the point `t`, on the point's staging memrefs and the scratch. -/
abbrev run1_A (c : Dev nD) (t : Fin cfg1.N) (hc0 : cond1_0 (grid1.coords t)) (hc1 : ¬cond1_1 (grid1.coords t)) (x0 : Vec F S8x512x512 .bf16) (x1 : Vec F S8x256x512 .bf16) :=
  (kernelRun1_A c (grid1.coords t) (ms1_0 t) (hs1_0 t) (ms1_1 t) (hs1_1 t) (ms1_2 t) (hs1_2 t) scM1_0 (Memref.isWhole_whole _) scM1_1 (Memref.isWhole_whole _) hc0 hc1 x0 x1)

/-- What case A leaves at the point: the output's buffer (a placeholder where the case stores nothing into it) and the
    scratch, each its pieces read back. -/
def res1_A (c : Dev nD) (t : Fin cfg1.N) (hc0 : cond1_0 (grid1.coords t)) (hc1 : ¬cond1_1 (grid1.coords t)) (x0 : Vec F S8x512x512 .bf16) (x1 : Vec F S8x256x512 .bf16) : Vec F S8x512x1 .f32 × Vec F S8x512x1 .f32 × Vec F S8x512x1 .f32 :=
  (VO1_2.read (Elt F) (VO1_2.writes (Elt F) VO1_2.junk (run1_A c t hc0 hc1 x0 x1).1), VS1_0.read (Elt F) (VS1_0.writes (Elt F) VS1_0.junk (run1_A c t hc0 hc1 x0 x1).2.1), VS1_1.read (Elt F) (VS1_1.writes (Elt F) VS1_1.junk (run1_A c t hc0 hc1 x0 x1).2.2.1))

theorem scover1_A_0 (c : Dev nD) (t : Fin cfg1.N) (hc0 : cond1_0 (grid1.coords t)) (hc1 : ¬cond1_1 (grid1.coords t)) (x0 : Vec F S8x512x512 .bf16) (x1 : Vec F S8x256x512 .bf16) (y : S8x512x1.Idx) :
    ∃ pc ∈ (run1_A c t hc0 hc1 x0 x1).2.1, y ∈ pc.1.set :=
  View.cover_of_tiledL (run1_A c t hc0 hc1 x0 x1).2.1 S8x512x1.size (by sl_kernel_rfl) y
theorem scover1_A_1 (c : Dev nD) (t : Fin cfg1.N) (hc0 : cond1_0 (grid1.coords t)) (hc1 : ¬cond1_1 (grid1.coords t)) (x0 : Vec F S8x512x512 .bf16) (x1 : Vec F S8x256x512 .bf16) (y : S8x512x1.Idx) :
    ∃ pc ∈ (run1_A c t hc0 hc1 x0 x1).2.2.1, y ∈ pc.1.set :=
  View.cover_of_tiledL (run1_A c t hc0 hc1 x0 x1).2.2.1 S8x512x1.size (by sl_kernel_rfl) y

/-- The run of case B at the point `t`, on the point's staging memrefs and the scratch. -/
abbrev run1_B (c : Dev nD) (t : Fin cfg1.N) (hc0 : ¬cond1_0 (grid1.coords t)) (hc1 : ¬cond1_1 (grid1.coords t)) (x0 : Vec F S8x512x512 .bf16) (x1 : Vec F S8x256x512 .bf16) (xs0 : Vec F S8x512x1 .f32) (xs1 : Vec F S8x512x1 .f32) :=
  (kernelRun1_B c (grid1.coords t) (ms1_0 t) (hs1_0 t) (ms1_1 t) (hs1_1 t) (ms1_2 t) (hs1_2 t) scM1_0 (Memref.isWhole_whole _) scM1_1 (Memref.isWhole_whole _) hc0 hc1 x0 x1 xs0 xs1)

/-- What case B leaves at the point: the output's buffer (a placeholder where the case stores nothing into it) and the
    scratch, each its pieces read back. -/
def res1_B (c : Dev nD) (t : Fin cfg1.N) (hc0 : ¬cond1_0 (grid1.coords t)) (hc1 : ¬cond1_1 (grid1.coords t)) (x0 : Vec F S8x512x512 .bf16) (x1 : Vec F S8x256x512 .bf16) (xs0 : Vec F S8x512x1 .f32) (xs1 : Vec F S8x512x1 .f32) : Vec F S8x512x1 .f32 × Vec F S8x512x1 .f32 × Vec F S8x512x1 .f32 :=
  (VO1_2.read (Elt F) (VO1_2.writes (Elt F) VO1_2.junk (run1_B c t hc0 hc1 x0 x1 xs0 xs1).1), VS1_0.read (Elt F) (VS1_0.writes (Elt F) VS1_0.junk (run1_B c t hc0 hc1 x0 x1 xs0 xs1).2.1), VS1_1.read (Elt F) (VS1_1.writes (Elt F) VS1_1.junk (run1_B c t hc0 hc1 x0 x1 xs0 xs1).2.2.1))

theorem scover1_B_0 (c : Dev nD) (t : Fin cfg1.N) (hc0 : ¬cond1_0 (grid1.coords t)) (hc1 : ¬cond1_1 (grid1.coords t)) (x0 : Vec F S8x512x512 .bf16) (x1 : Vec F S8x256x512 .bf16) (xs0 : Vec F S8x512x1 .f32) (xs1 : Vec F S8x512x1 .f32) (y : S8x512x1.Idx) :
    ∃ pc ∈ (run1_B c t hc0 hc1 x0 x1 xs0 xs1).2.1, y ∈ pc.1.set :=
  View.cover_of_tiledL (run1_B c t hc0 hc1 x0 x1 xs0 xs1).2.1 S8x512x1.size (by sl_kernel_rfl) y
theorem scover1_B_1 (c : Dev nD) (t : Fin cfg1.N) (hc0 : ¬cond1_0 (grid1.coords t)) (hc1 : ¬cond1_1 (grid1.coords t)) (x0 : Vec F S8x512x512 .bf16) (x1 : Vec F S8x256x512 .bf16) (xs0 : Vec F S8x512x1 .f32) (xs1 : Vec F S8x512x1 .f32) (y : S8x512x1.Idx) :
    ∃ pc ∈ (run1_B c t hc0 hc1 x0 x1 xs0 xs1).2.2.1, y ∈ pc.1.set :=
  View.cover_of_tiledL (run1_B c t hc0 hc1 x0 x1 xs0 xs1).2.2.1 S8x512x1.size (by sl_kernel_rfl) y

/-- The run of case C at the point `t`, on the point's staging memrefs and the scratch. -/
abbrev run1_C (c : Dev nD) (t : Fin cfg1.N) (hc0 : ¬cond1_0 (grid1.coords t)) (hc1 : cond1_1 (grid1.coords t)) (x0 : Vec F S8x512x512 .bf16) (x1 : Vec F S8x256x512 .bf16) (xs0 : Vec F S8x512x1 .f32) (xs1 : Vec F S8x512x1 .f32) :=
  (kernelRun1_C c (grid1.coords t) (ms1_0 t) (hs1_0 t) (ms1_1 t) (hs1_1 t) (ms1_2 t) (hs1_2 t) scM1_0 (Memref.isWhole_whole _) scM1_1 (Memref.isWhole_whole _) hc0 hc1 x0 x1 xs0 xs1)

/-- What case C leaves at the point: the output's buffer (a placeholder where the case stores nothing into it) and the
    scratch, each its pieces read back. -/
def res1_C (c : Dev nD) (t : Fin cfg1.N) (hc0 : ¬cond1_0 (grid1.coords t)) (hc1 : cond1_1 (grid1.coords t)) (x0 : Vec F S8x512x512 .bf16) (x1 : Vec F S8x256x512 .bf16) (xs0 : Vec F S8x512x1 .f32) (xs1 : Vec F S8x512x1 .f32) : Vec F S8x512x1 .f32 × Vec F S8x512x1 .f32 × Vec F S8x512x1 .f32 :=
  (VO1_2.read (Elt F) (VO1_2.writes (Elt F) VO1_2.junk (run1_C c t hc0 hc1 x0 x1 xs0 xs1).1), VS1_0.read (Elt F) (VS1_0.writes (Elt F) VS1_0.junk (run1_C c t hc0 hc1 x0 x1 xs0 xs1).2.1), VS1_1.read (Elt F) (VS1_1.writes (Elt F) VS1_1.junk (run1_C c t hc0 hc1 x0 x1 xs0 xs1).2.2.1))

theorem scover1_C_0 (c : Dev nD) (t : Fin cfg1.N) (hc0 : ¬cond1_0 (grid1.coords t)) (hc1 : cond1_1 (grid1.coords t)) (x0 : Vec F S8x512x512 .bf16) (x1 : Vec F S8x256x512 .bf16) (xs0 : Vec F S8x512x1 .f32) (xs1 : Vec F S8x512x1 .f32) (y : S8x512x1.Idx) :
    ∃ pc ∈ (run1_C c t hc0 hc1 x0 x1 xs0 xs1).2.1, y ∈ pc.1.set :=
  View.cover_of_tiledL (run1_C c t hc0 hc1 x0 x1 xs0 xs1).2.1 S8x512x1.size (by sl_kernel_rfl) y
theorem scover1_C_1 (c : Dev nD) (t : Fin cfg1.N) (hc0 : ¬cond1_0 (grid1.coords t)) (hc1 : cond1_1 (grid1.coords t)) (x0 : Vec F S8x512x512 .bf16) (x1 : Vec F S8x256x512 .bf16) (xs0 : Vec F S8x512x1 .f32) (xs1 : Vec F S8x512x1 .f32) (y : S8x512x1.Idx) :
    ∃ pc ∈ (run1_C c t hc0 hc1 x0 x1 xs0 xs1).2.2.1, y ∈ pc.1.set :=
  View.cover_of_tiledL (run1_C c t hc0 hc1 x0 x1 xs0 xs1).2.2.1 S8x512x1.size (by sl_kernel_rfl) y
theorem cover1_C_2 (c : Dev nD) (t : Fin cfg1.N) (hc0 : ¬cond1_0 (grid1.coords t)) (hc1 : cond1_1 (grid1.coords t)) (x0 : Vec F S8x512x512 .bf16) (x1 : Vec F S8x256x512 .bf16) (xs0 : Vec F S8x512x1 .f32) (xs1 : Vec F S8x512x1 .f32) (y : S8x512x1.Idx) :
    ∃ pc ∈ (run1_C c t hc0 hc1 x0 x1 xs0 xs1).1, y ∈ pc.1.set :=
  View.cover_of_tiledL (run1_C c t hc0 hc1 x0 x1 xs0 xs1).1 S8x512x1.size (by sl_kernel_rfl) y

/-- THE ACCUMULATION. What the output's buffer and the carried scratch hold after the body at position `n`: the
    case the position is in, run at the point's input blocks, the scratch it starts from what position `n - 1` left. -/
def outsAt1 (c : Dev nD) : (n : ℕ) → n < cfg1.N → Vec F S8x512x1 .f32 × Vec F S8x512x1 .f32 × Vec F S8x512x1 .f32
  | 0, hn => res1_A c ⟨0, hn⟩ ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩)
  | n + 1, hn =>
    if h0 : (n + 1) % 8 = 0 then
      if h1 : (n + 1) % 8 = 7 then
        False.elim (by omega)
      else
        res1_A c ⟨n + 1, hn⟩ ((hcond1_0 ⟨n + 1, hn⟩).mpr h0) (fun h => h1 ((hcond1_1 ⟨n + 1, hn⟩).mp h)) (iblk1 V c 0 ⟨n + 1, hn⟩) (iblk1 V c 1 ⟨n + 1, hn⟩)
    else
      if h1 : (n + 1) % 8 = 7 then
        res1_C c ⟨n + 1, hn⟩ (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2
      else
        res1_B c ⟨n + 1, hn⟩ (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2

theorem outsAt1_A (c : Dev nD) (t : Fin cfg1.N) (h0 : t.val % 8 = 0) (h1 : ¬t.val % 8 = 7) :
    outsAt1 V c t.val t.isLt = res1_A c t ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = res1_B c t (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = res1_C c t (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scoped rest at anything and the generator
    register; afterwards the carried scratch at what the point before left, the other scoped buffers unopened. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2)) ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2)) ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2)) ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point: the inputs' memrefs hold their blocks; the position modulo 8 says which case the point is
    in; the invariant hands the body the carried scratch at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold res1_A; (try dsimp only)
      by_cases hz : t.val = 0
      · rw [PhiS1_castSucc V c t, PhiS1_zero V c _ _ hz, PhiA1_eq]
        iintro ⟨⟨⟨⟨HS0, HS1⟩, Hrest⟩, Hg⟩, Ho, ⟨%d0, H0⟩, ⟨%d1, H1⟩, ⟨%d2, H2⟩⟩
        iapply ((run1_A c t ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_A_0 c t _ _ _ _)
              unfold owns; iexists _; isplitr
              swap; · iexact HS1
              ipureintro; exact View.read_writes_of_cover _ _ _ _ _ (scover1_A_1 c t _ _ _ _)
            iexact Hrest
          iexact Hg
        isplitl [Ho]; · iexact Ho
        isplitl [H0]; · iexact H0
        isplitl [H1]; · iexact H1
        iexists _; iexact H2

      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩⟩
        iapply ((run1_A c t ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_A_0 c t _ _ _ _)
              unfold owns; iexists _; isplitr
              swap; · iexact HS1
              ipureintro; exact View.read_writes_of_cover _ _ _ _ _ (scover1_A_1 c t _ _ _ _)
            iexact Hrest
          iexact Hg
        isplitl [Ho]; · iexact Ho
        isplitl [H0]; · iexact H0
        isplitl [H1]; · iexact H1
        iexists _; iexact H2

  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold res1_C; (try dsimp only)
      by_cases hz : t.val = 0
      · exfalso; omega
      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩⟩
        iapply ((run1_C c t (fun h => h0 ((hcond1_0 t).mp h)) ((hcond1_1 t).mpr h1) (iblk1 V c 0 t) (iblk1 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_C_0 c t _ _ _ _ _ _)
              unfold owns; iexists _; isplitr
              swap; · iexact HS1
              ipureintro; exact View.read_writes_of_cover _ _ _ _ _ (scover1_C_1 c t _ _ _ _ _ _)
            iexact Hrest
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c t _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold res1_B; (try dsimp only)
      by_cases hz : t.val = 0
      · exfalso; omega
      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩⟩
        iapply ((run1_B c t (fun h => h0 ((hcond1_0 t).mp h)) (fun h => h1 ((hcond1_1 t).mp h)) (iblk1 V c 0 t) (iblk1 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_B_0 c t _ _ _ _ _ _)
              unfold owns; iexists _; isplitr
              swap; · iexact HS1
              ipureintro; exact View.read_writes_of_cover _ _ _ _ _ (scover1_B_1 c t _ _ _ _ _ _)
            iexact Hrest
          iexact Hg
        isplitl [Ho]; · iexact Ho
        isplitl [H0]; · iexact H0
        isplitl [H1]; · iexact H1
        iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the carried scratch's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region1

end Cert.KernelIdeal.Hand

end
-- ==== Proof.KI.R2Runs.lean ====
/-
  The third kernel region (the weighted sum): what its cases share, for any float instance.

  The grid is 2 × 8 × 8: a block of 4 batches, a block of 256 output rows, and a sweep over the 2048 summed rows in
  blocks of 256. At the first summed block the accumulator kept in the scratch buffer is reset; at every block the
  product of the normalised weights with the rows is added to it; at the last block the output block receives the
  accumulator plus the input rows. The output window is idle except at the last summed block.
-/
import proofs.«133348_j60799557042445_2_alg».proof.Proof.Gen.KernelIdeal.Launch
import proofs.«133348_j60799557042445_2_alg».proof.Proof.Gen.KernelIdeal.Skeleton
import proofs.«133348_j60799557042445_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Region2

/-- The first summed block: the reset is taken. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The last summed block: the output is written. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

abbrev VO2_5 : View sig .tc .vmem S4x256x1024 .f32 := (Memref.whole cc2_stg5_0 : Memref sig .tc .vmem S4x256x1024 .f32).view
abbrev ms2_0 (t : Fin cfg2.N) : Memref sig .tc .vmem S4x256x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4x256x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x256x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4x256x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4x256x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4x256x1024 .f32 := win2_5.stage (cfg2.slots t 5)
abbrev hs2_5 (t : Fin cfg2.N) : (ms2_5 t).IsWhole := hstage2_5 ((cfg2.slots t 5).cast nbuf2_5)
abbrev scM2_0 : Memref sig .tc .vmem S4x256x1024 .f32 := Memref.whole cc2_scratch0
abbrev VS2_0 : View sig .tc .vmem S4x256x1024 .f32 := scM2_0.view

/-- The third region's scoped rest split at its accumulator. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The region's invariant with the accumulator as a memref owned at some contents, the other scoped buffers unopened. -/
theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2_0, owns_whole]; try rfl

end Cert.KernelIdeal.Hand

end
-- ==== Proof.KI.R2A.lean ====
/- The third region's body run in case A (first summed block: reset, then accumulate). -/
import proofs.«133348_j60799557042445_2_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case A: the pieces the stores leave in the output's buffer and in the accumulator (last first)
    are found by running the body; the inputs are handed back as they were. -/
noncomputable def kernelRun2_A (c : Dev nD) (i : grid2.Coords) (arg3 : Memref sig .tc .vmem S4x256x512 .bf16) (harg3 : arg3.IsWhole) (arg4 : Memref sig .tc .vmem S4x256x512 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1024 .f32) (harg7 : arg7.IsWhole) (arg8 : Memref sig .tc .vmem S4x256x1024 .f32) (harg8 : arg8.IsWhole) (arg9 : Memref sig .tc .vmem S4x256x1024 .f32) (harg9 : arg9.IsWhole) (hc0 : cond2_0 i) (hc1 : ¬cond2_1 i)
    (x0 : Vec F S4x256x512 .bf16) (x1 : Vec F S4x256x512 .bf16) (x2 : Vec F S4x256x1024 .bf16) (x3 : Vec F S4x256x1 .f32) (x4 : Vec F S4x256x1024 .f32) :
    Σ' (L5 : List (View.Piece (Elt F) S4x256x1024 .f32)), { LS0 : List (View.Piece (Elt F) S4x256x1024 .f32) //
      ∀ (xi5 : Vec F S4x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2__weighted_kernel i arg3 harg3 arg4 harg4 arg5 harg5 arg6 harg6 arg7 harg7 arg8 harg8 arg9 harg9) K } := by
  refine ⟨[], ?_, fun xi5 E K => ?run⟩
  case run =>
    simp only [cc2__weighted_kernel_eq_skeleton]; unfold cc2__weighted_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KI.R2B.lean ====
/- The third region's body run in case B (a middle summed block: accumulate). -/
import proofs.«133348_j60799557042445_2_alg».proof.Proof.KI.R2A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case B: the pieces the stores leave in the output's buffer and in the accumulator (last first)
    are found by running the body; the inputs are handed back as they were. -/
noncomputable def kernelRun2_B (c : Dev nD) (i : grid2.Coords) (arg3 : Memref sig .tc .vmem S4x256x512 .bf16) (harg3 : arg3.IsWhole) (arg4 : Memref sig .tc .vmem S4x256x512 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1024 .f32) (harg7 : arg7.IsWhole) (arg8 : Memref sig .tc .vmem S4x256x1024 .f32) (harg8 : arg8.IsWhole) (arg9 : Memref sig .tc .vmem S4x256x1024 .f32) (harg9 : arg9.IsWhole) (hc0 : ¬cond2_0 i) (hc1 : ¬cond2_1 i)
    (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) :
    Σ' (L5 : List (View.Piece (Elt F) S4x256x1024 .f32)), { LS0 : List (View.Piece (Elt F) S4x256x1024 .f32) //
      ∀ (xi5 : Vec F S4x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc2__weighted_kernel i arg3 harg3 arg4 harg4 arg5 harg5 arg6 harg6 arg7 harg7 arg8 harg8 arg9 harg9) K } := by
  refine ⟨[], ?_, fun xi5 E K => ?run⟩
  case run =>
    simp only [cc2__weighted_kernel_eq_skeleton]; unfold cc2__weighted_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KI.R2C.lean ====
/- The third region's body run in case C (last summed block: accumulate, then the output). -/
import proofs.«133348_j60799557042445_2_alg».proof.Proof.KI.R2B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case C: the pieces the stores leave in the output's buffer and in the accumulator (last first)
    are found by running the body; the inputs are handed back as they were. -/
noncomputable def kernelRun2_C (c : Dev nD) (i : grid2.Coords) (arg3 : Memref sig .tc .vmem S4x256x512 .bf16) (harg3 : arg3.IsWhole) (arg4 : Memref sig .tc .vmem S4x256x512 .bf16) (harg4 : arg4.IsWhole) (arg5 : Memref sig .tc .vmem S4x256x1024 .bf16) (harg5 : arg5.IsWhole) (arg6 : Memref sig .tc .vmem S4x256x1 .f32) (harg6 : arg6.IsWhole) (arg7 : Memref sig .tc .vmem S4x256x1024 .f32) (harg7 : arg7.IsWhole) (arg8 : Memref sig .tc .vmem S4x256x1024 .f32) (harg8 : arg8.IsWhole) (arg9 : Memref sig .tc .vmem S4x256x1024 .f32) (harg9 : arg9.IsWhole) (hc0 : ¬cond2_0 i) (hc1 : cond2_1 i)
    (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) :
    Σ' (L5 : List (View.Piece (Elt F) S4x256x1024 .f32)), { LS0 : List (View.Piece (Elt F) S4x256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc2__weighted_kernel i arg3 harg3 arg4 harg4 arg5 harg5 arg6 harg6 arg7 harg7 arg8 harg8 arg9 harg9) K } := by
  refine ⟨?_, ?_, fun E K => ?run⟩
  case run =>
    simp only [cc2__weighted_kernel_eq_skeleton]; unfold cc2__weighted_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Hand

end
-- ==== Proof.KI.R2.lean ====
/-
  The third kernel region (the weighted sum), point by point: what the output's buffer and the carried accumulator
  hold after each point, the proof data, and the body obligation at a generic point.
-/
import proofs.«133348_j60799557042445_2_alg».proof.Proof.KI.R2C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- The run of case A at the point `t`, on the point's staging memrefs and the scratch. -/
abbrev run2_A (c : Dev nD) (t : Fin cfg2.N) (hc0 : cond2_0 (grid2.coords t)) (hc1 : ¬cond2_1 (grid2.coords t)) (x0 : Vec F S4x256x512 .bf16) (x1 : Vec F S4x256x512 .bf16) (x2 : Vec F S4x256x1024 .bf16) (x3 : Vec F S4x256x1 .f32) (x4 : Vec F S4x256x1024 .f32) :=
  (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) hc0 hc1 x0 x1 x2 x3 x4)

/-- What case A leaves at the point: the output's buffer (a placeholder where the case stores nothing into it) and the
    scratch, each its pieces read back. -/
def res2_A (c : Dev nD) (t : Fin cfg2.N) (hc0 : cond2_0 (grid2.coords t)) (hc1 : ¬cond2_1 (grid2.coords t)) (x0 : Vec F S4x256x512 .bf16) (x1 : Vec F S4x256x512 .bf16) (x2 : Vec F S4x256x1024 .bf16) (x3 : Vec F S4x256x1 .f32) (x4 : Vec F S4x256x1024 .f32) : Vec F S4x256x1024 .f32 × Vec F S4x256x1024 .f32 :=
  (VO2_5.read (Elt F) (VO2_5.writes (Elt F) VO2_5.junk (run2_A c t hc0 hc1 x0 x1 x2 x3 x4).1), VS2_0.read (Elt F) (VS2_0.writes (Elt F) VS2_0.junk (run2_A c t hc0 hc1 x0 x1 x2 x3 x4).2.1))

theorem scover2_A_0 (c : Dev nD) (t : Fin cfg2.N) (hc0 : cond2_0 (grid2.coords t)) (hc1 : ¬cond2_1 (grid2.coords t)) (x0 : Vec F S4x256x512 .bf16) (x1 : Vec F S4x256x512 .bf16) (x2 : Vec F S4x256x1024 .bf16) (x3 : Vec F S4x256x1 .f32) (x4 : Vec F S4x256x1024 .f32) (y : S4x256x1024.Idx) :
    ∃ pc ∈ (run2_A c t hc0 hc1 x0 x1 x2 x3 x4).2.1, y ∈ pc.1.set :=
  View.cover_of_tiledL (run2_A c t hc0 hc1 x0 x1 x2 x3 x4).2.1 S4x256x1024.size (by sl_kernel_rfl) y

/-- The run of case B at the point `t`, on the point's staging memrefs and the scratch. -/
abbrev run2_B (c : Dev nD) (t : Fin cfg2.N) (hc0 : ¬cond2_0 (grid2.coords t)) (hc1 : ¬cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) :=
  (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) hc0 hc1 x0 x1 x2 x3 x4 xs0)

/-- What case B leaves at the point: the output's buffer (a placeholder where the case stores nothing into it) and the
    scratch, each its pieces read back. -/
def res2_B (c : Dev nD) (t : Fin cfg2.N) (hc0 : ¬cond2_0 (grid2.coords t)) (hc1 : ¬cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) : Vec F S4x256x1024 .f32 × Vec F S4x256x1024 .f32 :=
  (VO2_5.read (Elt F) (VO2_5.writes (Elt F) VO2_5.junk (run2_B c t hc0 hc1 x0 x1 x2 x3 x4 xs0).1), VS2_0.read (Elt F) (VS2_0.writes (Elt F) VS2_0.junk (run2_B c t hc0 hc1 x0 x1 x2 x3 x4 xs0).2.1))

theorem scover2_B_0 (c : Dev nD) (t : Fin cfg2.N) (hc0 : ¬cond2_0 (grid2.coords t)) (hc1 : ¬cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) (y : S4x256x1024.Idx) :
    ∃ pc ∈ (run2_B c t hc0 hc1 x0 x1 x2 x3 x4 xs0).2.1, y ∈ pc.1.set :=
  View.cover_of_tiledL (run2_B c t hc0 hc1 x0 x1 x2 x3 x4 xs0).2.1 S4x256x1024.size (by sl_kernel_rfl) y

/-- The run of case C at the point `t`, on the point's staging memrefs and the scratch. -/
abbrev run2_C (c : Dev nD) (t : Fin cfg2.N) (hc0 : ¬cond2_0 (grid2.coords t)) (hc1 : cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) :=
  (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) hc0 hc1 x0 x1 x2 x3 x4 xs0)

/-- What case C leaves at the point: the output's buffer (a placeholder where the case stores nothing into it) and the
    scratch, each its pieces read back. -/
def res2_C (c : Dev nD) (t : Fin cfg2.N) (hc0 : ¬cond2_0 (grid2.coords t)) (hc1 : cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) : Vec F S4x256x1024 .f32 × Vec F S4x256x1024 .f32 :=
  (VO2_5.read (Elt F) (VO2_5.writes (Elt F) VO2_5.junk (run2_C c t hc0 hc1 x0 x1 x2 x3 x4 xs0).1), VS2_0.read (Elt F) (VS2_0.writes (Elt F) VS2_0.junk (run2_C c t hc0 hc1 x0 x1 x2 x3 x4 xs0).2.1))

theorem scover2_C_0 (c : Dev nD) (t : Fin cfg2.N) (hc0 : ¬cond2_0 (grid2.coords t)) (hc1 : cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) (y : S4x256x1024.Idx) :
    ∃ pc ∈ (run2_C c t hc0 hc1 x0 x1 x2 x3 x4 xs0).2.1, y ∈ pc.1.set :=
  View.cover_of_tiledL (run2_C c t hc0 hc1 x0 x1 x2 x3 x4 xs0).2.1 S4x256x1024.size (by sl_kernel_rfl) y
theorem cover2_C_5 (c : Dev nD) (t : Fin cfg2.N) (hc0 : ¬cond2_0 (grid2.coords t)) (hc1 : cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) (y : S4x256x1024.Idx) :
    ∃ pc ∈ (run2_C c t hc0 hc1 x0 x1 x2 x3 x4 xs0).1, y ∈ pc.1.set :=
  View.cover_of_tiledL (run2_C c t hc0 hc1 x0 x1 x2 x3 x4 xs0).1 S4x256x1024.size (by sl_kernel_rfl) y

/-- THE ACCUMULATION. What the output's buffer and the carried scratch hold after the body at position `n`: the
    case the position is in, run at the point's input blocks, the scratch it starts from what position `n - 1` left. -/
def outsAt2 (c : Dev nD) : (n : ℕ) → n < cfg2.N → Vec F S4x256x1024 .f32 × Vec F S4x256x1024 .f32
  | 0, hn => res2_A c ⟨0, hn⟩ ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn =>
    if h0 : (n + 1) % 8 = 0 then
      if h1 : (n + 1) % 8 = 7 then
        False.elim (by omega)
      else
        res2_A c ⟨n + 1, hn⟩ ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
    else
      if h1 : (n + 1) % 8 = 7 then
        res2_C c ⟨n + 1, hn⟩ (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2
      else
        res2_B c ⟨n + 1, hn⟩ (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2

theorem outsAt2_A (c : Dev nD) (t : Fin cfg2.N) (h0 : t.val % 8 = 0) (h1 : ¬t.val % 8 = 7) :
    outsAt2 V c t.val t.isLt = res2_A c t ((hcond2_0 t).mpr h0) (fun h => h1 ((hcond2_1 t).mp h)) (iblk2 V c 0 t) (iblk2 V c 1 t) (iblk2 V c 2 t) (iblk2 V c 3 t) (iblk2 V c 4 t) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = res2_B c t (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = res2_C c t (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scoped rest at anything and the generator
    register; afterwards the carried scratch at what the point before left, the other scoped buffers unopened. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of the region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point: the inputs' memrefs hold their blocks; the position modulo 8 says which case the point is
    in; the invariant hands the body the carried scratch at what the point before left (at anything at the first point) and
    takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 8 = 0
  · by_cases h1 : t.val % 8 = 7
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5 t (fun h => h1 ((hcond2_1 t).mp h))) (noFlush2_5 t (fun h => h1 ((hcond2_1 t).mp h)))]
      rw [outsAt2_A V c t h0 h1]
      unfold res2_A; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((run2_A c t ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c t _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((run2_A c t ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c t _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

  · by_cases h1 : t.val % 8 = 7
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold res2_C; (try dsimp only)
      by_cases hz : t.val = 0
      · exfalso; omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((run2_C c t (fun h => h0 ((hcond2_0 t).mp h)) ((hcond2_1 t).mpr h1) (iblk2 V c 0 t) (iblk2 V c 1 t) (iblk2 V c 2 t) (iblk2 V c 3 t) (iblk2 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_C_0 c t _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 c t _ _ _ _ _ _ _ _)

    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5 t (fun h => h1 ((hcond2_1 t).mp h))) (noFlush2_5 t (fun h => h1 ((hcond2_1 t).mp h)))]
      rw [outsAt2_B V c t h0 h1]
      unfold res2_B; (try dsimp only)
      by_cases hz : t.val = 0
      · exfalso; omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((run2_B c t (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_B_0 c t _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back: the carried scratch's named contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 128 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

end Region2

end Cert.KernelIdeal.Hand

end
-- ==== Proof.KI.Run.lean ====
/-
  The whole run of the three-region program, for any float instance: the buffer contents at every boundary of @main
  (the launch memory, after the two host conversions, after each region's write-backs), each region as a segment over
  the thread state "every unscoped buffer at the boundary's contents", and the run: every weakly fair execution of
  @main terminates without a fault with every unscoped buffer at the last boundary's contents. The argument arrays are
  read back through the boundaries to the launch memory (no host operation and no region writes one).
-/
import proofs.«133348_j60799557042445_2_alg».proof.Proof.KI.R0
import proofs.«133348_j60799557042445_2_alg».proof.Proof.KI.R1
import proofs.«133348_j60799557042445_2_alg».proof.Proof.KI.R2
import proofs.«133348_j60799557042445_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the two host conversions (the first region's entry). -/
abbrev W1 : Dev nD → Valuation τ sig (Elt F) := fun c => StableHlo.after hostOps0 (W0 m c)
abbrev V1' : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1' m) c).arrAt w cfg0.N
theorem W2_arr (c : Dev nD) (w : Fin cfg0.W) :
    W2 m c (Proc.devRef .tc (Pipeline.arrRef spec0 w)) = (dat0 (V1' m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2' : (c : Dev nD) → (b : Ref sig .tc) → Buf (Elt F) ((c : Thread nD τ).loc b) := fun c b => W2 m c b
theorem hF0 (c : Dev nD) (w : Fin cfg0.W) : (dat0 (V1' m) c).arrAt w cfg0.N = V2' m c (Pipeline.arrRef spec0 w) :=
  (W2_arr m c w).symm
theorem hrest0 (c : Dev nD) : ∀ b, b ∉ Finset.univ.image (Pipeline.arrRef spec0) → V2' m c b = V1' m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (V2' m) c).arrAt w cfg1.N
theorem W3_arr (c : Dev nD) (w : Fin cfg1.W) :
    W3 m c (Proc.devRef .tc (Pipeline.arrRef spec1 w)) = (dat1 (V2' m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3' : (c : Dev nD) → (b : Ref sig .tc) → Buf (Elt F) ((c : Thread nD τ).loc b) := fun c b => W3 m c b
theorem hF1 (c : Dev nD) (w : Fin cfg1.W) : (dat1 (V2' m) c).arrAt w cfg1.N = V3' m c (Pipeline.arrRef spec1 w) :=
  (W3_arr m c w).symm
theorem hrest1 (c : Dev nD) : ∀ b, b ∉ Finset.univ.image (Pipeline.arrRef spec1) → V3' m c b = V2' m c b :=
  fun b hb => W3_of_ne m c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m c) fun w => (dat2 (V3' m) c).arrAt w cfg2.N
theorem W4_arr (c : Dev nD) (w : Fin cfg2.W) :
    W4 m c (Proc.devRef .tc (Pipeline.arrRef spec2 w)) = (dat2 (V3' m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4' : (c : Dev nD) → (b : Ref sig .tc) → Buf (Elt F) ((c : Thread nD τ).loc b) := fun c b => W4 m c b
theorem hF2 (c : Dev nD) (w : Fin cfg2.W) : (dat2 (V3' m) c).arrAt w cfg2.N = V4' m c (Pipeline.arrRef spec2 w) :=
  (W4_arr m c w).symm
theorem hrest2 (c : Dev nD) : ∀ b, b ∉ Finset.univ.image (Pipeline.arrRef spec2) → V4' m c b = V3' m c b :=
  fun b hb => W4_of_ne m c b fun w e => hb (Finset.mem_image.mpr ⟨w, Finset.mem_univ _, e⟩)

/-- No host operation writes a buffer other than the two converted weights. -/
theorem W1_of (c : Dev nD) (r : Ref sig .tc) (h : r ∉ hostOps0_W) : W1 m c r = W0 m c r :=
  StableHlo.after_of_writes_sub hostOps0 _ hostOps0_writes h

/-- An argument that no region stages ends as launched. -/
theorem W4_bypass (c : Dev nD) (b : Ref sig .tc) (h2 : ∀ w, Pipeline.arrRef spec2 w ≠ b) (h1 : ∀ w, Pipeline.arrRef spec1 w ≠ b)
    (h0 : ∀ w, Pipeline.arrRef spec0 w ≠ b) (hh : b ∉ hostOps0_W) : W4 m c (Proc.devRef .tc b) = m ((c : Thread nD τ).loc b) :=
  (W4_of_ne m c b h2).trans <| (W3_of_ne m c b h1).trans <| (W2_of_ne m c b h0).trans <| (W1_of m c b hh).trans rfl

theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1' m) c).arrAt_in w hw _).trans (A_eq0 (V1' m) c w))

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 4).trans (((dat2 (V3' m) c).arrAt_in 4 rfl _).trans (A_eq2 (V3' m) c 4))
    _ = W2 m c (Proc.devRef .tc main_arg0) := W3_of_ne m c main_arg0 (by decide)
    _ = W1 m c (Proc.devRef .tc main_arg0) := W2_in m c 0 rfl
    _ = m ((c : Thread nD τ).loc main_arg0) := (W1_of m c main_arg0 (by decide)).trans rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_in m c 2 rfl
    _ = m ((c : Thread nD τ).loc main_arg4) := (W1_of m c main_arg4 (by decide)).trans rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_in m c 4 rfl
    _ = m ((c : Thread nD τ).loc main_arg6) := (W1_of m c main_arg6 (by decide)).trans rfl
theorem W4_main_arg1 (c : Dev nD) : W4 m c (Proc.devRef .tc main_arg1) = m ((c : Thread nD τ).loc main_arg1) :=
  W4_bypass m c main_arg1 (by decide) (by decide) (by decide) (by decide)
theorem W4_main_arg2 (c : Dev nD) : W4 m c (Proc.devRef .tc main_arg2) = m ((c : Thread nD τ).loc main_arg2) :=
  W4_bypass m c main_arg2 (by decide) (by decide) (by decide) (by decide)
theorem W4_main_arg3 (c : Dev nD) : W4 m c (Proc.devRef .tc main_arg3) = m ((c : Thread nD τ).loc main_arg3) :=
  W4_bypass m c main_arg3 (by decide) (by decide) (by decide) (by decide)
theorem W4_main_arg5 (c : Dev nD) : W4 m c (Proc.devRef .tc main_arg5) = m ((c : Thread nD τ).loc main_arg5) :=
  W4_bypass m c main_arg5 (by decide) (by decide) (by decide) (by decide)

/-- The result array at the end is what the last region's write-backs leave in its output window's array. -/
theorem W4_main_v4 (c : Dev nD) : W4 m c (Proc.devRef .tc main_v4) = (dat2 (V3' m) c).arrAt 5 cfg2.N := W4_arr m c 5

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1' m) c
  | ⟨1, _⟩ => fun c => dat1 (V2' m) c
  | ⟨2, _⟩ => fun c => dat2 (V3' m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
/-- Region 0 over the thread state "every unscoped buffer at the boundary's contents, the generator register at some
    state, nothing owed": its arrays split out of the unscoped buffers at entry and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1' m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1' m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1' m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1' m c) (V2' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at the exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2' m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2' m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2' m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (V2' m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (V2' m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2' m c) (V3' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays split out of the unscoped buffers at entry and put back at the exit contents. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3' m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3' m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3' m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m 2 c).Φ 0 from hin2 (V3' m) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ Pipeline.ΦA spec2 c from hout2 (V3' m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3' m c) (V4' m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun _ h => h)

/-- The frame: the seven argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

/-- The run with the result array named: the result holds what the last region's write-backs leave, the arguments as launched. -/
theorem run_value (ρ : Dev nD → PrngReg) : θ_run defs (onTc (τ := τ) (main (F := F))) ⟨m, fun _ => 0, ρ⟩ (fun r => ∀ c : Dev nD,
      r.2.mem ((c.tc : Thread nD τ).loc main_v4) = (dat2 (V3' m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v4 (by decide))).trans (W4_main_v4 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.KernelIdeal.Hand

end
-- ==== Proof.KI.Pay0.lean ====
/-
  The first kernel's stored values read at an index, on the extended reals.

  A block of 128 rows of each of the 8 batches is flattened to 1024 rows, multiplied by a 1024 × 512 weight, the bias
  row added, and folded back to 8 × 128 × 512: entry (b, r, f) is Σ_k x[b, r, k]·w[k, f] + bias[f], through the
  sigmoid for the first projection.
-/
import proofs.«133348_j60799557042445_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- A product into a zero accumulator with one contracted axis of extent `n`, as a sum over `Fin n`. -/
theorem matmul_zero_sum {sl sr so : Shape} {φ₁ φ₂ : FTy} (D : DotDims sl sr so) (n : ℕ) (hr : D.contr.rank = 1)
    (hn : D.contr.size ⟨0, by rw [hr]; exact Nat.one_pos⟩ = n)
    (lhs : FVec Ideal sl φ₁) (rhs : FVec Ideal sr φ₂) (j : so.Idx) :
    matmul D none lhs rhs (constant so .f32 0x00000000#32) j
      = ∑ k : Fin n, lhs (D.lhsIdx j ((contrEquiv1 D n hr hn).symm k)) * rhs (D.rhsIdx j ((contrEquiv1 D n hr hn).symm k)) := by
  simp only [matmul]
  rw [Ideal.matmul_constant_zero_apply, ← Equiv.sum_comp (contrEquiv1 D n hr hn).symm]

/-- Row `r` of batch `b` in the flattened 1024 rows. -/
abbrev flat (b : Fin 8) (r : Fin 128) : Fin 1024 := ⟨128 * b.val + r.val, by omega⟩

theorem d0_l0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem d0_l1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem d0_r0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem d0_r1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl
theorem d0_lhs (i : S1024x512.Idx) (k : Fin 1024) :
    dot_S1024x1024_S1024x512_S1024x512_1_0_0_1_n_n.lhsIdx i ((contrEquiv1 dot_S1024x1024_S1024x512_S1024x512_1_0_0_1_n_n 1024 rfl rfl).symm k) = ix2 (i 0) k := by
  have hk := contrEquiv1_symm_val dot_S1024x1024_S1024x512_S1024x512_1_0_0_1_n_n 1024 rfl rfl k
  refine funext fun a => Fin.ext ?_
  match a with
  | ⟨0, _⟩ => exact d0_l0 _ _
  | ⟨1, _⟩ => exact (d0_l1 _ _).trans hk
theorem d0_rhs (i : S1024x512.Idx) (k : Fin 1024) :
    dot_S1024x1024_S1024x512_S1024x512_1_0_0_1_n_n.rhsIdx i ((contrEquiv1 dot_S1024x1024_S1024x512_S1024x512_1_0_0_1_n_n 1024 rfl rfl).symm k) = ix2 k (i 1) := by
  have hk := contrEquiv1_symm_val dot_S1024x1024_S1024x512_S1024x512_1_0_0_1_n_n 1024 rfl rfl k
  refine funext fun a => Fin.ext ?_
  match a with
  | ⟨0, _⟩ => exact (d0_r0 _ _).trans hk
  | ⟨1, _⟩ => exact d0_r1 _ _

/-- The flattened block at (row, k) is the block at (b, r, k). -/
theorem flat_apply (x0 : Vec Ideal S8x128x1024 .f32) (b : Fin 8) (r : Fin 128) (k : Fin 1024) :
    k0_pay2 x0 (ix2 (flat b r) k) = x0 (ix3 b r k) := by
  unfold k0_pay2 k0_pay1
  refine (shapeCast_apply _ _ (ix2 (flat b r) k) (ix3 b r k) ?_).trans rfl
  rw [Shape.rowMajor_val_three, Shape.rowMajor_val_two]
  show (b.val * 128 + r.val) * 1024 + k.val = (128 * b.val + r.val) * 1024 + k.val
  ring

/-- The linear part of a projection at (row, f): the sum over the contracted axis plus the bias. -/
theorem lin_apply (x0 : Vec Ideal S8x128x1024 .f32) (w : Vec Ideal S1024x512 .bf16) (bias : Vec Ideal S512 .f32) (b : Fin 8) (r : Fin 128) (f : Fin 512) :
    addf (matmul dot_S1024x1024_S1024x512_S1024x512_1_0_0_1_n_n none (k0_pay2 x0) (shapeCast S1024x512 w shapeCasts_S1024x512_S1024x512 : FVec Ideal S1024x512 .bf16) (constant S1024x512 .f32 0x00000000#32))
      (broadcastTo S1024x512 (shapeCast S1x512 bias shapeCasts_S512_S1x512) broadcasts_S1x512_S1024x512) (ix2 (flat b r) f)
      = (∑ k : Fin 1024, x0 (ix3 b r k) * w (ix2 k f)) + bias (ix1 f) := by
  rw [addf_apply, matmul_zero_sum dot_S1024x1024_S1024x512_S1024x512_1_0_0_1_n_n 1024 rfl rfl, shapeCast_self]
  congr 1
  · refine Finset.sum_congr rfl fun k _ => ?_
    rw [d0_lhs, d0_rhs]
    exact congrArg (· * _) (flat_apply x0 b r k)
  · exact (broadcastTo_1b_ab_apply _ _ (flat b r) f).trans (shapeCast_a_1a_apply _ _ 0 f)

theorem pay4_apply (x0 : Vec Ideal S8x128x1024 .f32) (x3 : Vec Ideal S1024x512 .bf16) (x4 : Vec Ideal S512 .f32) (b : Fin 8) (r : Fin 128) (f : Fin 512) :
    k0_pay4 x0 x3 x4 (ix3 b r f) = (∑ k : Fin 1024, x0 (ix3 b r k) * x3 (ix2 k f)) + x4 (ix1 f) := by
  unfold k0_pay4
  refine (shapeCast_apply _ _ (ix3 b r f) (ix2 (flat b r) f) ?_).trans (lin_apply x0 x3 x4 b r f)
  rw [Shape.rowMajor_val_three, Shape.rowMajor_val_two]
  show (128 * b.val + r.val) * 512 + f.val = (b.val * 128 + r.val) * 512 + f.val
  ring

theorem theta_pre (x0 : Vec Ideal S8x128x1024 .f32) (x1 : Vec Ideal S1024x512 .bf16) (x2 : Vec Ideal S512 .f32) (b : Fin 8) (r : Fin 128) (f : Fin 512) :
    (shapeCast S8x128x512 (logistic (addf (matmul dot_S1024x1024_S1024x512_S1024x512_1_0_0_1_n_n none (k0_pay2 x0) (shapeCast S1024x512 x1 shapeCasts_S1024x512_S1024x512 : FVec Ideal S1024x512 .bf16) (constant S1024x512 .f32 0x00000000#32))
      (broadcastTo S1024x512 (shapeCast S1x512 x2 shapeCasts_S512_S1x512) broadcasts_S1x512_S1024x512))) shapeCasts_S1024x512_S8x128x512 : FVec Ideal S8x128x512 .f32) (ix3 b r f)
      = Ideal.logistic ((∑ k : Fin 1024, x0 (ix3 b r k) * x1 (ix2 k f)) + x2 (ix1 f)) := by
  refine (shapeCast_apply _ _ (ix3 b r f) (ix2 (flat b r) f) ?_).trans ?_
  · rw [Shape.rowMajor_val_three, Shape.rowMajor_val_two]
    show (128 * b.val + r.val) * 512 + f.val = (b.val * 128 + r.val) * 512 + f.val
    ring
  · show Ideal.logistic _ = _
    exact congrArg Ideal.logistic (lin_apply x0 x1 x2 b r f)

theorem pay3_apply (x0 : Vec Ideal S8x128x1024 .f32) (x1 : Vec Ideal S1024x512 .bf16) (x2 : Vec Ideal S512 .f32) (b : Fin 8) (r : Fin 128) (f : Fin 512) :
    k0_pay3 x0 x1 x2 (ix3 b r f) = Ideal.logistic ((∑ k : Fin 1024, x0 (ix3 b r k) * x1 (ix2 k f)) + x2 (ix1 f)) :=
  theta_pre x0 x1 x2 b r f

theorem pay1_apply (x0 : Vec Ideal S8x128x1024 .f32) (i : S8x128x1024.Idx) : k0_pay1 x0 i = x0 i := rfl

end Cert.KernelIdeal.Hand

end
-- ==== Proof.Spec.lean ====
/-
  The two sides of the claim as scalar formulas over the extended reals, index by index.

  Inputs: `x[b, n, d]` (8 × 2048 × 1024), two weight matrices `wt`, `wp` (1024 × 512) and two bias rows `bt`, `bp` (512).
  Both sides first form `theta[b, n, f] = sigmoid (Σ_d x[b,n,d]·wt[d,f] + bt[f])`, `phi[b, m, f] = Σ_d x[b,m,d]·wp[d,f] + bp[f]`
  and the scores `s[b, m, n] = Σ_f phi[b,m,f]·theta[b,n,f]`, and normalise each column `(b, m)` over `n`.

  The reference side subtracts the column's maximum, exponentiates, divides by the column's sum, and contracts with `x` over `m`.
  The kernel side sweeps `n` in 8 blocks of 256 keeping a running maximum and a running rescaled sum, takes
  `lse = max + log sum`, then sweeps `m` in 8 blocks of 256 adding `exp (s - lse[m]) · x[b, m, d]` to an accumulator
  that starts at 0, and adds `x[b, n, d]` at the end.
-/
import Idealize.ShloMosaic.PureOps.Ideal

noncomputable section

namespace Cert.Spec

open Idealize.ShloMosaic

variable (x : Fin 8 → Fin 2048 → Fin 1024 → EReal) (wt wp : Fin 1024 → Fin 512 → EReal) (bt bp : Fin 512 → EReal)

/-- Row `j` of the `k`-th block of 256 rows (total in `k`: taken modulo the 2048 rows). -/
def row (k : ℕ) (j : Fin 256) : Fin 2048 := ⟨(256 * k + j.val) % 2048, Nat.mod_lt _ (by decide)⟩

/-- The first projection, through the sigmoid. -/
def theta (b : Fin 8) (n : Fin 2048) (f : Fin 512) : EReal := Ideal.logistic ((∑ d : Fin 1024, x b n d * wt d f) + bt f)
/-- The second projection. -/
def phi (b : Fin 8) (m : Fin 2048) (f : Fin 512) : EReal := (∑ d : Fin 1024, x b m d * wp d f) + bp f
/-- The score of column `m` against row `n`. -/
def score (b : Fin 8) (m n : Fin 2048) : EReal := ∑ f : Fin 512, phi x wp bp b m f * theta x wt bt b n f

/-! ### The kernel side -/

/-- The running maximum of column `(b, m)` after `k` row blocks, from `-∞`. -/
def mrun (b : Fin 8) (m : Fin 2048) : ℕ → EReal
  | 0 => ⊥
  | k + 1 => max (mrun b m k) ((Finset.univ : Finset (Fin 256)).fold max ⊥ fun j => score x wt wp bt bp b m (row k j))

/-- The running rescaled sum of column `(b, m)` after `k` row blocks, from `0`. -/
def lrun (b : Fin 8) (m : Fin 2048) : ℕ → EReal
  | 0 => 0
  | k + 1 => Ideal.exp (mrun x wt wp bt bp b m k - mrun x wt wp bt bp b m (k + 1)) * lrun b m k
      + ∑ j : Fin 256, Ideal.exp (score x wt wp bt bp b m (row k j) - mrun x wt wp bt bp b m (k + 1))

/-- The column's log-sum-exp as the kernel leaves it. -/
def lse (b : Fin 8) (m : Fin 2048) : EReal := mrun x wt wp bt bp b m 8 + Ideal.log (lrun x wt wp bt bp b m 8)

/-- The accumulator of output entry `(b, n, d)` after `k` blocks of summed rows, from `0`. -/
def arun (b : Fin 8) (n : Fin 2048) (d : Fin 1024) : ℕ → EReal
  | 0 => 0
  | k + 1 => arun b n d k
      + ∑ j : Fin 256, Ideal.exp (score x wt wp bt bp b (row k j) n - lse x wt wp bt bp b (row k j)) * x b (row k j) d

/-- The kernel side's result. -/
def kernelOut (b : Fin 8) (n : Fin 2048) (d : Fin 1024) : EReal := arun x wt wp bt bp b n d 8 + x b n d

/-! ### The reference side -/

/-- The reference's score, with the factors in the reference's order. -/
def att (b : Fin 8) (n m : Fin 2048) : EReal := ∑ f : Fin 512, theta x wt bt b n f * phi x wp bp b m f
/-- The column's maximum: the fold from `-∞`, then once more against `-∞`. -/
def cmax (b : Fin 8) (m : Fin 2048) : EReal := max ⊥ ((Finset.univ : Finset (Fin 2048)).fold max ⊥ fun n => att x wt wp bt bp b n m)
/-- The shifted exponential. -/
def eatt (b : Fin 8) (n m : Fin 2048) : EReal := Ideal.exp (att x wt wp bt bp b n m - cmax x wt wp bt bp b m)
/-- The column's sum, from `0`. -/
def csum (b : Fin 8) (m : Fin 2048) : EReal := 0 + ∑ n : Fin 2048, eatt x wt wp bt bp b n m
/-- The reference side's result. -/
def refOut (b : Fin 8) (n : Fin 2048) (d : Fin 1024) : EReal :=
  (∑ m : Fin 2048, Ideal.div (eatt x wt wp bt bp b n m) (csum x wt wp bt bp b m) * x b m d) + x b n d

end Cert.Spec

end
-- ==== Proof.KI.V0.lean ====
/-
  The first region's three result arrays on the extended reals, as whole arrays.

  Point `t` of the 16 writes rows `128·t … 128·t + 127` of every batch: the sigmoid of the first projection, the second
  projection, and the input itself. The 16 row blocks tile the 2048 rows, so after the region the three arrays hold
  `theta`, `phi` and `x` of the argument arrays, entry by entry.
-/
import proofs.«133348_j60799557042445_2_alg».proof.Proof.KI.Run
import proofs.«133348_j60799557042445_2_alg».proof.Proof.KI.Pay0
import proofs.«133348_j60799557042445_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The five argument arrays the result reads, as functions of their coordinates. -/
abbrev xS : Fin 8 → Fin 2048 → Fin 1024 → EReal := fun b n d => m ((c : Thread nD τ).loc main_arg0) (ix3 b n d)
abbrev wtS : Fin 1024 → Fin 512 → EReal := fun d f => m ((c : Thread nD τ).loc main_arg3) (ix2 d f)
abbrev btS : Fin 512 → EReal := fun f => m ((c : Thread nD τ).loc main_arg4) (ix1 f)
abbrev wpS : Fin 1024 → Fin 512 → EReal := fun d f => m ((c : Thread nD τ).loc main_arg5) (ix2 d f)
abbrev bpS : Fin 512 → EReal := fun f => m ((c : Thread nD τ).loc main_arg6) (ix1 f)

/-- Row `r` of the `T`-th block of `sz` rows (total in `T`: modulo the 2048 rows). -/
def rowAt (sz T r : ℕ) : Fin 2048 := ⟨(sz * T + r) % 2048, Nat.mod_lt _ (by decide)⟩

theorem hz3v : (![0, 0, 0] : Fin 3 → Nat) = fun _ => 0 := funext fun a => by fin_cases a <;> rfl
theorem hz2v : (![0, 0] : Fin 2 → Nat) = fun _ => 0 := funext fun a => by fin_cases a <;> rfl
theorem hz1v : (![0] : Fin 1 → Nat) = fun _ => 0 := funext fun a => by fin_cases a <;> rfl

/-! ### What the region finds in its input arrays -/

theorem V1_arg0 : V1' m c main_arg0 = m ((c : Thread nD τ).loc main_arg0) := (W1_of m c main_arg0 (by decide)).trans rfl
theorem V1_arg4 : V1' m c main_arg4 = m ((c : Thread nD τ).loc main_arg4) := (W1_of m c main_arg4 (by decide)).trans rfl
theorem V1_arg6 : V1' m c main_arg6 = m ((c : Thread nD τ).loc main_arg6) := (W1_of m c main_arg6 (by decide)).trans rfl
/-- The converted weights hold the weights' values: a change of format is the identity on the extended reals. -/
theorem V1_v0 : (V1' m c main_v0 : S1024x512.Idx → EReal) = m ((c : Thread nD τ).loc main_arg3) := by
  show StableHlo.after hostOps0 (fun b => m (c, b)) (Proc.devRef .tc main_v0) = _
  after_results
  rfl
theorem V1_v1 : (V1' m c main_v1 : S1024x512.Idx → EReal) = m ((c : Thread nD τ).loc main_arg5) := by
  show StableHlo.after hostOps0 (fun b => m (c, b)) (Proc.devRef .tc main_v1) = _
  after_results
  rfl

/-- The block indices of the first region's windows, decided over the grid. -/
theorem idx0 : ∀ t : Fin cfg0.N,
    (win0_0.index t 0 = 0 ∧ win0_0.index t 1 = t.val ∧ win0_0.index t 2 = 0)
    ∧ (win0_1.index t 0 = 0 ∧ win0_1.index t 1 = 0) ∧ win0_2.index t 0 = 0
    ∧ (win0_3.index t 0 = 0 ∧ win0_3.index t 1 = 0) ∧ win0_4.index t 0 = 0
    ∧ (win0_5.index t 0 = 0 ∧ win0_5.index t 1 = t.val ∧ win0_5.index t 2 = 0)
    ∧ (win0_6.index t 0 = 0 ∧ win0_6.index t 1 = t.val ∧ win0_6.index t 2 = 0)
    ∧ (win0_7.index t 0 = 0 ∧ win0_7.index t 1 = t.val ∧ win0_7.index t 2 = 0) :=
  (by decide +kernel : ∀ t : Fin grid0.N, _)

theorem blk0_x (t : Fin cfg0.N) (b : Fin 8) (r : Fin 128) (k : Fin 1024) :
    (iblk0 (V1' m) c 0 t : Vec Ideal S8x128x1024 .f32) (ix3 b r k) = xS m c b (rowAt 128 t.val r.val) k := by
  have hi := (idx0 t).1
  have hN : t.val < 16 := lt_of_lt_of_eq t.isLt (show cfg0.N = 16 from N_0)
  unfold iblk0
  rw [View.read_apply]
  show V1' m c main_arg0 _ = m ((c : Thread nD τ).loc main_arg0) _
  rw [V1_arg0]
  refine congrArg _ (funext fun a => Fin.ext ?_)
  match a with
  | ⟨0, _⟩ => show win0_0.index t 0 * 8 + 1 * b.val = b.val; rw [hi.1]; omega
  | ⟨1, _⟩ => show win0_0.index t 1 * 128 + 1 * r.val = (128 * t.val + r.val) % 2048; rw [hi.2.1]; omega
  | ⟨2, _⟩ => show win0_0.index t 2 * 1024 + 1 * k.val = k.val; rw [hi.2.2]; omega

theorem blk0_wt (t : Fin cfg0.N) (k : Fin 1024) (f : Fin 512) :
    (iblk0 (V1' m) c 1 t : Vec Ideal S1024x512 .bf16) (ix2 k f) = wtS m c k f := by
  have hi := (idx0 t).2.1
  unfold iblk0
  rw [View.read_apply]
  show (V1' m c main_v0 : S1024x512.Idx → EReal) _ = m ((c : Thread nD τ).loc main_arg3) _
  rw [V1_v0]
  refine congrArg _ (funext fun a => Fin.ext ?_)
  match a with
  | ⟨0, _⟩ => show win0_1.index t 0 * 1024 + 1 * k.val = k.val; rw [hi.1]; omega
  | ⟨1, _⟩ => show win0_1.index t 1 * 512 + 1 * f.val = f.val; rw [hi.2]; omega

theorem blk0_bt (t : Fin cfg0.N) (f : Fin 512) :
    (iblk0 (V1' m) c 2 t : Vec Ideal S512 .f32) (ix1 f) = btS m c f := by
  have hi := (idx0 t).2.2.1
  unfold iblk0
  rw [View.read_apply]
  show V1' m c main_arg4 _ = m ((c : Thread nD τ).loc main_arg4) _
  rw [V1_arg4]
  refine congrArg _ (funext fun a => Fin.ext ?_)
  match a with
  | ⟨0, _⟩ => show win0_2.index t 0 * 512 + 1 * f.val = f.val; rw [hi]; omega

theorem blk0_wp (t : Fin cfg0.N) (k : Fin 1024) (f : Fin 512) :
    (iblk0 (V1' m) c 3 t : Vec Ideal S1024x512 .bf16) (ix2 k f) = wpS m c k f := by
  have hi := (idx0 t).2.2.2.1
  unfold iblk0
  rw [View.read_apply]
  show (V1' m c main_v1 : S1024x512.Idx → EReal) _ = m ((c : Thread nD τ).loc main_arg5) _
  rw [V1_v1]
  refine congrArg _ (funext fun a => Fin.ext ?_)
  match a with
  | ⟨0, _⟩ => show win0_3.index t 0 * 1024 + 1 * k.val = k.val; rw [hi.1]; omega
  | ⟨1, _⟩ => show win0_3.index t 1 * 512 + 1 * f.val = f.val; rw [hi.2]; omega

theorem blk0_bp (t : Fin cfg0.N) (f : Fin 512) :
    (iblk0 (V1' m) c 4 t : Vec Ideal S512 .f32) (ix1 f) = bpS m c f := by
  have hi := (idx0 t).2.2.2.2.1
  unfold iblk0
  rw [View.read_apply]
  show V1' m c main_arg6 _ = m ((c : Thread nD τ).loc main_arg6) _
  rw [V1_arg6]
  refine congrArg _ (funext fun a => Fin.ext ?_)
  match a with
  | ⟨0, _⟩ => show win0_4.index t 0 * 512 + 1 * f.val = f.val; rw [hi]; omega

/-! ### What a point stores -/

theorem out5_apply (t : Fin cfg0.N) (b : Fin 8) (r : Fin 128) (f : Fin 512) :
    out0_5 (iblk0 (V1' m) c 0 t) (iblk0 (V1' m) c 1 t) (iblk0 (V1' m) c 2 t) (ix3 b r f)
      = Spec.theta (xS m c) (wtS m c) (btS m c) b (rowAt 128 t.val r.val) f := by
  unfold out0_5
  rw [View.canon_unit_zero hz3v]
  simp only [View.ld_unit_zero (S := S8x128x1024) hz3v, View.ld_unit_zero (S := S1024x512) hz2v, View.ld_unit_zero (S := S512) hz1v]
  rw [pay3_apply]
  unfold Spec.theta
  rw [blk0_bt]
  refine congrArg Ideal.logistic (congrArg (· + _) (Finset.sum_congr rfl fun k _ => ?_))
  rw [blk0_x, blk0_wt]

theorem out6_apply (t : Fin cfg0.N) (b : Fin 8) (r : Fin 128) (f : Fin 512) :
    out0_6 (iblk0 (V1' m) c 0 t) (iblk0 (V1' m) c 3 t) (iblk0 (V1' m) c 4 t) (ix3 b r f)
      = Spec.phi (xS m c) (wpS m c) (bpS m c) b (rowAt 128 t.val r.val) f := by
  unfold out0_6
  rw [View.canon_unit_zero hz3v]
  simp only [View.ld_unit_zero (S := S8x128x1024) hz3v, View.ld_unit_zero (S := S1024x512) hz2v, View.ld_unit_zero (S := S512) hz1v]
  rw [pay4_apply]
  unfold Spec.phi
  rw [blk0_bp]
  refine congrArg (· + _) (Finset.sum_congr rfl fun k _ => ?_)
  rw [blk0_x, blk0_wp]

theorem out7_apply (t : Fin cfg0.N) (b : Fin 8) (r : Fin 128) (k : Fin 1024) :
    out0_7 (iblk0 (V1' m) c 0 t) (ix3 b r k) = xS m c b (rowAt 128 t.val r.val) k := by
  unfold out0_7
  rw [View.canon_unit_zero hz3v]
  simp only [View.ld_unit_zero (S := S8x128x1024) hz3v]
  exact (pay1_apply _ _).trans (blk0_x m c t b r k)

/-! ### The three arrays after the region -/

/-- `theta` as an array. -/
def thetaA : S8x2048x512.Idx → EReal := fun i => Spec.theta (xS m c) (wtS m c) (btS m c) ⟨(i 0).val, (i 0).isLt⟩ ⟨(i 1).val, (i 1).isLt⟩ ⟨(i 2).val, (i 2).isLt⟩
/-- `phi` as an array. -/
def phiA : S8x2048x512.Idx → EReal := fun i => Spec.phi (xS m c) (wpS m c) (bpS m c) ⟨(i 0).val, (i 0).isLt⟩ ⟨(i 1).val, (i 1).isLt⟩ ⟨(i 2).val, (i 2).isLt⟩

theorem thetaA_apply (i : S8x2048x512.Idx) (b : Fin 8) (n : Fin 2048) (f : Fin 512) (h0 : (i 0).val = b.val) (h1 : (i 1).val = n.val) (h2 : (i 2).val = f.val) :
    thetaA m c i = Spec.theta (xS m c) (wtS m c) (btS m c) b n f := by
  unfold thetaA
  congr 1 <;> exact Fin.ext ‹_›
theorem phiA_apply (i : S8x2048x512.Idx) (b : Fin 8) (n : Fin 2048) (f : Fin 512) (h0 : (i 0).val = b.val) (h1 : (i 1).val = n.val) (h2 : (i 2).val = f.val) :
    phiA m c i = Spec.phi (xS m c) (wpS m c) (bpS m c) b n f := by
  unfold phiA
  congr 1 <;> exact Fin.ext ‹_›
theorem xA_apply (i : S8x2048x1024.Idx) (b : Fin 8) (n : Fin 2048) (d : Fin 1024) (h0 : (i 0).val = b.val) (h1 : (i 1).val = n.val) (h2 : (i 2).val = d.val) :
    m ((c : Thread nD τ).loc main_arg0) i = xS m c b n d :=
  congrArg _ (funext fun a => Fin.ext (by
    match a with
    | ⟨0, _⟩ => exact h0
    | ⟨1, _⟩ => exact h1
    | ⟨2, _⟩ => exact h2))

theorem flushed0_5 (t : Fin cfg0.N) (hf : (cfg0.win 5).flush t = true) :
    (dat0 (V1' m) c).flushed 5 t = ((cfg0.win 5).blk t).view.read (Elt Ideal) (thetaA m c) := by
  have hi := (idx0 t).2.2.2.2.2.1
  have hN : t.val < 16 := lt_of_lt_of_eq t.isLt (show cfg0.N = 16 from N_0)
  show (cfg0.win 5).cut (grid0.coords t) ((dat0 (V1' m) c).after 5 t) = _
  rw [after0_5]
  funext j
  obtain ⟨b, r, f, rfl⟩ : ∃ (b : Fin 8) (r : Fin 128) (f : Fin 512), j = ix3 b r f := ⟨j 0, j 1, j 2, eq_ix3 j⟩
  refine (out5_apply m c t b r f).trans ?_
  rw [View.read_apply]
  refine (thetaA_apply m c _ b (rowAt 128 t.val r.val) f ?_ ?_ ?_).symm
  · show win0_5.index t 0 * 8 + 1 * b.val = b.val; rw [hi.1]; omega
  · show win0_5.index t 1 * 128 + 1 * r.val = (128 * t.val + r.val) % 2048; rw [hi.2.1]; omega
  · show win0_5.index t 2 * 512 + 1 * f.val = f.val; rw [hi.2.2]; omega

theorem flushed0_6 (t : Fin cfg0.N) (hf : (cfg0.win 6).flush t = true) :
    (dat0 (V1' m) c).flushed 6 t = ((cfg0.win 6).blk t).view.read (Elt Ideal) (phiA m c) := by
  have hi := (idx0 t).2.2.2.2.2.2.1
  have hN : t.val < 16 := lt_of_lt_of_eq t.isLt (show cfg0.N = 16 from N_0)
  show (cfg0.win 6).cut (grid0.coords t) ((dat0 (V1' m) c).after 6 t) = _
  rw [after0_6]
  funext j
  obtain ⟨b, r, f, rfl⟩ : ∃ (b : Fin 8) (r : Fin 128) (f : Fin 512), j = ix3 b r f := ⟨j 0, j 1, j 2, eq_ix3 j⟩
  refine (out6_apply m c t b r f).trans ?_
  rw [View.read_apply]
  refine (phiA_apply m c _ b (rowAt 128 t.val r.val) f ?_ ?_ ?_).symm
  · show win0_6.index t 0 * 8 + 1 * b.val = b.val; rw [hi.1]; omega
  · show win0_6.index t 1 * 128 + 1 * r.val = (128 * t.val + r.val) % 2048; rw [hi.2.1]; omega
  · show win0_6.index t 2 * 512 + 1 * f.val = f.val; rw [hi.2.2]; omega

theorem flushed0_7 (t : Fin cfg0.N) (hf : (cfg0.win 7).flush t = true) :
    (dat0 (V1' m) c).flushed 7 t = ((cfg0.win 7).blk t).view.read (Elt Ideal) (m ((c : Thread nD τ).loc main_arg0)) := by
  have hi := (idx0 t).2.2.2.2.2.2.2
  have hN : t.val < 16 := lt_of_lt_of_eq t.isLt (show cfg0.N = 16 from N_0)
  show (cfg0.win 7).cut (grid0.coords t) ((dat0 (V1' m) c).after 7 t) = _
  rw [after0_7]
  funext j
  obtain ⟨b, r, k, rfl⟩ : ∃ (b : Fin 8) (r : Fin 128) (k : Fin 1024), j = ix3 b r k := ⟨j 0, j 1, j 2, eq_ix3 j⟩
  refine (out7_apply m c t b r k).trans ?_
  rw [View.read_apply]
  refine (xA_apply m c _ b (rowAt 128 t.val r.val) k ?_ ?_ ?_).symm
  · show win0_7.index t 0 * 8 + 1 * b.val = b.val; rw [hi.1]; omega
  · show win0_7.index t 1 * 128 + 1 * r.val = (128 * t.val + r.val) % 2048; rw [hi.2.1]; omega
  · show win0_7.index t 2 * 1024 + 1 * k.val = k.val; rw [hi.2.2]; omega

/-- The point that writes row `n`: the row's block of 128. -/
def pt0 (n : ℕ) : Fin cfg0.N := ⟨(n / 128) % 16, lt_of_lt_of_eq (Nat.mod_lt _ (by decide)) N_0.symm⟩

theorem cover0_5 (i : S8x2048x512.Idx) : ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 512 := (i 2).isLt
  refine ⟨pt0 (i 1).val, flush0_5 _, ?_⟩
  have hi := (idx0 (pt0 (i 1).val)).2.2.2.2.2.1
  have ht : (pt0 (i 1).val).val = (i 1).val / 128 % 16 := rfl
  show i ∈ ((View.whole main_v2_0).slice (win0_5.rect (pt0 (i 1).val))).set
  rw [View.set_slice_whole, Rect.mem_set_unit]
  intro a
  match a with
  | ⟨0, _⟩ => show win0_5.index (pt0 (i 1).val) 0 * 8 ≤ (i 0).val ∧ (i 0).val < win0_5.index (pt0 (i 1).val) 0 * 8 + 8; rw [hi.1]; omega
  | ⟨1, _⟩ => show win0_5.index (pt0 (i 1).val) 1 * 128 ≤ (i 1).val ∧ (i 1).val < win0_5.index (pt0 (i 1).val) 1 * 128 + 128; rw [hi.2.1, ht]; omega
  | ⟨2, _⟩ => show win0_5.index (pt0 (i 1).val) 2 * 512 ≤ (i 2).val ∧ (i 2).val < win0_5.index (pt0 (i 1).val) 2 * 512 + 512; rw [hi.2.2]; omega

theorem cover0_6 (i : S8x2048x512.Idx) : ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 512 := (i 2).isLt
  refine ⟨pt0 (i 1).val, flush0_6 _, ?_⟩
  have hi := (idx0 (pt0 (i 1).val)).2.2.2.2.2.2.1
  have ht : (pt0 (i 1).val).val = (i 1).val / 128 % 16 := rfl
  show i ∈ ((View.whole main_v2_1).slice (win0_6.rect (pt0 (i 1).val))).set
  rw [View.set_slice_whole, Rect.mem_set_unit]
  intro a
  match a with
  | ⟨0, _⟩ => show win0_6.index (pt0 (i 1).val) 0 * 8 ≤ (i 0).val ∧ (i 0).val < win0_6.index (pt0 (i 1).val) 0 * 8 + 8; rw [hi.1]; omega
  | ⟨1, _⟩ => show win0_6.index (pt0 (i 1).val) 1 * 128 ≤ (i 1).val ∧ (i 1).val < win0_6.index (pt0 (i 1).val) 1 * 128 + 128; rw [hi.2.1, ht]; omega
  | ⟨2, _⟩ => show win0_6.index (pt0 (i 1).val) 2 * 512 ≤ (i 2).val ∧ (i 2).val < win0_6.index (pt0 (i 1).val) 2 * 512 + 512; rw [hi.2.2]; omega

theorem cover0_7 (i : S8x2048x1024.Idx) : ∃ t : Fin cfg0.N, (cfg0.win 7).flush t = true ∧ i ∈ ((cfg0.win 7).blk t).view.set := by
  have h0 : (i 0).val < 8 := (i 0).isLt
  have h1 : (i 1).val < 2048 := (i 1).isLt
  have h2 : (i 2).val < 1024 := (i 2).isLt
  refine ⟨pt0 (i 1).val, flush0_7 _, ?_⟩
  have hi := (idx0 (pt0 (i 1).val)).2.2.2.2.2.2.2
  have ht : (pt0 (i 1).val).val = (i 1).val / 128 % 16 := rfl
  show i ∈ ((View.whole main_v2_2).slice (win0_7.rect (pt0 (i 1).val))).set
  rw [View.set_slice_whole, Rect.mem_set_unit]
  intro a
  match a with
  | ⟨0, _⟩ => show win0_7.index (pt0 (i 1).val) 0 * 8 ≤ (i 0).val ∧ (i 0).val < win0_7.index (pt0 (i 1).val) 0 * 8 + 8; rw [hi.1]; omega
  | ⟨1, _⟩ => show win0_7.index (pt0 (i 1).val) 1 * 128 ≤ (i 1).val ∧ (i 1).val < win0_7.index (pt0 (i 1).val) 1 * 128 + 128; rw [hi.2.1, ht]; omega
  | ⟨2, _⟩ => show win0_7.index (pt0 (i 1).val) 2 * 1024 ≤ (i 2).val ∧ (i 2).val < win0_7.index (pt0 (i 1).val) 2 * 1024 + 1024; rw [hi.2.2]; omega

/-- After the first region its three result arrays hold `theta`, `phi` and the input. -/
theorem final0_5 : (dat0 (V1' m) c).arrAt 5 cfg0.N = thetaA m c :=
  (dat0 (V1' m) c).arrAt_eq_of_cover 5 (thetaA m c) (flushed0_5 m c) (cover0_5)
theorem final0_6 : (dat0 (V1' m) c).arrAt 6 cfg0.N = phiA m c :=
  (dat0 (V1' m) c).arrAt_eq_of_cover 6 (phiA m c) (flushed0_6 m c) (cover0_6)
theorem final0_7 : (dat0 (V1' m) c).arrAt 7 cfg0.N = m ((c : Thread nD τ).loc main_arg0) :=
  (dat0 (V1' m) c).arrAt_eq_of_cover 7 (m ((c : Thread nD τ).loc main_arg0)) (flushed0_7 m c) (cover0_7)

/-- What the later regions find: the first region's result arrays, and the input, in the buffers. -/
theorem V2_theta : (V2' m c main_v2_0 : S8x2048x512.Idx → EReal) = thetaA m c := (W2_arr m c 5).trans (final0_5 m c)
theorem V2_phi : (V2' m c main_v2_1 : S8x2048x512.Idx → EReal) = phiA m c := (W2_arr m c 6).trans (final0_6 m c)
theorem V2_xb : (V2' m c main_v2_2 : S8x2048x1024.Idx → EReal) = m ((c : Thread nD τ).loc main_arg0) := (W2_arr m c 7).trans (final0_7 m c)
theorem V2_arg0 : V2' m c main_arg0 = m ((c : Thread nD τ).loc main_arg0) := (W2_in m c 0 rfl).trans (V1_arg0 m c)

end Cert.KernelIdeal.Hand

end
-- ==== Proof.KI.Arr.lean ====
/- The column log-sum-exp and the kernel side's result as arrays over the argument arrays. -/
import proofs.«133348_j60799557042445_2_alg».proof.Proof.KI.V0
import proofs.«133348_j60799557042445_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The column log-sum-exp as the second region leaves it, as an array. -/
def lseA : S8x2048x1.Idx → EReal := fun i => Spec.lse (xS m c) (wtS m c) (wpS m c) (btS m c) (bpS m c) ⟨(i 0).val, (i 0).isLt⟩ ⟨(i 1).val, (i 1).isLt⟩
theorem lseA_apply (i : S8x2048x1.Idx) (b : Fin 8) (n : Fin 2048) (h0 : (i 0).val = b.val) (h1 : (i 1).val = n.val) :
    lseA m c i = Spec.lse (xS m c) (wtS m c) (wpS m c) (btS m c) (bpS m c) b n := by
  unfold lseA
  congr 1 <;> exact Fin.ext ‹_›

/-- The kernel side's result as an array. -/
def outA : S8x2048x1024.Idx → EReal := fun i => Spec.kernelOut (xS m c) (wtS m c) (wpS m c) (btS m c) (bpS m c) ⟨(i 0).val, (i 0).isLt⟩ ⟨(i 1).val, (i 1).isLt⟩ ⟨(i 2).val, (i 2).isLt⟩
theorem outA_apply (i : S8x2048x1024.Idx) (b : Fin 8) (n : Fin 2048) (d : Fin 1024) (h0 : (i 0).val = b.val) (h1 : (i 1).val = n.val) (h2 : (i 2).val = d.val) :
    outA m c i = Spec.kernelOut (xS m c) (wtS m c) (wpS m c) (btS m c) (bpS m c) b n d := by
  unfold outA
  congr 1 <;> exact Fin.ext ‹_›

/-- The score of column `n'` against row `n` over the arrays the first region left. -/
theorem score_arr (b : Fin 8) (m' n : Fin 2048) :
    (∑ f : Fin 512, Spec.phi (xS m c) (wpS m c) (bpS m c) b m' f * Spec.theta (xS m c) (wtS m c) (btS m c) b n f)
      = Spec.score (xS m c) (wtS m c) (wpS m c) (btS m c) (bpS m c) b m' n := rfl

end Cert.KernelIdeal.Hand

end
-- ==== Proof.KI.Res1.lean ====
/- What each case of the second region's body leaves in its buffers, as the body's pure functions of what it loaded. -/
import proofs.«133348_j60799557042445_2_alg».proof.Proof.KI.R1
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
variable {F : FTy → Type} [FloatOps F]

theorem hz3 : (![0, 0, 0] : Fin 3 → Nat) = fun _ => 0 := funext fun a => by fin_cases a <;> rfl

theorem res1_A_s0 (c : Dev nD) (t : Fin cfg1.N) (hc0 : cond1_0 (grid1.coords t)) (hc1 : ¬cond1_1 (grid1.coords t)) (x0 : Vec F S8x512x512 .bf16) (x1 : Vec F S8x256x512 .bf16) :
    (res1_A c t hc0 hc1 x0 x1).2.1 = k1_pay7 x0 x1 k1_pay2 := by
  unfold res1_A
  dsimp only
  rw [View.read_writes_eq_canon _ _ _ (scover1_A_0 c t hc0 hc1 x0 x1)]
  unfold run1_A kernelRun1_A
  dsimp only
  try sl_unfold_words
  rw [View.canon_cons_unit_zero (S := S8x512x1) hz3, View.readCov_unit_zero (S := S8x512x1) _ hz3]
  simp only [View.readAt_eq_ld, (hs1_0 t).read_unread, (hs1_1 t).read_unread, (hs1_2 t).read_unread, (Memref.isWhole_whole cc1_scratch0).read_unread, (Memref.isWhole_whole cc1_scratch1).read_unread, View.ld_unit_zero (S := S8x512x512) hz3, View.ld_unit_zero (S := S8x256x512) hz3, View.ld_unit_zero (S := S8x512x1) hz3, shapeCast_self]

theorem res1_A_s1 (c : Dev nD) (t : Fin cfg1.N) (hc0 : cond1_0 (grid1.coords t)) (hc1 : ¬cond1_1 (grid1.coords t)) (x0 : Vec F S8x512x512 .bf16) (x1 : Vec F S8x256x512 .bf16) :
    (res1_A c t hc0 hc1 x0 x1).2.2 = k1_pay6 x0 x1 k1_pay2 k1_pay2 k1_pay3 := by
  unfold res1_A
  dsimp only
  rw [View.read_writes_eq_canon _ _ _ (scover1_A_1 c t hc0 hc1 x0 x1)]
  unfold run1_A kernelRun1_A
  dsimp only
  try sl_unfold_words
  rw [View.canon_cons_unit_zero (S := S8x512x1) hz3]
  simp only [View.readCov_unit_zero (S := S8x512x1) _ hz3]
  simp only [View.readAt_eq_ld, (hs1_0 t).read_unread, (hs1_1 t).read_unread, (hs1_2 t).read_unread, (Memref.isWhole_whole cc1_scratch0).read_unread, (Memref.isWhole_whole cc1_scratch1).read_unread, View.ld_unit_zero (S := S8x512x512) hz3, View.ld_unit_zero (S := S8x256x512) hz3, View.ld_unit_zero (S := S8x512x1) hz3, shapeCast_self]

theorem res1_B_s0 (c : Dev nD) (t : Fin cfg1.N) (hc0 : ¬cond1_0 (grid1.coords t)) (hc1 : ¬cond1_1 (grid1.coords t)) (x0 : Vec F S8x512x512 .bf16) (x1 : Vec F S8x256x512 .bf16) (xs0 : Vec F S8x512x1 .f32) (xs1 : Vec F S8x512x1 .f32) :
    (res1_B c t hc0 hc1 x0 x1 xs0 xs1).2.1 = k1_pay7 x0 x1 xs0 := by
  unfold res1_B
  dsimp only
  rw [View.read_writes_eq_canon _ _ _ (scover1_B_0 c t hc0 hc1 x0 x1 xs0 xs1)]
  unfold run1_B kernelRun1_B
  dsimp only
  try sl_unfold_words
  rw [View.canon_unit_zero hz3]
  simp only [View.readAt_eq_ld, (hs1_0 t).read_unread, (hs1_1 t).read_unread, (hs1_2 t).read_unread, (Memref.isWhole_whole cc1_scratch0).read_unread, (Memref.isWhole_whole cc1_scratch1).read_unread, View.ld_unit_zero (S := S8x512x512) hz3, View.ld_unit_zero (S := S8x256x512) hz3, View.ld_unit_zero (S := S8x512x1) hz3, shapeCast_self]

theorem res1_B_s1 (c : Dev nD) (t : Fin cfg1.N) (hc0 : ¬cond1_0 (grid1.coords t)) (hc1 : ¬cond1_1 (grid1.coords t)) (x0 : Vec F S8x512x512 .bf16) (x1 : Vec F S8x256x512 .bf16) (xs0 : Vec F S8x512x1 .f32) (xs1 : Vec F S8x512x1 .f32) :
    (res1_B c t hc0 hc1 x0 x1 xs0 xs1).2.2 = k1_pay6 x0 x1 xs0 xs0 xs1 := by
  unfold res1_B
  dsimp only
  rw [View.read_writes_eq_canon _ _ _ (scover1_B_1 c t hc0 hc1 x0 x1 xs0 xs1)]
  unfold run1_B kernelRun1_B
  dsimp only
  try sl_unfold_words
  rw [View.canon_unit_zero hz3]
  simp only [View.readAt_eq_ld, (hs1_0 t).read_unread, (hs1_1 t).read_unread, (hs1_2 t).read_unread, (Memref.isWhole_whole cc1_scratch0).read_unread, (Memref.isWhole_whole cc1_scratch1).read_unread, View.ld_unit_zero (S := S8x512x512) hz3, View.ld_unit_zero (S := S8x256x512) hz3, View.ld_unit_zero (S := S8x512x1) hz3, shapeCast_self]

theorem res1_C_s0 (c : Dev nD) (t : Fin cfg1.N) (hc0 : ¬cond1_0 (grid1.coords t)) (hc1 : cond1_1 (grid1.coords t)) (x0 : Vec F S8x512x512 .bf16) (x1 : Vec F S8x256x512 .bf16) (xs0 : Vec F S8x512x1 .f32) (xs1 : Vec F S8x512x1 .f32) :
    (res1_C c t hc0 hc1 x0 x1 xs0 xs1).2.1 = k1_pay7 x0 x1 xs0 := by
  unfold res1_C
  dsimp only
  rw [View.read_writes_eq_canon _ _ _ (scover1_C_0 c t hc0 hc1 x0 x1 xs0 xs1)]
  unfold run1_C kernelRun1_C
  dsimp only
  try sl_unfold_words
  rw [View.canon_unit_zero hz3]
  simp only [View.readAt_eq_ld, (hs1_0 t).read_unread, (hs1_1 t).read_unread, (hs1_2 t).read_unread, (Memref.isWhole_whole cc1_scratch0).read_unread, (Memref.isWhole_whole cc1_scratch1).read_unread, View.ld_unit_zero (S := S8x512x512) hz3, View.ld_unit_zero (S := S8x256x512) hz3, View.ld_unit_zero (S := S8x512x1) hz3, shapeCast_self]

theorem res1_C_s1 (c : Dev nD) (t : Fin cfg1.N) (hc0 : ¬cond1_0 (grid1.coords t)) (hc1 : cond1_1 (grid1.coords t)) (x0 : Vec F S8x512x512 .bf16) (x1 : Vec F S8x256x512 .bf16) (xs0 : Vec F S8x512x1 .f32) (xs1 : Vec F S8x512x1 .f32) :
    (res1_C c t hc0 hc1 x0 x1 xs0 xs1).2.2 = k1_pay6 x0 x1 xs0 xs0 xs1 := by
  unfold res1_C
  dsimp only
  rw [View.read_writes_eq_canon _ _ _ (scover1_C_1 c t hc0 hc1 x0 x1 xs0 xs1)]
  unfold run1_C kernelRun1_C
  dsimp only
  try sl_unfold_words
  rw [View.canon_unit_zero hz3]
  simp only [View.readAt_eq_ld, (hs1_0 t).read_unread, (hs1_1 t).read_unread, (hs1_2 t).read_unread, (Memref.isWhole_whole cc1_scratch0).read_unread, (Memref.isWhole_whole cc1_scratch1).read_unread, View.ld_unit_zero (S := S8x512x512) hz3, View.ld_unit_zero (S := S8x256x512) hz3, View.ld_unit_zero (S := S8x512x1) hz3, shapeCast_self]

theorem res1_C_o (c : Dev nD) (t : Fin cfg1.N) (hc0 : ¬cond1_0 (grid1.coords t)) (hc1 : cond1_1 (grid1.coords t)) (x0 : Vec F S8x512x512 .bf16) (x1 : Vec F S8x256x512 .bf16) (xs0 : Vec F S8x512x1 .f32) (xs1 : Vec F S8x512x1 .f32) :
    (res1_C c t hc0 hc1 x0 x1 xs0 xs1).1 = k1_pay1 (k1_pay7 x0 x1 xs0) (k1_pay6 x0 x1 xs0 xs0 xs1) := by
  unfold res1_C
  dsimp only
  rw [View.read_writes_eq_canon _ _ _ (cover1_C_2 c t hc0 hc1 x0 x1 xs0 xs1)]
  unfold run1_C kernelRun1_C
  dsimp only
  try sl_unfold_words
  rw [View.canon_unit_zero hz3]
  simp only [View.readCov_unit_zero (S := S8x512x1) _ hz3]
  simp only [View.readAt_eq_ld, (hs1_0 t).read_unread, (hs1_1 t).read_unread, (hs1_2 t).read_unread, (Memref.isWhole_whole cc1_scratch0).read_unread, (Memref.isWhole_whole cc1_scratch1).read_unread, View.ld_unit_zero (S := S8x512x512) hz3, View.ld_unit_zero (S := S8x256x512) hz3, View.ld_unit_zero (S := S8x512x1) hz3, shapeCast_self]

end Cert.KernelIdeal.Hand
end
-- ==== Proof.KI.Pay12.lean ====
/-
  The second and third kernels' stored values read at an index, on the extended reals.

  Second kernel: for a block of 512 columns and a block of 256 rows of each of the 8 batches, the scores
  S(b, p, q) = Σ_f x0[b, p, f]·x1[b, q, f]; the running maximum max(old, max_q S(b, p, q)); the running sum
  exp(old max - new max)·old sum + Σ_q exp(S(b, p, q) - new max); at the end max + log sum.
  Third kernel: the accumulator plus Σ_q exp(score(b, q, n) - lse[b, q])·x[b, q, d].
-/
import proofs.«133348_j60799557042445_2_alg».proof.Proof.Gen.KernelIdeal.Skeleton
import proofs.«133348_j60799557042445_2_alg».proof.Proof.KI.Pay0
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ### The constants and the elementwise payloads -/

theorem k1_pay2_apply (i : S8x512x1.Idx) : k1_pay2 (F := Ideal) i = ⊥ := by
  unfold k1_pay2
  rw [shapeCast_self]
  show Ideal.ofBits .f32 0xFF800000#32 = ⊥
  simp [Ideal.ofBits, Ideal.ieee]

theorem k1_pay3_apply (i : S8x512x1.Idx) : k1_pay3 (F := Ideal) i = 0 := by
  unfold k1_pay3
  rw [shapeCast_self]
  exact Ideal.ofBits_zero_f32

theorem k1_pay1_apply (v32 v33 : Vec Ideal S8x512x1 .f32) (i : S8x512x1.Idx) :
    k1_pay1 v32 v33 i = v32 i + Ideal.log (v33 i) := rfl

theorem k2_pay1_apply (i : S4x256x1024.Idx) : k2_pay1 (F := Ideal) i = 0 := by
  unfold k2_pay1
  rw [shapeCast_self]
  exact Ideal.ofBits_zero_f32

theorem k2_pay3_apply (v25 v26 : Vec Ideal S4x256x1024 .f32) (i : S4x256x1024.Idx) :
    k2_pay3 v25 v26 i = v25 i + v26 i := rfl

/-! ### The scores of the second kernel -/

theorem d1_l0 (i : S8x512x256.Idx) (q : dot_S8x512x512_S8x256x512_S8x512x256_2_2_1_1_0_0.contr.Idx) :
    (dot_S8x512x512_S8x256x512_S8x512x256_2_2_1_1_0_0.lhsIdx i q 0).val = (i 0).val := by
  unfold DotDims.lhsIdx
  rw [dif_pos (show (0 : Fin S8x512x512.rank) ∈ dot_S8x512x512_S8x256x512_S8x512x256_2_2_1_1_0_0.lhsBatch by decide)]
  rfl
theorem d1_l1 (i : S8x512x256.Idx) (q : dot_S8x512x512_S8x256x512_S8x512x256_2_2_1_1_0_0.contr.Idx) :
    (dot_S8x512x512_S8x256x512_S8x512x256_2_2_1_1_0_0.lhsIdx i q 1).val = (i 1).val := by
  unfold DotDims.lhsIdx
  rw [dif_neg (show ¬(1 : Fin S8x512x512.rank) ∈ dot_S8x512x512_S8x256x512_S8x512x256_2_2_1_1_0_0.lhsBatch by decide), dif_pos (show (1 : Fin S8x512x512.rank) ∈ dot_S8x512x512_S8x256x512_S8x512x256_2_2_1_1_0_0.lhsNonContracting by decide)]
  rfl
theorem d1_l2 (i : S8x512x256.Idx) (q : dot_S8x512x512_S8x256x512_S8x512x256_2_2_1_1_0_0.contr.Idx) :
    (dot_S8x512x512_S8x256x512_S8x512x256_2_2_1_1_0_0.lhsIdx i q 2).val = (q ⟨0, by decide⟩).val :=
  dot_S8x512x512_S8x256x512_S8x512x256_2_2_1_1_0_0.lhsIdx_val_of_single rfl i q
theorem d1_r0 (i : S8x512x256.Idx) (q : dot_S8x512x512_S8x256x512_S8x512x256_2_2_1_1_0_0.contr.Idx) :
    (dot_S8x512x512_S8x256x512_S8x512x256_2_2_1_1_0_0.rhsIdx i q 0).val = (i 0).val := by
  unfold DotDims.rhsIdx
  rw [dif_pos (show (0 : Fin S8x256x512.rank) ∈ dot_S8x512x512_S8x256x512_S8x512x256_2_2_1_1_0_0.rhsBatch by decide)]
  rfl
theorem d1_r1 (i : S8x512x256.Idx) (q : dot_S8x512x512_S8x256x512_S8x512x256_2_2_1_1_0_0.contr.Idx) :
    (dot_S8x512x512_S8x256x512_S8x512x256_2_2_1_1_0_0.rhsIdx i q 1).val = (i 2).val := by
  unfold DotDims.rhsIdx
  rw [dif_neg (show ¬(1 : Fin S8x256x512.rank) ∈ dot_S8x512x512_S8x256x512_S8x512x256_2_2_1_1_0_0.rhsBatch by decide), dif_pos (show (1 : Fin S8x256x512.rank) ∈ dot_S8x512x512_S8x256x512_S8x512x256_2_2_1_1_0_0.rhsNonContracting by decide)]
  rfl
theorem d1_r2 (i : S8x512x256.Idx) (q : dot_S8x512x512_S8x256x512_S8x512x256_2_2_1_1_0_0.contr.Idx) :
    (dot_S8x512x512_S8x256x512_S8x512x256_2_2_1_1_0_0.rhsIdx i q 2).val = (q ⟨0, by decide⟩).val :=
  dot_S8x512x512_S8x256x512_S8x512x256_2_2_1_1_0_0.rhsIdx_val_of_single rfl i q
theorem d1_lhs (i : S8x512x256.Idx) (k : Fin 512) :
    dot_S8x512x512_S8x256x512_S8x512x256_2_2_1_1_0_0.lhsIdx i ((contrEquiv1 dot_S8x512x512_S8x256x512_S8x512x256_2_2_1_1_0_0 512 rfl rfl).symm k) = ix3 (i 0) (i 1) k := by
  have hk := contrEquiv1_symm_val dot_S8x512x512_S8x256x512_S8x512x256_2_2_1_1_0_0 512 rfl rfl k
  refine funext fun a => Fin.ext ?_
  match a with
  | ⟨0, _⟩ => exact d1_l0 _ _
  | ⟨1, _⟩ => exact d1_l1 _ _
  | ⟨2, _⟩ => exact (d1_l2 _ _).trans hk
theorem d1_rhs (i : S8x512x256.Idx) (k : Fin 512) :
    dot_S8x512x512_S8x256x512_S8x512x256_2_2_1_1_0_0.rhsIdx i ((contrEquiv1 dot_S8x512x512_S8x256x512_S8x512x256_2_2_1_1_0_0 512 rfl rfl).symm k) = ix3 (i 0) (i 2) k := by
  have hk := contrEquiv1_symm_val dot_S8x512x512_S8x256x512_S8x512x256_2_2_1_1_0_0 512 rfl rfl k
  refine funext fun a => Fin.ext ?_
  match a with
  | ⟨0, _⟩ => exact d1_r0 _ _
  | ⟨1, _⟩ => exact d1_r1 _ _
  | ⟨2, _⟩ => exact (d1_r2 _ _).trans hk

/-- The score of column p against row q of batch b. -/
abbrev S1 (x0 : Vec Ideal S8x512x512 .bf16) (x1 : Vec Ideal S8x256x512 .bf16) (b : Fin 8) (p : Fin 512) (q : Fin 256) : EReal :=
  ∑ f : Fin 512, x0 (ix3 b p f) * x1 (ix3 b q f)

theorem k1_pay4_apply (x0 : Vec Ideal S8x512x512 .bf16) (x1 : Vec Ideal S8x256x512 .bf16) (b : Fin 8) (p : Fin 512) (q : Fin 256) :
    k1_pay4 x0 x1 (ix3 b p q) = S1 x0 x1 b p q := by
  unfold k1_pay4
  rw [matmul_zero_sum dot_S8x512x512_S8x256x512_S8x512x256_2_2_1_1_0_0 512 rfl rfl, shapeCast_self, shapeCast_self]
  refine Finset.sum_congr rfl fun k _ => ?_
  rw [d1_lhs, d1_rhs]
  rfl

/-! ### The running maximum and the running sum of the second kernel -/

theorem ofBits_neg_inf : Ideal.ofBits .f32 0xFF800000#32 = ⊥ := by simp [Ideal.ofBits, Ideal.ieee]

/-- The reduced index (b, p) with the coordinate q inserted on the last axis is (b, p, q). -/
theorem lift1 (b : Fin 8) (p : Fin 512) (q : Fin 256) :
    reduces_S8x512x256_S8x512.lift (ix2 b p) q = ix3 b p q :=
  funext fun a => Fin.ext (by
    match a with
    | ⟨0, _⟩ => rfl
    | ⟨1, _⟩ => rfl
    | ⟨2, _⟩ => rfl)

/-- Adding a unit last axis: (b, p, 0) of the 8 × 512 × 1 value is (b, p) of the 8 × 512 one. -/
theorem keep1 (v : FVec Ideal S8x512 .f32) (b : Fin 8) (p : Fin 512) :
    (shapeCast S8x512x1 v shapeCasts_S8x512_S8x512x1 : FVec Ideal S8x512x1 .f32) (ix3 b p 0) = v (ix2 b p) := by
  refine shapeCast_apply _ _ (ix3 b p 0) (ix2 b p) ?_
  rw [Shape.rowMajor_val_three, Shape.rowMajor_val_two]
  show b.val * 512 + p.val = (b.val * 512 + p.val) * 1 + 0
  omega

/-- The broadcast along the last axis: (b, p, q) of the 8 × 512 × 256 value is (b, p, 0) of the 8 × 512 × 1 one. -/
theorem bcast1 (v : FVec Ideal S8x512x1 .f32) (b : Fin 8) (p : Fin 512) (q : Fin 256) :
    (broadcastTo S8x512x256 v broadcasts_S8x512x1_S8x512x256 : FVec Ideal S8x512x256 .f32) (ix3 b p q) = v (ix3 b p 0) :=
  broadcastTo_apply v broadcasts_S8x512x1_S8x512x256 (ix3 b p q) (ix3 b p 0) (fun a => match a with
    | ⟨0, _⟩ => by show b.val = if (8 : Nat) = 1 then 0 else b.val; rw [if_neg (by decide)]
    | ⟨1, _⟩ => by show p.val = if (512 : Nat) = 1 then 0 else p.val; rw [if_neg (by decide)]
    | ⟨2, _⟩ => by show 0 = if (1 : Nat) = 1 then 0 else q.val; rw [if_pos rfl])

/-- The block's maximum from -∞ at (b, p). -/
theorem rowmax_apply (x0 : Vec Ideal S8x512x512 .bf16) (x1 : Vec Ideal S8x256x512 .bf16) (b : Fin 8) (p : Fin 512) :
    (multiReduction .maximumf [2] S8x512 (k1_pay4 x0 x1) 0xFF800000#32 reduces_S8x512x256_S8x512 (.inl rfl) rfl : FVec Ideal S8x512 .f32) (ix2 b p)
      = (Finset.univ : Finset (Fin 256)).fold max ⊥ fun q => S1 x0 x1 b p q := by
  refine (Ideal.multiReduction_maximumf_single (k1_pay4 x0 x1) _ reduces_S8x512x256_S8x512 (.inl rfl) rfl (ix2 b p)).trans ?_
  show (Finset.univ : Finset (Fin 256)).fold max (Ideal.ofBits .f32 0xFF800000#32)
    (fun q : Fin 256 => k1_pay4 x0 x1 (reduces_S8x512x256_S8x512.lift (ix2 b p) q)) = _
  rw [ofBits_neg_inf]
  exact congrArg (fun f => (Finset.univ : Finset (Fin 256)).fold max ⊥ f)
    (funext fun q => (congrArg (k1_pay4 x0 x1) (lift1 b p q)).trans (k1_pay4_apply x0 x1 b p q))

theorem k1_pay5_apply (x0 : Vec Ideal S8x512x512 .bf16) (x1 : Vec Ideal S8x256x512 .bf16) (v8 : Vec Ideal S8x512x1 .f32) (b : Fin 8) (p : Fin 512) :
    k1_pay5 x0 x1 v8 (ix3 b p 0)
      = max (v8 (ix3 b p 0)) ((Finset.univ : Finset (Fin 256)).fold max ⊥ fun q => S1 x0 x1 b p q) := by
  unfold k1_pay5
  refine (maximumf_apply _ _ _).trans (congrArg (max (v8 (ix3 b p 0))) ?_)
  exact (keep1 _ b p).trans (rowmax_apply x0 x1 b p)

theorem k1_pay7_apply (x0 : Vec Ideal S8x512x512 .bf16) (x1 : Vec Ideal S8x256x512 .bf16) (v8 : Vec Ideal S8x512x1 .f32) (b : Fin 8) (p : Fin 512) :
    k1_pay7 x0 x1 v8 (ix3 b p 0)
      = max (v8 (ix3 b p 0)) ((Finset.univ : Finset (Fin 256)).fold max ⊥ fun q => S1 x0 x1 b p q) := by
  unfold k1_pay7
  rw [shapeCast_self]
  exact k1_pay5_apply x0 x1 v8 b p

/-- The block's sum of exponentials relative to the new maximum at (b, p). -/
theorem rowsum_apply (x0 : Vec Ideal S8x512x512 .bf16) (x1 : Vec Ideal S8x256x512 .bf16) (m : FVec Ideal S8x512x1 .f32) (b : Fin 8) (p : Fin 512) :
    (multiReduction .add [2] S8x512 (exp (subf (k1_pay4 x0 x1) (broadcastTo S8x512x256 m broadcasts_S8x512x1_S8x512x256))) 0x00000000#32
        reduces_S8x512x256_S8x512 (.inl rfl) rfl : FVec Ideal S8x512 .f32) (ix2 b p)
      = ∑ q : Fin 256, Ideal.exp (S1 x0 x1 b p q - m (ix3 b p 0)) := by
  refine (Ideal.multiReduction_add_single _ _ reduces_S8x512x256_S8x512 (.inl rfl) rfl (ix2 b p)).trans ?_
  show ∑ q : Fin 256, Ideal.exp (k1_pay4 x0 x1 (reduces_S8x512x256_S8x512.lift (ix2 b p) q)
    - (broadcastTo S8x512x256 m broadcasts_S8x512x1_S8x512x256 : FVec Ideal S8x512x256 .f32) (reduces_S8x512x256_S8x512.lift (ix2 b p) q)) = _
  refine Finset.sum_congr rfl fun q _ => ?_
  rw [lift1 b p q, k1_pay4_apply, bcast1]

theorem k1_pay6_apply (x0 : Vec Ideal S8x512x512 .bf16) (x1 : Vec Ideal S8x256x512 .bf16) (v8 v12 v18 : Vec Ideal S8x512x1 .f32) (b : Fin 8) (p : Fin 512) :
    k1_pay6 x0 x1 v8 v12 v18 (ix3 b p 0)
      = Ideal.exp (v12 (ix3 b p 0) - k1_pay5 x0 x1 v8 (ix3 b p 0)) * v18 (ix3 b p 0)
        + ∑ q : Fin 256, Ideal.exp (S1 x0 x1 b p q - k1_pay5 x0 x1 v8 (ix3 b p 0)) := by
  unfold k1_pay6
  rw [shapeCast_self]
  refine (addf_apply _ _ _).trans (congrArg (Ideal.exp (v12 (ix3 b p 0) - k1_pay5 x0 x1 v8 (ix3 b p 0)) * v18 (ix3 b p 0) + ·) ?_)
  exact (keep1 _ b p).trans (rowsum_apply x0 x1 (k1_pay5 x0 x1 v8) b p)

/-! ### The third kernel -/

theorem d2_l0 (i : S4x256x256.Idx) (q : dot_S4x256x512_S4x256x512_S4x256x256_2_2_1_1_0_0.contr.Idx) :
    (dot_S4x256x512_S4x256x512_S4x256x256_2_2_1_1_0_0.lhsIdx i q 0).val = (i 0).val := by
  unfold DotDims.lhsIdx
  rw [dif_pos (show (0 : Fin S4x256x512.rank) ∈ dot_S4x256x512_S4x256x512_S4x256x256_2_2_1_1_0_0.lhsBatch by decide)]
  rfl
theorem d2_l1 (i : S4x256x256.Idx) (q : dot_S4x256x512_S4x256x512_S4x256x256_2_2_1_1_0_0.contr.Idx) :
    (dot_S4x256x512_S4x256x512_S4x256x256_2_2_1_1_0_0.lhsIdx i q 1).val = (i 1).val := by
  unfold DotDims.lhsIdx
  rw [dif_neg (show ¬(1 : Fin S4x256x512.rank) ∈ dot_S4x256x512_S4x256x512_S4x256x256_2_2_1_1_0_0.lhsBatch by decide), dif_pos (show (1 : Fin S4x256x512.rank) ∈ dot_S4x256x512_S4x256x512_S4x256x256_2_2_1_1_0_0.lhsNonContracting by decide)]
  rfl
theorem d2_l2 (i : S4x256x256.Idx) (q : dot_S4x256x512_S4x256x512_S4x256x256_2_2_1_1_0_0.contr.Idx) :
    (dot_S4x256x512_S4x256x512_S4x256x256_2_2_1_1_0_0.lhsIdx i q 2).val = (q ⟨0, by decide⟩).val :=
  dot_S4x256x512_S4x256x512_S4x256x256_2_2_1_1_0_0.lhsIdx_val_of_single rfl i q
theorem d2_r0 (i : S4x256x256.Idx) (q : dot_S4x256x512_S4x256x512_S4x256x256_2_2_1_1_0_0.contr.Idx) :
    (dot_S4x256x512_S4x256x512_S4x256x256_2_2_1_1_0_0.rhsIdx i q 0).val = (i 0).val := by
  unfold DotDims.rhsIdx
  rw [dif_pos (show (0 : Fin S4x256x512.rank) ∈ dot_S4x256x512_S4x256x512_S4x256x256_2_2_1_1_0_0.rhsBatch by decide)]
  rfl
theorem d2_r1 (i : S4x256x256.Idx) (q : dot_S4x256x512_S4x256x512_S4x256x256_2_2_1_1_0_0.contr.Idx) :
    (dot_S4x256x512_S4x256x512_S4x256x256_2_2_1_1_0_0.rhsIdx i q 1).val = (i 2).val := by
  unfold DotDims.rhsIdx
  rw [dif_neg (show ¬(1 : Fin S4x256x512.rank) ∈ dot_S4x256x512_S4x256x512_S4x256x256_2_2_1_1_0_0.rhsBatch by decide), dif_pos (show (1 : Fin S4x256x512.rank) ∈ dot_S4x256x512_S4x256x512_S4x256x256_2_2_1_1_0_0.rhsNonContracting by decide)]
  rfl
theorem d2_r2 (i : S4x256x256.Idx) (q : dot_S4x256x512_S4x256x512_S4x256x256_2_2_1_1_0_0.contr.Idx) :
    (dot_S4x256x512_S4x256x512_S4x256x256_2_2_1_1_0_0.rhsIdx i q 2).val = (q ⟨0, by decide⟩).val :=
  dot_S4x256x512_S4x256x512_S4x256x256_2_2_1_1_0_0.rhsIdx_val_of_single rfl i q
theorem d2_lhs (i : S4x256x256.Idx) (k : Fin 512) :
    dot_S4x256x512_S4x256x512_S4x256x256_2_2_1_1_0_0.lhsIdx i ((contrEquiv1 dot_S4x256x512_S4x256x512_S4x256x256_2_2_1_1_0_0 512 rfl rfl).symm k) = ix3 (i 0) (i 1) k := by
  have hk := contrEquiv1_symm_val dot_S4x256x512_S4x256x512_S4x256x256_2_2_1_1_0_0 512 rfl rfl k
  refine funext fun a => Fin.ext ?_
  match a with
  | ⟨0, _⟩ => exact d2_l0 _ _
  | ⟨1, _⟩ => exact d2_l1 _ _
  | ⟨2, _⟩ => exact (d2_l2 _ _).trans hk
theorem d2_rhs (i : S4x256x256.Idx) (k : Fin 512) :
    dot_S4x256x512_S4x256x512_S4x256x256_2_2_1_1_0_0.rhsIdx i ((contrEquiv1 dot_S4x256x512_S4x256x512_S4x256x256_2_2_1_1_0_0 512 rfl rfl).symm k) = ix3 (i 0) (i 2) k := by
  have hk := contrEquiv1_symm_val dot_S4x256x512_S4x256x512_S4x256x256_2_2_1_1_0_0 512 rfl rfl k
  refine funext fun a => Fin.ext ?_
  match a with
  | ⟨0, _⟩ => exact d2_r0 _ _
  | ⟨1, _⟩ => exact d2_r1 _ _
  | ⟨2, _⟩ => exact (d2_r2 _ _).trans hk

theorem d3_l0 (i : S4x256x1024.Idx) (q : dot_S4x256x256_S4x256x1024_S4x256x1024_1_1_2_2_0_0.contr.Idx) :
    (dot_S4x256x256_S4x256x1024_S4x256x1024_1_1_2_2_0_0.lhsIdx i q 0).val = (i 0).val := by
  unfold DotDims.lhsIdx
  rw [dif_pos (show (0 : Fin S4x256x256.rank) ∈ dot_S4x256x256_S4x256x1024_S4x256x1024_1_1_2_2_0_0.lhsBatch by decide)]
  rfl
theorem d3_l1 (i : S4x256x1024.Idx) (q : dot_S4x256x256_S4x256x1024_S4x256x1024_1_1_2_2_0_0.contr.Idx) :
    (dot_S4x256x256_S4x256x1024_S4x256x1024_1_1_2_2_0_0.lhsIdx i q 1).val = (q ⟨0, by decide⟩).val :=
  dot_S4x256x256_S4x256x1024_S4x256x1024_1_1_2_2_0_0.lhsIdx_val_of_single rfl i q
theorem d3_l2 (i : S4x256x1024.Idx) (q : dot_S4x256x256_S4x256x1024_S4x256x1024_1_1_2_2_0_0.contr.Idx) :
    (dot_S4x256x256_S4x256x1024_S4x256x1024_1_1_2_2_0_0.lhsIdx i q 2).val = (i 1).val := by
  unfold DotDims.lhsIdx
  rw [dif_neg (show ¬(2 : Fin S4x256x256.rank) ∈ dot_S4x256x256_S4x256x1024_S4x256x1024_1_1_2_2_0_0.lhsBatch by decide), dif_pos (show (2 : Fin S4x256x256.rank) ∈ dot_S4x256x256_S4x256x1024_S4x256x1024_1_1_2_2_0_0.lhsNonContracting by decide)]
  rfl
theorem d3_r0 (i : S4x256x1024.Idx) (q : dot_S4x256x256_S4x256x1024_S4x256x1024_1_1_2_2_0_0.contr.Idx) :
    (dot_S4x256x256_S4x256x1024_S4x256x1024_1_1_2_2_0_0.rhsIdx i q 0).val = (i 0).val := by
  unfold DotDims.rhsIdx
  rw [dif_pos (show (0 : Fin S4x256x1024.rank) ∈ dot_S4x256x256_S4x256x1024_S4x256x1024_1_1_2_2_0_0.rhsBatch by decide)]
  rfl
theorem d3_r1 (i : S4x256x1024.Idx) (q : dot_S4x256x256_S4x256x1024_S4x256x1024_1_1_2_2_0_0.contr.Idx) :
    (dot_S4x256x256_S4x256x1024_S4x256x1024_1_1_2_2_0_0.rhsIdx i q 1).val = (q ⟨0, by decide⟩).val :=
  dot_S4x256x256_S4x256x1024_S4x256x1024_1_1_2_2_0_0.rhsIdx_val_of_single rfl i q
theorem d3_r2 (i : S4x256x1024.Idx) (q : dot_S4x256x256_S4x256x1024_S4x256x1024_1_1_2_2_0_0.contr.Idx) :
    (dot_S4x256x256_S4x256x1024_S4x256x1024_1_1_2_2_0_0.rhsIdx i q 2).val = (i 2).val := by
  unfold DotDims.rhsIdx
  rw [dif_neg (show ¬(2 : Fin S4x256x1024.rank) ∈ dot_S4x256x256_S4x256x1024_S4x256x1024_1_1_2_2_0_0.rhsBatch by decide), dif_pos (show (2 : Fin S4x256x1024.rank) ∈ dot_S4x256x256_S4x256x1024_S4x256x1024_1_1_2_2_0_0.rhsNonContracting by decide)]
  rfl
theorem d3_lhs (i : S4x256x1024.Idx) (k : Fin 256) :
    dot_S4x256x256_S4x256x1024_S4x256x1024_1_1_2_2_0_0.lhsIdx i ((contrEquiv1 dot_S4x256x256_S4x256x1024_S4x256x1024_1_1_2_2_0_0 256 rfl rfl).symm k) = ix3 (i 0) k (i 1) := by
  have hk := contrEquiv1_symm_val dot_S4x256x256_S4x256x1024_S4x256x1024_1_1_2_2_0_0 256 rfl rfl k
  refine funext fun a => Fin.ext ?_
  match a with
  | ⟨0, _⟩ => exact d3_l0 _ _
  | ⟨1, _⟩ => exact (d3_l1 _ _).trans hk
  | ⟨2, _⟩ => exact d3_l2 _ _
theorem d3_rhs (i : S4x256x1024.Idx) (k : Fin 256) :
    dot_S4x256x256_S4x256x1024_S4x256x1024_1_1_2_2_0_0.rhsIdx i ((contrEquiv1 dot_S4x256x256_S4x256x1024_S4x256x1024_1_1_2_2_0_0 256 rfl rfl).symm k) = ix3 (i 0) k (i 2) := by
  have hk := contrEquiv1_symm_val dot_S4x256x256_S4x256x1024_S4x256x1024_1_1_2_2_0_0 256 rfl rfl k
  refine funext fun a => Fin.ext ?_
  match a with
  | ⟨0, _⟩ => exact d3_r0 _ _
  | ⟨1, _⟩ => exact (d3_r1 _ _).trans hk
  | ⟨2, _⟩ => exact d3_r2 _ _

/-- The broadcast along the last axis: (b, q, n) of the 4 × 256 × 256 value is (b, q, 0) of the 4 × 256 × 1 one. -/
theorem bcast2 (v : FVec Ideal S4x256x1 .f32) (b : Fin 4) (q : Fin 256) (n : Fin 256) :
    (broadcastTo S4x256x256 v broadcasts_S4x256x1_S4x256x256 : FVec Ideal S4x256x256 .f32) (ix3 b q n) = v (ix3 b q 0) :=
  broadcastTo_apply v broadcasts_S4x256x1_S4x256x256 (ix3 b q n) (ix3 b q 0) (fun a => match a with
    | ⟨0, _⟩ => by show b.val = if (4 : Nat) = 1 then 0 else b.val; rw [if_neg (by decide)]
    | ⟨1, _⟩ => by show q.val = if (256 : Nat) = 1 then 0 else q.val; rw [if_neg (by decide)]
    | ⟨2, _⟩ => by show 0 = if (1 : Nat) = 1 then 0 else n.val; rw [if_pos rfl])

/-- The score of row q against column n of batch b. -/
theorem score2_apply (v3 v5 : Vec Ideal S4x256x512 .bf16) (b : Fin 4) (q n : Fin 256) :
    (matmul (φ₁ := .bf16) (φ₂ := .bf16) dot_S4x256x512_S4x256x512_S4x256x256_2_2_1_1_0_0 none v3 v5 (constant S4x256x256 .f32 0x00000000#32) : FVec Ideal S4x256x256 .f32) (ix3 b q n)
      = ∑ f : Fin 512, v3 (ix3 b q f) * v5 (ix3 b n f) := by
  rw [matmul_zero_sum dot_S4x256x512_S4x256x512_S4x256x256_2_2_1_1_0_0 512 rfl rfl]
  refine Finset.sum_congr rfl fun k _ => ?_
  rw [d2_lhs, d2_rhs]
  rfl

theorem k2_pay2_apply (v3 v5 : Vec Ideal S4x256x512 .bf16) (v8 : Vec Ideal S4x256x1 .f32) (v14 : Vec Ideal S4x256x1024 .f32)
    (v15 : Vec Ideal S4x256x1024 .bf16) (b : Fin 4) (n : Fin 256) (d : Fin 1024) :
    k2_pay2 v3 v5 v8 v14 v15 (ix3 b n d)
      = v14 (ix3 b n d) + ∑ q : Fin 256, Ideal.exp ((∑ f : Fin 512, v3 (ix3 b q f) * v5 (ix3 b n f)) - v8 (ix3 b q 0)) * v15 (ix3 b q d) := by
  unfold k2_pay2
  rw [shapeCast_self, shapeCast_self, shapeCast_self, shapeCast_self, shapeCast_self]
  refine (addf_apply _ _ _).trans (congrArg (v14 (ix3 b n d) + ·) ?_)
  rw [matmul_zero_sum dot_S4x256x256_S4x256x1024_S4x256x1024_1_1_2_2_0_0 256 rfl rfl]
  refine Finset.sum_congr rfl fun q _ => ?_
  rw [d3_lhs, d3_rhs]
  refine congrArg (· * v15 (ix3 b q d)) ?_
  show Ideal.exp ((matmul (φ₁ := .bf16) (φ₂ := .bf16) dot_S4x256x512_S4x256x512_S4x256x256_2_2_1_1_0_0 none v3 v5 (constant S4x256x256 .f32 0x00000000#32) : FVec Ideal S4x256x256 .f32) (ix3 b q n)
    - (broadcastTo S4x256x256 v8 broadcasts_S4x256x1_S4x256x256 : FVec Ideal S4x256x256 .f32) (ix3 b q n)) = _
  rw [score2_apply, bcast2]

end Cert.KernelIdeal.Hand

end
-- ==== Proof.KI.V1.lean ====
/-
  The second region's result array on the extended reals: the column log-sum-exp.

  Point `t = 8·qi + ki` of the 32 takes the 512 columns `512·qi + p` of `phi` and the 256 rows `256·ki + q` of `theta`.
  Sweeping `ki = 0 … 7` the two scratch buffers hold the running maximum and the running rescaled sum of each column's
  scores over the rows seen so far; at `ki = 7` the output block receives maximum + log sum. The four column blocks tile
  the 2048 columns.
-/
import proofs.«133348_j60799557042445_2_alg».proof.Proof.KI.Arr
import proofs.«133348_j60799557042445_2_alg».proof.Proof.KI.Res1
import proofs.«133348_j60799557042445_2_alg».proof.Proof.KI.Pay12
import proofs.«133348_j60799557042445_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The block indices of the second region's windows, decided over the grid. -/
theorem idx1 : ∀ t : Fin cfg1.N,
    (win1_0.index t 0 = 0 ∧ win1_0.index t 1 = t.val / 8 ∧ win1_0.index t 2 = 0)
    ∧ (win1_1.index t 0 = 0 ∧ win1_1.index t 1 = t.val % 8 ∧ win1_1.index t 2 = 0)
    ∧ (win1_2.index t 0 = 0 ∧ win1_2.index t 1 = t.val / 8 ∧ win1_2.index t 2 = 0) :=
  (by decide +kernel : ∀ t : Fin grid1.N, _)

theorem blk1_phi (t : Fin cfg1.N) (b : Fin 8) (p : Fin 512) (f : Fin 512) :
    (iblk1 (V2' m) c 0 t : Vec Ideal S8x512x512 .bf16) (ix3 b p f) = Spec.phi (xS m c) (wpS m c) (bpS m c) b (rowAt 512 (t.val / 8) p.val) f := by
  have hi := (idx1 t).1
  have hN : t.val < 32 := lt_of_lt_of_eq t.isLt (show cfg1.N = 32 from N_1)
  unfold iblk1
  rw [View.read_apply]
  show (V2' m c main_v2_1 : S8x2048x512.Idx → EReal) _ = _
  rw [V2_phi]
  refine phiA_apply m c _ b _ f ?_ ?_ ?_
  · show win1_0.index t 0 * 8 + 1 * b.val = b.val; rw [hi.1]; omega
  · show win1_0.index t 1 * 512 + 1 * p.val = (512 * (t.val / 8) + p.val) % 2048; rw [hi.2.1]; omega
  · show win1_0.index t 2 * 512 + 1 * f.val = f.val; rw [hi.2.2]; omega

theorem blk1_theta (t : Fin cfg1.N) (b : Fin 8) (q : Fin 256) (f : Fin 512) :
    (iblk1 (V2' m) c 1 t : Vec Ideal S8x256x512 .bf16) (ix3 b q f) = Spec.theta (xS m c) (wtS m c) (btS m c) b (rowAt 256 (t.val % 8) q.val) f := by
  have hi := (idx1 t).2.1
  have hN : t.val < 32 := lt_of_lt_of_eq t.isLt (show cfg1.N = 32 from N_1)
  unfold iblk1
  rw [View.read_apply]
  show (V2' m c main_v2_0 : S8x2048x512.Idx → EReal) _ = _
  rw [V2_theta]
  refine thetaA_apply m c _ b _ f ?_ ?_ ?_
  · show win1_1.index t 0 * 8 + 1 * b.val = b.val; rw [hi.1]; omega
  · show win1_1.index t 1 * 256 + 1 * q.val = (256 * (t.val % 8) + q.val) % 2048; rw [hi.2.1]; omega
  · show win1_1.index t 2 * 512 + 1 * f.val = f.val; rw [hi.2.2]; omega

/-- The score of a column of the point's `phi` block against a row of its `theta` block. -/
theorem S1_blk (t : Fin cfg1.N) (b : Fin 8) (p : Fin 512) (q : Fin 256) :
    S1 (iblk1 (V2' m) c 0 t) (iblk1 (V2' m) c 1 t) b p q
      = Spec.score (xS m c) (wtS m c) (wpS m c) (btS m c) (bpS m c) b (rowAt 512 (t.val / 8) p.val) (rowAt 256 (t.val % 8) q.val) := by
  refine Eq.trans ?_ (score_arr m c b _ _)
  refine Finset.sum_congr rfl fun f _ => ?_
  rw [blk1_phi, blk1_theta]

/-- One point of the sweep: from the running maximum and sum after `k` row blocks to those after `k + 1`. -/
theorem point_step (t : Fin cfg1.N) (xs0 xs1 : Vec Ideal S8x512x1 .f32) (k : ℕ) (hk : k = t.val % 8)
    (h0 : ∀ (b : Fin 8) (p : Fin 512), xs0 (ix3 b p 0) = Spec.mrun (xS m c) (wtS m c) (wpS m c) (btS m c) (bpS m c) b (rowAt 512 (t.val / 8) p.val) k)
    (h1 : ∀ (b : Fin 8) (p : Fin 512), xs1 (ix3 b p 0) = Spec.lrun (xS m c) (wtS m c) (wpS m c) (btS m c) (bpS m c) b (rowAt 512 (t.val / 8) p.val) k)
    (b : Fin 8) (p : Fin 512) :
    k1_pay7 (iblk1 (V2' m) c 0 t) (iblk1 (V2' m) c 1 t) xs0 (ix3 b p 0) = Spec.mrun (xS m c) (wtS m c) (wpS m c) (btS m c) (bpS m c) b (rowAt 512 (t.val / 8) p.val) (k + 1)
    ∧ k1_pay6 (iblk1 (V2' m) c 0 t) (iblk1 (V2' m) c 1 t) xs0 xs0 xs1 (ix3 b p 0) = Spec.lrun (xS m c) (wtS m c) (wpS m c) (btS m c) (bpS m c) b (rowAt 512 (t.val / 8) p.val) (k + 1) := by
  subst hk
  have hS : ∀ q : Fin 256, S1 (iblk1 (V2' m) c 0 t) (iblk1 (V2' m) c 1 t) b p q
      = Spec.score (xS m c) (wtS m c) (wpS m c) (btS m c) (bpS m c) b (rowAt 512 (t.val / 8) p.val) (Spec.row (t.val % 8) q) := fun q => S1_blk m c t b p q
  have hM : max (xs0 (ix3 b p 0)) ((Finset.univ : Finset (Fin 256)).fold max ⊥ fun q => S1 (iblk1 (V2' m) c 0 t) (iblk1 (V2' m) c 1 t) b p q)
      = Spec.mrun (xS m c) (wtS m c) (wpS m c) (btS m c) (bpS m c) b (rowAt 512 (t.val / 8) p.val) (t.val % 8 + 1) := by
    rw [h0 b p, funext hS]
    rfl
  refine ⟨(k1_pay7_apply _ _ _ b p).trans hM, ?_⟩
  rw [k1_pay6_apply, k1_pay5_apply, hM, h0 b p, h1 b p]
  show _ = Ideal.exp (_ - _) * _ + ∑ j : Fin 256, Ideal.exp (_ - _)
  refine congrArg (_ + ·) (Finset.sum_congr rfl fun q _ => ?_)
  rw [hS q]

/-- THE SWEEP. After point `n` the two scratch buffers hold, for each column of the point's column block, the running
    maximum and the running sum over the row blocks seen so far. -/
theorem scratch_eq : ∀ (n : ℕ) (hn : n < cfg1.N) (b : Fin 8) (p : Fin 512),
    (outsAt1 (V2' m) c n hn).2.1 (ix3 b p 0) = Spec.mrun (xS m c) (wtS m c) (wpS m c) (btS m c) (bpS m c) b (rowAt 512 (n / 8) p.val) (n % 8 + 1)
    ∧ (outsAt1 (V2' m) c n hn).2.2 (ix3 b p 0) = Spec.lrun (xS m c) (wtS m c) (wpS m c) (btS m c) (bpS m c) b (rowAt 512 (n / 8) p.val) (n % 8 + 1) := by
  intro n
  induction n with
  | zero =>
    intro hn b p
    have e := outsAt1_A (V2' m) c ⟨0, hn⟩ (Nat.zero_mod 8) (by show ¬(0 % 8 = 7); omega)
    have e' : outsAt1 (V2' m) c 0 hn = _ := e
    rw [e', res1_A_s0, res1_A_s1]
    exact point_step m c ⟨0, hn⟩ (k1_pay2 (F := Ideal)) (k1_pay3 (F := Ideal)) 0 rfl (fun b p => (k1_pay2_apply _).trans rfl) (fun b p => (k1_pay3_apply _).trans rfl) b p
  | succ n ih =>
    intro hn b p
    have hN : n + 1 < 32 := lt_of_lt_of_eq hn (show cfg1.N = 32 from N_1)
    by_cases h0 : (n + 1) % 8 = 0
    · have h1 : ¬(n + 1) % 8 = 7 := by omega
      have e : outsAt1 (V2' m) c (n + 1) hn = _ := outsAt1_A (V2' m) c ⟨n + 1, hn⟩ h0 h1
      rw [e, res1_A_s0, res1_A_s1]
      have := point_step m c ⟨n + 1, hn⟩ (k1_pay2 (F := Ideal)) (k1_pay3 (F := Ideal)) 0 (by show 0 = (n + 1) % 8; omega) (fun b p => (k1_pay2_apply _).trans rfl) (fun b p => (k1_pay3_apply _).trans rfl) b p
      rw [show (n + 1) % 8 + 1 = 0 + 1 by omega]
      exact this
    · have hdiv : (n + 1) / 8 = n / 8 := by omega
      have hmod : n % 8 + 1 = (n + 1) % 8 := by omega
      have ih0 : ∀ (b : Fin 8) (p : Fin 512), (outsAt1 (V2' m) c n (Nat.lt_of_succ_lt hn)).2.1 (ix3 b p 0)
          = Spec.mrun (xS m c) (wtS m c) (wpS m c) (btS m c) (bpS m c) b (rowAt 512 ((n + 1) / 8) p.val) ((n + 1) % 8) := fun b p => by
        rw [hdiv, ← hmod]; exact (ih (Nat.lt_of_succ_lt hn) b p).1
      have ih1 : ∀ (b : Fin 8) (p : Fin 512), (outsAt1 (V2' m) c n (Nat.lt_of_succ_lt hn)).2.2 (ix3 b p 0)
          = Spec.lrun (xS m c) (wtS m c) (wpS m c) (btS m c) (bpS m c) b (rowAt 512 ((n + 1) / 8) p.val) ((n + 1) % 8) := fun b p => by
        rw [hdiv, ← hmod]; exact (ih (Nat.lt_of_succ_lt hn) b p).2
      by_cases h1 : (n + 1) % 8 = 7
      · have e : outsAt1 (V2' m) c (n + 1) hn = _ := outsAt1_C (V2' m) c ⟨n + 1, hn⟩ h0 h1
        rw [e, res1_C_s0, res1_C_s1]
        exact point_step m c ⟨n + 1, hn⟩ _ _ ((n + 1) % 8) rfl ih0 ih1 b p
      · have e : outsAt1 (V2' m) c (n + 1) hn = _ := outsAt1_B (V2' m) c ⟨n + 1, hn⟩ h0 h1
        rw [e, res1_B_s0, res1_B_s1]
        exact point_step m c ⟨n + 1, hn⟩ _ _ ((n + 1) % 8) rfl ih0 ih1 b p

/-- At a writing point the output block receives the column's log-sum-exp. -/
theorem out_eq (n : ℕ) (hn : n < cfg1.N) (h7 : n % 8 = 7) (b : Fin 8) (p : Fin 512) :
    (outsAt1 (V2' m) c n hn).1 (ix3 b p 0) = Spec.lse (xS m c) (wtS m c) (wpS m c) (btS m c) (bpS m c) b (rowAt 512 (n / 8) p.val) := by
  have h0 : ¬n % 8 = 0 := by omega
  have hs := scratch_eq m c n hn b p
  have e : outsAt1 (V2' m) c n hn = _ := outsAt1_C (V2' m) c ⟨n, hn⟩ h0 h7
  rw [e, res1_C_s0, res1_C_s1] at hs
  rw [e, res1_C_o, k1_pay1_apply, hs.1, hs.2, h7]
  rfl

theorem flushed1_2 (t : Fin cfg1.N) (hf : (cfg1.win 2).flush t = true) :
    (dat1 (V2' m) c).flushed 2 t = ((cfg1.win 2).blk t).view.read (Elt Ideal) (lseA m c) := by
  have hi := (idx1 t).2.2
  have hN : t.val < 32 := lt_of_lt_of_eq t.isLt (show cfg1.N = 32 from N_1)
  have h7 : t.val % 8 = 7 := (flush1_2 t).mp hf
  show (cfg1.win 2).cut (grid1.coords t) ((dat1 (V2' m) c).after 2 t) = _
  rw [after1_2]
  funext j
  obtain ⟨b, p, z, rfl⟩ : ∃ (b : Fin 8) (p : Fin 512) (z : Fin 1), j = ix3 b p z := ⟨j 0, j 1, j 2, eq_ix3 j⟩
  obtain rfl : z = 0 := Subsingleton.elim _ _
  refine (out_eq m c t.val t.isLt h7 b p).trans ?_
  rw [View.read_apply]
  refine (lseA_apply m c _ b (rowAt 512 (t.val / 8) p.val) ?_ ?_).symm
  · show win1_2.index t 0 * 8 + 1 * b.val = b.val; rw [hi.1]; omega
  · show win1_2.index t 1 * 512 + 1 * p.val = (512 * (t.val / 8) + p.val) % 2048; rw [hi.2.1]; omega

/-- The point that writes column `n`: the last row block of the column's block of 512. -/
def pt1 (n : ℕ) : Fin cfg1.N := ⟨(8 * (n / 512) + 7) % 32, lt_of_lt_of_eq (Nat.mod_lt _ (by decide)) N_1.symm⟩

theorem cover1_2 (i : S8x2048x1.Idx) : ∃ t : Fin cfg1.N, (cfg1.win 2).flush t = true ∧ i ∈ ((cfg1.win 2).blk t).view.set := by
  have h0 : (i 0).val < 8 := (i 0).isLt
  have h1 : (i 1).val < 2048 := (i 1).isLt
  have h2 : (i 2).val < 1 := (i 2).isLt
  have ht : (pt1 (i 1).val).val = (8 * ((i 1).val / 512) + 7) % 32 := rfl
  refine ⟨pt1 (i 1).val, (flush1_2 _).mpr (by rw [ht]; omega), ?_⟩
  have hi := (idx1 (pt1 (i 1).val)).2.2
  show i ∈ ((View.whole main_v3).slice (win1_2.rect (pt1 (i 1).val))).set
  rw [View.set_slice_whole, Rect.mem_set_unit]
  intro a
  match a with
  | ⟨0, _⟩ => show win1_2.index (pt1 (i 1).val) 0 * 8 ≤ (i 0).val ∧ (i 0).val < win1_2.index (pt1 (i 1).val) 0 * 8 + 8; rw [hi.1]; omega
  | ⟨1, _⟩ => show win1_2.index (pt1 (i 1).val) 1 * 512 ≤ (i 1).val ∧ (i 1).val < win1_2.index (pt1 (i 1).val) 1 * 512 + 512; rw [hi.2.1, ht]; omega
  | ⟨2, _⟩ => show win1_2.index (pt1 (i 1).val) 2 * 1 ≤ (i 2).val ∧ (i 2).val < win1_2.index (pt1 (i 1).val) 2 * 1 + 1; rw [hi.2.2]; omega

/-- After the second region its result array holds every column's log-sum-exp. -/
theorem final1_2 : (dat1 (V2' m) c).arrAt 2 cfg1.N = lseA m c :=
  (dat1 (V2' m) c).arrAt_eq_of_cover 2 (lseA m c) (flushed1_2 m c) (cover1_2)

/-- What the third region finds in the log-sum-exp's buffer. -/
theorem V3_lse : (V3' m c main_v3 : S8x2048x1.Idx → EReal) = lseA m c := (W3_arr m c 2).trans (final1_2 m c)

end Cert.KernelIdeal.Hand

end
-- ==== Proof.KI.Res2.lean ====
/- What each case of the third region's body leaves in its buffers, as the body's pure functions of what it loaded. -/
import proofs.«133348_j60799557042445_2_alg».proof.Proof.KI.R2
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
variable {F : FTy → Type} [FloatOps F]

theorem hz3' : (![0, 0, 0] : Fin 3 → Nat) = fun _ => 0 := funext fun a => by fin_cases a <;> rfl

theorem res2_A_s0 (c : Dev nD) (t : Fin cfg2.N) (hc0 : cond2_0 (grid2.coords t)) (hc1 : ¬cond2_1 (grid2.coords t)) (x0 : Vec F S4x256x512 .bf16) (x1 : Vec F S4x256x512 .bf16) (x2 : Vec F S4x256x1024 .bf16) (x3 : Vec F S4x256x1 .f32) (x4 : Vec F S4x256x1024 .f32) :
    (res2_A c t hc0 hc1 x0 x1 x2 x3 x4).2 = k2_pay2 x1 x0 x3 k2_pay1 x2 := by
  unfold res2_A
  dsimp only
  rw [View.read_writes_eq_canon _ _ _ (scover2_A_0 c t hc0 hc1 x0 x1 x2 x3 x4)]
  unfold run2_A kernelRun2_A
  dsimp only
  try sl_unfold_words
  rw [View.canon_cons_unit_zero (S := S4x256x1024) hz3']
  simp only [View.readCov_unit_zero (S := S4x256x1024) _ hz3']
  simp only [View.readAt_eq_ld, (hs2_0 t).read_unread, (hs2_1 t).read_unread, (hs2_2 t).read_unread, (hs2_3 t).read_unread, (hs2_4 t).read_unread, (hs2_5 t).read_unread, (Memref.isWhole_whole cc2_scratch0).read_unread, View.ld_unit_zero (S := S4x256x512) hz3', View.ld_unit_zero (S := S4x256x1024) hz3', View.ld_unit_zero (S := S4x256x1) hz3', shapeCast_self]

theorem res2_B_s0 (c : Dev nD) (t : Fin cfg2.N) (hc0 : ¬cond2_0 (grid2.coords t)) (hc1 : ¬cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) :
    (res2_B c t hc0 hc1 x0 x1 x2 x3 x4 xs0).2 = k2_pay2 x1 x0 x3 xs0 x2 := by
  unfold res2_B
  dsimp only
  rw [View.read_writes_eq_canon _ _ _ (scover2_B_0 c t hc0 hc1 x0 x1 x2 x3 x4 xs0)]
  unfold run2_B kernelRun2_B
  dsimp only
  try sl_unfold_words
  rw [View.canon_unit_zero hz3']
  simp only [View.readAt_eq_ld, (hs2_0 t).read_unread, (hs2_1 t).read_unread, (hs2_2 t).read_unread, (hs2_3 t).read_unread, (hs2_4 t).read_unread, (hs2_5 t).read_unread, (Memref.isWhole_whole cc2_scratch0).read_unread, View.ld_unit_zero (S := S4x256x512) hz3', View.ld_unit_zero (S := S4x256x1024) hz3', View.ld_unit_zero (S := S4x256x1) hz3', shapeCast_self]

theorem res2_C_s0 (c : Dev nD) (t : Fin cfg2.N) (hc0 : ¬cond2_0 (grid2.coords t)) (hc1 : cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) :
    (res2_C c t hc0 hc1 x0 x1 x2 x3 x4 xs0).2 = k2_pay2 x1 x0 x3 xs0 x2 := by
  unfold res2_C
  dsimp only
  rw [View.read_writes_eq_canon _ _ _ (scover2_C_0 c t hc0 hc1 x0 x1 x2 x3 x4 xs0)]
  unfold run2_C kernelRun2_C
  dsimp only
  try sl_unfold_words
  rw [View.canon_unit_zero hz3']
  simp only [View.readAt_eq_ld, (hs2_0 t).read_unread, (hs2_1 t).read_unread, (hs2_2 t).read_unread, (hs2_3 t).read_unread, (hs2_4 t).read_unread, (hs2_5 t).read_unread, (Memref.isWhole_whole cc2_scratch0).read_unread, View.ld_unit_zero (S := S4x256x512) hz3', View.ld_unit_zero (S := S4x256x1024) hz3', View.ld_unit_zero (S := S4x256x1) hz3', shapeCast_self]

theorem res2_C_o (c : Dev nD) (t : Fin cfg2.N) (hc0 : ¬cond2_0 (grid2.coords t)) (hc1 : cond2_1 (grid2.coords t)) (x0 : Vec F S4x256x512 .bf16) (x1 : Vec F S4x256x512 .bf16) (x2 : Vec F S4x256x1024 .bf16) (x3 : Vec F S4x256x1 .f32) (x4 : Vec F S4x256x1024 .f32) (xs0 : Vec F S4x256x1024 .f32) :
    (res2_C c t hc0 hc1 x0 x1 x2 x3 x4 xs0).1 = k2_pay3 (k2_pay2 x1 x0 x3 xs0 x2) x4 := by
  unfold res2_C
  dsimp only
  rw [View.read_writes_eq_canon _ _ _ (cover2_C_5 c t hc0 hc1 x0 x1 x2 x3 x4 xs0)]
  unfold run2_C kernelRun2_C
  dsimp only
  try sl_unfold_words
  rw [View.canon_unit_zero hz3']
  simp only [View.readCov_unit_zero (S := S4x256x1024) _ hz3']
  simp only [View.readAt_eq_ld, (hs2_0 t).read_unread, (hs2_1 t).read_unread, (hs2_2 t).read_unread, (hs2_3 t).read_unread, (hs2_4 t).read_unread, (hs2_5 t).read_unread, (Memref.isWhole_whole cc2_scratch0).read_unread, View.ld_unit_zero (S := S4x256x512) hz3', View.ld_unit_zero (S := S4x256x1024) hz3', View.ld_unit_zero (S := S4x256x1) hz3', shapeCast_self]

end Cert.KernelIdeal.Hand
end
-- ==== Proof.KI.V2.lean ====
/-
  The third region's result array on the extended reals, as a whole array.

  Point `t = 64·bi + 8·ni + mi` of the 128 works on batches `4·bi … 4·bi + 3`, output rows `256·ni … 256·ni + 255` and
  summed rows `256·mi … 256·mi + 255`: it adds to the accumulator of entry (b, n, d) the sum over the block's rows q of
  `exp (score (b, q, n) - lse (b, q)) · x (b, q, d)`. The accumulator starts from 0 at `mi = 0`; at `mi = 7` the point
  writes the accumulator plus the input. So after the region the result array holds the kernel side's formula.
-/
import proofs.«133348_j60799557042445_2_alg».proof.Proof.KI.Run
import proofs.«133348_j60799557042445_2_alg».proof.Proof.KI.Pay0
import proofs.«133348_j60799557042445_2_alg».proof.Proof.KI.Arr
import proofs.«133348_j60799557042445_2_alg».proof.Proof.KI.Res2
import proofs.«133348_j60799557042445_2_alg».proof.Proof.KI.Pay12
import proofs.«133348_j60799557042445_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-! ### What the region finds in its input arrays -/

/-- An input window's array of the second region is left as the region found it. -/
theorem W3_in (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2' m) c).arrAt_in w hw _).trans (A_eq1 (V2' m) c w))
theorem V3_theta : (V3' m c main_v2_0 : S8x2048x512.Idx → EReal) = thetaA m c := (W3_in m c 1 rfl).trans (V2_theta m c)
theorem V3_phi : (V3' m c main_v2_1 : S8x2048x512.Idx → EReal) = phiA m c := (W3_in m c 0 rfl).trans (V2_phi m c)
theorem V3_xb : (V3' m c main_v2_2 : S8x2048x1024.Idx → EReal) = m ((c : Thread nD τ).loc main_arg0) := (W3_of_ne m c main_v2_2 (by decide)).trans (V2_xb m c)
theorem V3_arg0 : V3' m c main_arg0 = m ((c : Thread nD τ).loc main_arg0) := (W3_of_ne m c main_arg0 (by decide)).trans (V2_arg0 m c)

/-- The block indices of the third region's windows, decided over the grid. -/
theorem idx2_0 : ∀ t : Fin cfg2.N, win2_0.index t 0 = t.val / 64 ∧ win2_0.index t 1 = t.val / 8 % 8 ∧ win2_0.index t 2 = 0 :=
  (by decide +kernel : ∀ t : Fin grid2.N, _)
theorem idx2_1 : ∀ t : Fin cfg2.N, win2_1.index t 0 = t.val / 64 ∧ win2_1.index t 1 = t.val % 8 ∧ win2_1.index t 2 = 0 :=
  (by decide +kernel : ∀ t : Fin grid2.N, _)
theorem idx2_2 : ∀ t : Fin cfg2.N, win2_2.index t 0 = t.val / 64 ∧ win2_2.index t 1 = t.val % 8 ∧ win2_2.index t 2 = 0 :=
  (by decide +kernel : ∀ t : Fin grid2.N, _)
theorem idx2_3 : ∀ t : Fin cfg2.N, win2_3.index t 0 = t.val / 64 ∧ win2_3.index t 1 = t.val % 8 ∧ win2_3.index t 2 = 0 :=
  (by decide +kernel : ∀ t : Fin grid2.N, _)
theorem idx2_4 : ∀ t : Fin cfg2.N, win2_4.index t 0 = t.val / 64 ∧ win2_4.index t 1 = t.val / 8 % 8 ∧ win2_4.index t 2 = 0 :=
  (by decide +kernel : ∀ t : Fin grid2.N, _)
theorem idx2_5 : ∀ t : Fin cfg2.N, win2_5.index t 0 = t.val / 64 ∧ win2_5.index t 1 = t.val / 8 % 8 ∧ win2_5.index t 2 = 0 :=
  (by decide +kernel : ∀ t : Fin grid2.N, _)

/-- Batch `b'` of the `T`-th block of 4 batches (total in `T`: modulo the 8 batches). -/
def batAt (T b' : ℕ) : Fin 8 := ⟨(4 * T + b') % 8, Nat.mod_lt _ (by decide)⟩

/-! ### The input blocks of a point, entry by entry -/

theorem blk2_theta (t : Fin cfg2.N) (b' : Fin 4) (r : Fin 256) (f : Fin 512) :
    (iblk2 (V3' m) c 0 t : Vec Ideal S4x256x512 .bf16) (ix3 b' r f)
      = Spec.theta (xS m c) (wtS m c) (btS m c) (batAt (t.val / 64) b'.val) (rowAt 256 (t.val / 8 % 8) r.val) f := by
  have hi := idx2_0 t
  have hN : t.val < 128 := lt_of_lt_of_eq t.isLt (show cfg2.N = 128 from N_2)
  unfold iblk2
  rw [View.read_apply]
  show (V3' m c main_v2_0 : S8x2048x512.Idx → EReal) _ = _
  rw [V3_theta]
  refine thetaA_apply m c _ _ _ _ ?_ ?_ ?_
  · show win2_0.index t 0 * 4 + 1 * b'.val = (4 * (t.val / 64) + b'.val) % 8; rw [hi.1]; omega
  · show win2_0.index t 1 * 256 + 1 * r.val = (256 * (t.val / 8 % 8) + r.val) % 2048; rw [hi.2.1]; omega
  · show win2_0.index t 2 * 512 + 1 * f.val = f.val; rw [hi.2.2]; omega

theorem blk2_phi (t : Fin cfg2.N) (b' : Fin 4) (q : Fin 256) (f : Fin 512) :
    (iblk2 (V3' m) c 1 t : Vec Ideal S4x256x512 .bf16) (ix3 b' q f)
      = Spec.phi (xS m c) (wpS m c) (bpS m c) (batAt (t.val / 64) b'.val) (rowAt 256 (t.val % 8) q.val) f := by
  have hi := idx2_1 t
  have hN : t.val < 128 := lt_of_lt_of_eq t.isLt (show cfg2.N = 128 from N_2)
  unfold iblk2
  rw [View.read_apply]
  show (V3' m c main_v2_1 : S8x2048x512.Idx → EReal) _ = _
  rw [V3_phi]
  refine phiA_apply m c _ _ _ _ ?_ ?_ ?_
  · show win2_1.index t 0 * 4 + 1 * b'.val = (4 * (t.val / 64) + b'.val) % 8; rw [hi.1]; omega
  · show win2_1.index t 1 * 256 + 1 * q.val = (256 * (t.val % 8) + q.val) % 2048; rw [hi.2.1]; omega
  · show win2_1.index t 2 * 512 + 1 * f.val = f.val; rw [hi.2.2]; omega

theorem blk2_xs (t : Fin cfg2.N) (b' : Fin 4) (q : Fin 256) (d : Fin 1024) :
    (iblk2 (V3' m) c 2 t : Vec Ideal S4x256x1024 .bf16) (ix3 b' q d)
      = xS m c (batAt (t.val / 64) b'.val) (rowAt 256 (t.val % 8) q.val) d := by
  have hi := idx2_2 t
  have hN : t.val < 128 := lt_of_lt_of_eq t.isLt (show cfg2.N = 128 from N_2)
  unfold iblk2
  rw [View.read_apply]
  show (V3' m c main_v2_2 : S8x2048x1024.Idx → EReal) _ = _
  rw [V3_xb]
  refine xA_apply m c _ _ _ _ ?_ ?_ ?_
  · show win2_2.index t 0 * 4 + 1 * b'.val = (4 * (t.val / 64) + b'.val) % 8; rw [hi.1]; omega
  · show win2_2.index t 1 * 256 + 1 * q.val = (256 * (t.val % 8) + q.val) % 2048; rw [hi.2.1]; omega
  · show win2_2.index t 2 * 1024 + 1 * d.val = d.val; rw [hi.2.2]; omega

theorem blk2_xo (t : Fin cfg2.N) (b' : Fin 4) (r : Fin 256) (d : Fin 1024) :
    (iblk2 (V3' m) c 4 t : Vec Ideal S4x256x1024 .f32) (ix3 b' r d)
      = xS m c (batAt (t.val / 64) b'.val) (rowAt 256 (t.val / 8 % 8) r.val) d := by
  have hi := idx2_4 t
  have hN : t.val < 128 := lt_of_lt_of_eq t.isLt (show cfg2.N = 128 from N_2)
  unfold iblk2
  rw [View.read_apply]
  show V3' m c main_arg0 _ = _
  rw [V3_arg0]
  refine xA_apply m c _ _ _ _ ?_ ?_ ?_
  · show win2_4.index t 0 * 4 + 1 * b'.val = (4 * (t.val / 64) + b'.val) % 8; rw [hi.1]; omega
  · show win2_4.index t 1 * 256 + 1 * r.val = (256 * (t.val / 8 % 8) + r.val) % 2048; rw [hi.2.1]; omega
  · show win2_4.index t 2 * 1024 + 1 * d.val = d.val; rw [hi.2.2]; omega

/-! From here on: the second region left the column log-sum-exp in its result array. -/
variable (hl : (V3' m c main_v3 : S8x2048x1.Idx → EReal) = lseA m c)
include hl

theorem blk2_lse (t : Fin cfg2.N) (b' : Fin 4) (q : Fin 256) :
    (iblk2 (V3' m) c 3 t : Vec Ideal S4x256x1 .f32) (ix3 b' q 0)
      = Spec.lse (xS m c) (wtS m c) (wpS m c) (btS m c) (bpS m c) (batAt (t.val / 64) b'.val) (rowAt 256 (t.val % 8) q.val) := by
  have hi := idx2_3 t
  have hN : t.val < 128 := lt_of_lt_of_eq t.isLt (show cfg2.N = 128 from N_2)
  unfold iblk2
  rw [View.read_apply]
  show (V3' m c main_v3 : S8x2048x1.Idx → EReal) _ = _
  rw [hl]
  refine lseA_apply m c _ _ _ ?_ ?_
  · show win2_3.index t 0 * 4 + 1 * b'.val = (4 * (t.val / 64) + b'.val) % 8; rw [hi.1]; omega
  · show win2_3.index t 1 * 256 + 1 * q.val = (256 * (t.val % 8) + q.val) % 2048; rw [hi.2.1]; omega

/-! ### One point's contribution, and the accumulation over a column's eight row blocks -/

/-- What a point adds to the accumulator of entry (b', r, d): over the rows q of the point's summed block,
    `exp (score (q, n) - lse q) · x (q, d)`. -/
theorem step_apply (t : Fin cfg2.N) (acc : Vec Ideal S4x256x1024 .f32) (b' : Fin 4) (r : Fin 256) (d : Fin 1024) :
    k2_pay2 (iblk2 (V3' m) c 1 t) (iblk2 (V3' m) c 0 t) (iblk2 (V3' m) c 3 t) acc (iblk2 (V3' m) c 2 t) (ix3 b' r d)
      = acc (ix3 b' r d) + ∑ q : Fin 256,
          Ideal.exp (Spec.score (xS m c) (wtS m c) (wpS m c) (btS m c) (bpS m c) (batAt (t.val / 64) b'.val) (Spec.row (t.val % 8) q) (rowAt 256 (t.val / 8 % 8) r.val)
            - Spec.lse (xS m c) (wtS m c) (wpS m c) (btS m c) (bpS m c) (batAt (t.val / 64) b'.val) (Spec.row (t.val % 8) q))
          * xS m c (batAt (t.val / 64) b'.val) (Spec.row (t.val % 8) q) d := by
  refine (k2_pay2_apply _ _ _ _ _ b' r d).trans (congrArg (acc (ix3 b' r d) + ·) (Finset.sum_congr rfl fun q _ => ?_))
  rw [blk2_lse m c hl t b' q, blk2_xs m c t b' q d]
  refine congrArg (fun s => Ideal.exp (s - _) * _) ?_
  refine (Finset.sum_congr rfl fun f _ => ?_).trans (score_arr m c _ _ _)
  rw [blk2_phi, blk2_theta]
  rfl

omit hl in
/-- The kernel side's partial sum after one more row block. -/
theorem arun_succ (x : Fin 8 → Fin 2048 → Fin 1024 → EReal) (wt wp : Fin 1024 → Fin 512 → EReal) (bt bp : Fin 512 → EReal)
    (b : Fin 8) (n : Fin 2048) (d : Fin 1024) (k : ℕ) :
    Spec.arun x wt wp bt bp b n d (k + 1) = Spec.arun x wt wp bt bp b n d k
      + ∑ j : Fin 256, Ideal.exp (Spec.score x wt wp bt bp b (Spec.row k j) n - Spec.lse x wt wp bt bp b (Spec.row k j)) * x b (Spec.row k j) d := rfl

/-- The accumulator after point n, at entry (b', r, d): the kernel side's partial sum over the column's first
    `n % 8 + 1` row blocks. -/
theorem acc_apply (n : ℕ) (hn : n < cfg2.N) (b' : Fin 4) (r : Fin 256) (d : Fin 1024) :
    (outsAt2 (V3' m) c n hn).2 (ix3 b' r d)
      = Spec.arun (xS m c) (wtS m c) (wpS m c) (btS m c) (bpS m c) (batAt (n / 64) b'.val) (rowAt 256 (n / 8 % 8) r.val) d (n % 8 + 1) := by
  induction n using Nat.strong_induction_on generalizing b' r d with
  | _ n ih =>
    have hN : n < 128 := lt_of_lt_of_eq hn (show cfg2.N = 128 from N_2)
    rw [arun_succ]
    by_cases h0 : n % 8 = 0
    · have h1 : ¬n % 8 = 7 := by omega
      refine (congrArg (fun p => p.2 (ix3 b' r d)) (outsAt2_A (V3' m) c ⟨n, hn⟩ h0 h1)).trans ?_
      refine (congrFun (res2_A_s0 c ⟨n, hn⟩ _ _ _ _ _ _ _) (ix3 b' r d)).trans ?_
      refine (step_apply m c hl ⟨n, hn⟩ (k2_pay1 (F := Ideal)) b' r d).trans ?_
      have ez : Spec.arun (xS m c) (wtS m c) (wpS m c) (btS m c) (bpS m c) (batAt (n / 64) b'.val) (rowAt 256 (n / 8 % 8) r.val) d (n % 8) = 0 := by
        rw [h0]; rfl
      rw [k2_pay1_apply, ez]
    · have hpos : n - 1 < n := by omega
      have e1 : (n - 1) / 64 = n / 64 := by omega
      have e2 : (n - 1) / 8 % 8 = n / 8 % 8 := by omega
      have e3 : (n - 1) % 8 + 1 = n % 8 := by omega
      have hprev := ih (n - 1) hpos (Nat.lt_of_le_of_lt (Nat.sub_le _ _) hn) b' r d
      rw [e1, e2, e3] at hprev
      by_cases h1 : n % 8 = 7
      · refine (congrArg (fun p => p.2 (ix3 b' r d)) (outsAt2_C (V3' m) c ⟨n, hn⟩ h0 h1)).trans ?_
        refine (congrFun (res2_C_s0 c ⟨n, hn⟩ _ _ _ _ _ _ _ _) (ix3 b' r d)).trans ?_
        refine (step_apply m c hl ⟨n, hn⟩ _ b' r d).trans ?_
        exact congrArg (· + _) hprev
      · refine (congrArg (fun p => p.2 (ix3 b' r d)) (outsAt2_B (V3' m) c ⟨n, hn⟩ h0 h1)).trans ?_
        refine (congrFun (res2_B_s0 c ⟨n, hn⟩ _ _ _ _ _ _ _ _) (ix3 b' r d)).trans ?_
        refine (step_apply m c hl ⟨n, hn⟩ _ b' r d).trans ?_
        exact congrArg (· + _) hprev

/-! ### What a writing point stores, and the array after the region -/

/-- At a writing point (the last of a column's eight row blocks) the stored block holds, at entry (b', r, d), the whole
    sum plus the input: the kernel side's formula. -/
theorem out_apply (t : Fin cfg2.N) (h1 : t.val % 8 = 7) (b' : Fin 4) (r : Fin 256) (d : Fin 1024) :
    (outsAt2 (V3' m) c t.val t.isLt).1 (ix3 b' r d)
      = Spec.kernelOut (xS m c) (wtS m c) (wpS m c) (btS m c) (bpS m c) (batAt (t.val / 64) b'.val) (rowAt 256 (t.val / 8 % 8) r.val) d := by
  have h0 : ¬t.val % 8 = 0 := by omega
  have hC := outsAt2_C (V3' m) c t h0 h1
  have e : (outsAt2 (V3' m) c t.val t.isLt).1
      = k2_pay3 ((outsAt2 (V3' m) c t.val t.isLt).2) (iblk2 (V3' m) c 4 t) :=
    (congrArg Prod.fst hC).trans ((res2_C_o c t _ _ _ _ _ _ _ _).trans
      (congrArg (fun a => k2_pay3 a _) ((res2_C_s0 c t _ _ _ _ _ _ _ _).symm.trans (congrArg Prod.snd hC).symm)))
  rw [e, k2_pay3_apply, acc_apply m c hl t.val t.isLt b' r d, blk2_xo m c t b' r d, h1]
  rfl

theorem flushed2_5 (t : Fin cfg2.N) (hf : (cfg2.win 5).flush t = true) :
    (dat2 (V3' m) c).flushed 5 t = ((cfg2.win 5).blk t).view.read (Elt Ideal) (outA m c) := by
  have hi := idx2_5 t
  have h1 : t.val % 8 = 7 := (flush2_5 t).mp hf
  have hN : t.val < 128 := lt_of_lt_of_eq t.isLt (show cfg2.N = 128 from N_2)
  show (cfg2.win 5).cut (grid2.coords t) ((dat2 (V3' m) c).after 5 t) = _
  rw [after2_5]
  funext j
  obtain ⟨b', r, d, rfl⟩ : ∃ (b' : Fin 4) (r : Fin 256) (d : Fin 1024), j = ix3 b' r d := ⟨j 0, j 1, j 2, eq_ix3 j⟩
  refine (out_apply m c hl t h1 b' r d).trans ?_
  rw [View.read_apply]
  refine (outA_apply m c _ (batAt (t.val / 64) b'.val) (rowAt 256 (t.val / 8 % 8) r.val) d ?_ ?_ ?_).symm
  · show win2_5.index t 0 * 4 + 1 * b'.val = (4 * (t.val / 64) + b'.val) % 8; rw [hi.1]; omega
  · show win2_5.index t 1 * 256 + 1 * r.val = (256 * (t.val / 8 % 8) + r.val) % 2048; rw [hi.2.1]; omega
  · show win2_5.index t 2 * 1024 + 1 * d.val = d.val; rw [hi.2.2]; omega

omit hl in
/-- The point that writes entry (b, n, ·): the batch's block of 4, the row's block of 256, the last summed block. -/
def pt2 (b n : ℕ) : Fin cfg2.N := ⟨(64 * (b / 4) + 8 * (n / 256) + 7) % 128, lt_of_lt_of_eq (Nat.mod_lt _ (by decide)) N_2.symm⟩

omit hl in
theorem cover2_5 (i : S8x2048x1024.Idx) : ∃ t : Fin cfg2.N, (cfg2.win 5).flush t = true ∧ i ∈ ((cfg2.win 5).blk t).view.set := by
  have h0 : (i 0).val < 8 := (i 0).isLt
  have h1 : (i 1).val < 2048 := (i 1).isLt
  have h2 : (i 2).val < 1024 := (i 2).isLt
  have ht : (pt2 (i 0).val (i 1).val).val = (64 * ((i 0).val / 4) + 8 * ((i 1).val / 256) + 7) % 128 := rfl
  refine ⟨pt2 (i 0).val (i 1).val, (flush2_5 _).mpr (by rw [ht]; omega), ?_⟩
  have hi := idx2_5 (pt2 (i 0).val (i 1).val)
  show i ∈ ((View.whole main_v4).slice (win2_5.rect (pt2 (i 0).val (i 1).val))).set
  rw [View.set_slice_whole, Rect.mem_set_unit]
  intro a
  match a with
  | ⟨0, _⟩ => show win2_5.index (pt2 (i 0).val (i 1).val) 0 * 4 ≤ (i 0).val ∧ (i 0).val < win2_5.index (pt2 (i 0).val (i 1).val) 0 * 4 + 4; rw [hi.1, ht]; omega
  | ⟨1, _⟩ => show win2_5.index (pt2 (i 0).val (i 1).val) 1 * 256 ≤ (i 1).val ∧ (i 1).val < win2_5.index (pt2 (i 0).val (i 1).val) 1 * 256 + 256; rw [hi.2.1, ht]; omega
  | ⟨2, _⟩ => show win2_5.index (pt2 (i 0).val (i 1).val) 2 * 1024 ≤ (i 2).val ∧ (i 2).val < win2_5.index (pt2 (i 0).val (i 1).val) 2 * 1024 + 1024; rw [hi.2.2]; omega

/-- After the third region its result array holds the kernel side's formula of the argument arrays. -/
theorem final2_5 : (dat2 (V3' m) c).arrAt 5 cfg2.N = outA m c :=
  (dat2 (V3' m) c).arrAt_eq_of_cover 5 (outA m c) (flushed2_5 m c hl) (cover2_5)

end Cert.KernelIdeal.Hand

end
-- ==== Proof.Ref.lean ====
/-
  The reference program read index by index: its result at (b, n, d), as a function of the arguments' contents, is the
  specification's reference-side formula. Built stage by stage: the two projections, the scores, each column's maximum,
  the shifted exponentials, each column's sum, and the normalised contraction with the input plus the input.
-/
import proofs.«133348_j60799557042445_2_alg».proof.Proof.Gen.ReferenceIdeal.Read
import proofs.«133348_j60799557042445_2_alg».proof.Proof.Spec
import Idealize.ShloMosaic.Lib.ValueIdx
import Idealize.ShloMosaic.PureOps.Ideal.Laws

noncomputable section

namespace Cert.RefValue

open Cert.ReferenceIdeal Cert.ReferenceIdeal.Read Idealize.ShloMosaic Idealize.ShloMosaic.ValueIdx

/-- The word 0x3F800000 is the real 1. -/
theorem ofBits_one : Ideal.ofBits .f32 0x3F800000#32 = 1 := by
  simp [Ideal.ofBits, Ideal.ieee, -EReal.coe_mul]; norm_num

/-- The word 0xFF800000 is -∞. -/
theorem ofBits_negInf : Ideal.ofBits .f32 0xFF800000#32 = ⊥ := by
  simp [Ideal.ofBits, Ideal.ieee]

variable (x0 : (⟨S8x2048x1024, .f32⟩ : BufTy).Contents (Elt Ideal))
  (x3 x5 : (⟨S1024x512, .f32⟩ : BufTy).Contents (Elt Ideal)) (x4 x6 : (⟨S512, .f32⟩ : BufTy).Contents (Elt Ideal))

/-- The input array by coordinates. -/
abbrev X : Fin 8 → Fin 2048 → Fin 1024 → EReal := fun b n d => x0 (ix3 b n d)
/-- A weight matrix by coordinates. -/
abbrev W (w : (⟨S1024x512, .f32⟩ : BufTy).Contents (Elt Ideal)) : Fin 1024 → Fin 512 → EReal := fun d f => w (ix2 d f)
/-- A bias row by its coordinate. -/
abbrev B (v : (⟨S512, .f32⟩ : BufTy).Contents (Elt Ideal)) : Fin 512 → EReal := fun f => v (ix1 f)

/-- The first projection through the sigmoid, at (b, n, f): 1 / (1 + exp (-(x·wt + bt))). -/
theorem theta_apply (b : Fin 8) (n : Fin 2048) (f : Fin 512) :
    val_main_v14 (F := Ideal) x0 x3 x4 (ix3 b n f) = Cert.Spec.theta (X x0) (W x3) (B x4) b n f := by
  have el : ∀ k : Fin 1024, lidx_main_v5 (ix3 b n f) k = ix3 b n k := fun k =>
    funext fun a => Fin.ext (by match a with | ⟨0, _⟩ => rfl | ⟨1, _⟩ => rfl | ⟨2, _⟩ => rfl)
  have er : ∀ k : Fin 1024, ridx_main_v5 (ix3 b n f) k = ix2 k f := fun k =>
    funext fun a => Fin.ext (by match a with | ⟨0, _⟩ => rfl | ⟨1, _⟩ => rfl)
  have eb : idx_main_v6 (idx_main_v7 (ix3 b n f)) = ix1 f :=
    funext fun a => Fin.ext (by match a with | ⟨0, _⟩ => rfl)
  rw [val_main_v14_apply, val_main_v13_apply, val_main_cst_0_apply, val_main_v12_apply, val_main_v11_apply,
    val_main_cst_apply, val_main_v10_apply, val_main_v9_apply, val_main_v8_apply, val_main_v5_apply, val_main_v7_apply,
    val_main_v6_apply]
  simp only [el, er, eb, Ideal.hostDivf_def, Ideal.ofBits_def, Ideal.addf_def, Ideal.hostUnary_exp_def, Ideal.hostNegf_def,
    Ideal.negf_def, ofBits_one]
  rfl

/-- The second projection at (b, m, f): x·wp + bp. -/
theorem phi_apply (b : Fin 8) (m : Fin 2048) (f : Fin 512) :
    val_main_v18 (F := Ideal) x0 x5 x6 (ix3 b m f) = Cert.Spec.phi (X x0) (W x5) (B x6) b m f := by
  have el : ∀ k : Fin 1024, lidx_main_v15 (ix3 b m f) k = ix3 b m k := fun k =>
    funext fun a => Fin.ext (by match a with | ⟨0, _⟩ => rfl | ⟨1, _⟩ => rfl | ⟨2, _⟩ => rfl)
  have er : ∀ k : Fin 1024, ridx_main_v15 (ix3 b m f) k = ix2 k f := fun k =>
    funext fun a => Fin.ext (by match a with | ⟨0, _⟩ => rfl | ⟨1, _⟩ => rfl)
  have eb : idx_main_v16 (idx_main_v17 (ix3 b m f)) = ix1 f :=
    funext fun a => Fin.ext (by match a with | ⟨0, _⟩ => rfl)
  rw [val_main_v18_apply, val_main_v15_apply, val_main_v17_apply, val_main_v16_apply]
  simp only [el, er, eb, Ideal.addf_def]
  rfl

/-- The score at (b, n, m): Σ_f theta[b,n,f]·phi[b,m,f]. -/
theorem att_apply (b : Fin 8) (n m : Fin 2048) :
    val_main_v19 (F := Ideal) x0 x3 x4 x5 x6 (ix3 b n m) = Cert.Spec.att (X x0) (W x3) (W x5) (B x4) (B x6) b n m := by
  have el : ∀ k : Fin 512, lidx_main_v19 (ix3 b n m) k = ix3 b n k := fun k =>
    funext fun a => Fin.ext (by match a with | ⟨0, _⟩ => rfl | ⟨1, _⟩ => rfl | ⟨2, _⟩ => rfl)
  have er : ∀ k : Fin 512, ridx_main_v19 (ix3 b n m) k = ix3 b m k := fun k =>
    funext fun a => Fin.ext (by match a with | ⟨0, _⟩ => rfl | ⟨1, _⟩ => rfl | ⟨2, _⟩ => rfl)
  rw [val_main_v19_apply]
  simp only [el, er, theta_apply, phi_apply]
  rfl

/-- The reduced index (b, m) with row n put back on axis 1 is (b, n, m). -/
theorem lift_ix3 (h : S8x2048x2048.Reduces [1] S8x2048) (b : Fin 8) (m : Fin 2048) (k : Fin (S8x2048x2048.size 1)) :
    h.lift (ix2 b m) k = ix3 b (⟨k.val, k.isLt⟩ : Fin 2048) m := by
  funext c; apply Fin.ext
  match c with
  | ⟨0, _⟩ => rfl
  | ⟨1, _⟩ => rfl
  | ⟨2, _⟩ => rfl

/-- The column's maximum at (b, m): the fold of the scores over n from -∞, then once more against -∞. -/
theorem cmax_apply (b : Fin 8) (m : Fin 2048) :
    val_main_v22 (F := Ideal) x0 x3 x4 x5 x6 (ix2 b m) = Cert.Spec.cmax (X x0) (W x3) (W x5) (B x4) (B x6) b m := by
  have h : S8x2048x2048.Reduces [1] S8x2048 := by decide
  rw [val_main_v22_apply, val_main_v21_apply, val_main_cst_2_apply]
  unfold val_main_v20
  rw [Host.reduce_eq_fold_single FloatOps.maximumf _ _ Gen.reducesTo_S8x2048x2048_S8x2048_d1 h Gen.h_S_, val_main_cst_1_apply]
  have hf : (val_main_v19 (F := Ideal) x0 x3 x4 x5 x6 ∘ h.lift (ix2 b m))
      = fun n : Fin 2048 => Cert.Spec.att (X x0) (W x3) (W x5) (B x4) (B x6) b n m :=
    funext fun k => (congrArg (val_main_v19 (F := Ideal) x0 x3 x4 x5 x6) (lift_ix3 h b m k)).trans (att_apply x0 x3 x5 x4 x6 b _ m)
  simp only [Ideal.ofBits_def, Ideal.maximumf_def, ofBits_negInf]
  unfold Cert.Spec.cmax
  exact congrArg (fun g => max ⊥ (Finset.fold max ⊥ g (Finset.univ : Finset (Fin 2048)))) hf

/-- The shifted exponential at (b, n, m): exp of the score minus its column's maximum. -/
theorem eatt_apply (b : Fin 8) (n m : Fin 2048) :
    val_main_v26 (F := Ideal) x0 x3 x4 x5 x6 (ix3 b n m) = Cert.Spec.eatt (X x0) (W x3) (W x5) (B x4) (B x6) b n m := by
  have ec : idx_main_v23 (idx_main_v24 (ix3 b n m)) = ix2 b m :=
    funext fun a => Fin.ext (by match a with | ⟨0, _⟩ => rfl | ⟨1, _⟩ => rfl)
  rw [val_main_v26_apply, val_main_v25_apply, val_main_v24_apply, val_main_v23_apply]
  simp only [ec, att_apply, cmax_apply, Ideal.hostUnary_exp_def, Ideal.subf_def]
  rfl

/-- The column's sum at (b, m): 0 plus the shifted exponentials summed over n. -/
theorem csum_apply (b : Fin 8) (m : Fin 2048) :
    val_main_v27 (F := Ideal) x0 x3 x4 x5 x6 (ix2 b m) = Cert.Spec.csum (X x0) (W x3) (W x5) (B x4) (B x6) b m := by
  have ei : ∀ k : Fin 2048, idx_main_v27 (ix2 b m) k = ix3 b k m := fun k =>
    funext fun a => Fin.ext (by match a with | ⟨0, _⟩ => rfl | ⟨1, _⟩ => rfl | ⟨2, _⟩ => rfl)
  rw [val_main_v27_apply, val_main_cst_3_apply]
  simp only [ei, eatt_apply, Ideal.ofBits_def, Ideal.ofBits_zero_f32]
  rfl

/-- The reference's last stage at (b, n, d) is the specification's reference-side formula. -/
theorem out_apply (b : Fin 8) (n : Fin 2048) (d : Fin 1024) :
    val_main_v32 (F := Ideal) x0 x3 x4 x5 x6 (ix3 b n d) = Cert.Spec.refOut (X x0) (W x3) (W x5) (B x4) (B x6) b n d := by
  have el : ∀ k : Fin 2048, lidx_main_v31 (ix3 b n d) k = ix3 b n k := fun k =>
    funext fun a => Fin.ext (by match a with | ⟨0, _⟩ => rfl | ⟨1, _⟩ => rfl | ⟨2, _⟩ => rfl)
  have er : ∀ k : Fin 2048, ridx_main_v31 (ix3 b n d) k = ix3 b k d := fun k =>
    funext fun a => Fin.ext (by match a with | ⟨0, _⟩ => rfl | ⟨1, _⟩ => rfl | ⟨2, _⟩ => rfl)
  have es : ∀ k : Fin 2048, idx_main_v28 (idx_main_v29 (ix3 b n k)) = ix2 b k := fun k =>
    funext fun a => Fin.ext (by match a with | ⟨0, _⟩ => rfl | ⟨1, _⟩ => rfl)
  rw [val_main_v32_apply, val_main_v31_apply]
  simp only [el, er, val_main_v30_apply, val_main_v29_apply, val_main_v28_apply, es, eatt_apply, csum_apply,
    Ideal.hostDivf_def, Ideal.addf_def]
  rfl

/-- The reference run's result at (b, n, d) is the specification's reference-side formula of the arguments' contents. -/
theorem ref_eq (m : (ℓ : Loc nD τ sig) → Buf (Elt Ideal) ℓ) (c : Dev nD) (b : Fin 8) (n : Fin 2048) (d : Fin 1024) :
    Cert.ReferenceIdeal.Value.res_main_v32 (F := Ideal) m c (ix3 b n d)
      = Cert.Spec.refOut (fun b n d => m ((c.tc : Thread nD τ).loc main_arg0) (ix3 b n d))
          (fun d f => m ((c.tc : Thread nD τ).loc main_arg3) (ix2 d f)) (fun d f => m ((c.tc : Thread nD τ).loc main_arg5) (ix2 d f))
          (fun f => m ((c.tc : Thread nD τ).loc main_arg4) (ix1 f)) (fun f => m ((c.tc : Thread nD τ).loc main_arg6) (ix1 f)) b n d := by
  rw [val_main_v32_eq]
  exact out_apply _ _ _ _ _ b n d

end Cert.RefValue

end
-- ==== Proof.LibOnlineLse.lean ====
/-
  The running ("online") log-sum-exp on the extended reals, block by block, against the direct one.

  A row of real scores `s j` is swept in disjoint blocks. A sweep keeps a running maximum `m` and a running
  sum `l = Σ_{j seen} exp (s j - m)`. Meeting a new block `T` it moves to `m' = max m (max_T s)` and
  `l' = exp (m - m') · l + Σ_{j ∈ T} exp (s j - m')`. Because `exp (m - m') · exp (s j - m) = exp (s j - m')`
  and a product distributes over a finite sum of reals, `l'` is again the sum over everything seen, now
  relative to `m'` (`step`). The sweep starts from `m = -∞`, `l = 0`, where `exp (-∞ - m') · 0 = 0` (`first`).
  At the end `m + log l` is the log-sum-exp, and subtracting it inside the exponential is dividing by the
  sum: `exp (s - (m + log l)) = exp (s - m) / l` for `l > 0` (`exp_sub_lse`), which is the softmax weight.
  Everything is stated for real entries coerced into the extended reals, with the exponential, logarithm
  and quotient of the ideal float instance.
-/
import Idealize.ShloMosaic.PureOps.Ideal

noncomputable section

namespace Cert.LibOnlineLse

open Idealize.ShloMosaic

variable {ι : Type*} [DecidableEq ι]

/-- Rescaling a sum of exponentials from the offset `m` to the offset `m'`. -/
theorem rescale (s : ι → ℝ) (S : Finset ι) (m m' : ℝ) :
    Real.exp (m - m') * ∑ j ∈ S, Real.exp (s j - m) = ∑ j ∈ S, Real.exp (s j - m') := by
  rw [Finset.mul_sum]
  refine Finset.sum_congr rfl fun j _ => ?_
  rw [← Real.exp_add]
  congr 1
  ring

/-- One step of the sweep over the reals: the rescaled old sum plus the new block's sum is the sum over both. -/
theorem step_real (s : ι → ℝ) (S T : Finset ι) (hST : Disjoint S T) (m m' : ℝ) :
    Real.exp (m - m') * (∑ j ∈ S, Real.exp (s j - m)) + ∑ j ∈ T, Real.exp (s j - m')
      = ∑ j ∈ S ∪ T, Real.exp (s j - m') := by
  rw [rescale, Finset.sum_union hST]

/-- The same step on the extended reals, with the ideal exponential: the running maximum and sum are reals. -/
theorem step (s : ι → ℝ) (S T : Finset ι) (hST : Disjoint S T) (m m' : ℝ) :
    Ideal.exp ((m : EReal) - (m' : EReal)) * ((∑ j ∈ S, Real.exp (s j - m) : ℝ) : EReal)
        + ((∑ j ∈ T, Real.exp (s j - m') : ℝ) : EReal)
      = ((∑ j ∈ S ∪ T, Real.exp (s j - m') : ℝ) : EReal) := by
  rw [← EReal.coe_sub, Ideal.exp_coe, ← EReal.coe_mul, ← EReal.coe_add, step_real s S T hST]

/-- The first step: from the running maximum `-∞` and the running sum `0` nothing is carried over. -/
theorem first (m' : ℝ) (y : EReal) :
    Ideal.exp ((⊥ : EReal) - (m' : EReal)) * 0 + y = y := by
  rw [mul_zero, zero_add]

/-- The running maximum from `-∞`: the first block's maximum itself. -/
theorem max_bot (x : EReal) : max (⊥ : EReal) x = x := max_eq_right bot_le

/-- A nonempty sum of exponentials is positive. -/
theorem sum_exp_pos (s : ι → ℝ) (S : Finset ι) (hS : S.Nonempty) (m : ℝ) :
    0 < ∑ j ∈ S, Real.exp (s j - m) :=
  Finset.sum_pos (fun j _ => Real.exp_pos _) hS

/-- Subtracting the log-sum-exp inside the exponential is dividing by the sum: for reals `s`, `m` and `l > 0`,
    `exp (s - (m + log l)) = exp (s - m) / l` with the ideal instance's exponential, logarithm and quotient. -/
theorem exp_sub_lse (s m l : ℝ) (hl : 0 < l) :
    Ideal.exp ((s : EReal) - ((m : EReal) + Ideal.log (l : EReal)))
      = Ideal.div (Ideal.exp ((s : EReal) - (m : EReal))) (l : EReal) := by
  rw [Ideal.log_coe, if_neg (not_le.mpr hl), ← EReal.coe_add, ← EReal.coe_sub, ← EReal.coe_sub, Ideal.exp_coe,
    Ideal.exp_coe, Ideal.div_coe (ne_of_gt hl), ← EReal.coe_mul]
  congr 1
  rw [show s - (m + Real.log l) = (s - m) + (-Real.log l) by ring, Real.exp_add, Real.exp_neg, Real.exp_log hl,
    one_div]

/-- The log-sum-exp itself is a real when the sum is positive. -/
theorem lse_real (m l : ℝ) (hl : 0 < l) :
    (m : EReal) + Ideal.log (l : EReal) = ((m + Real.log l : ℝ) : EReal) := by
  rw [Ideal.log_coe, if_neg (not_le.mpr hl), EReal.coe_add]

end Cert.LibOnlineLse

end
-- ==== Proof.Math.lean ====
/-
  The mathematics of the claim: on real inputs the blockwise ("online") column normalisation of the kernel side
  and the direct one of the reference side give the same weights, and the accumulator swept in 8 blocks of 256
  rows is the sum over all 2048 rows.

  Every projection and every score is a real (finite sums of products of reals, and the sigmoid of a real).
  For a column with real scores the running maximum after k blocks is the maximum over the rows seen so far and the
  running sum is the sum over those rows of the exponentials relative to that maximum; after 8 blocks every row has
  been seen once, so they are the column's maximum and the column's sum, a positive real. Subtracting
  max + log sum inside the exponential is then dividing the shifted exponential by the sum.
-/
import proofs.«133348_j60799557042445_2_alg».proof.Proof.Spec
import proofs.«133348_j60799557042445_2_alg».proof.Proof.LibOnlineLse

noncomputable section

namespace Cert.Math

open Idealize.ShloMosaic Cert.Spec

/-! ### Finite sums and maxima of coerced reals -/

/-- A finite sum of coerced reals is the coerced real sum. -/
theorem coe_sum {ι : Type*} (S : Finset ι) (f : ι → ℝ) :
    ∑ i ∈ S, ((f i : ℝ) : EReal) = ((∑ i ∈ S, f i : ℝ) : EReal) := by
  classical
  refine Finset.induction_on S (by simp) fun a T ha ih => ?_
  rw [Finset.sum_insert ha, Finset.sum_insert ha, EReal.coe_add, ih]

/-- A finite sum of reals is a real. -/
theorem real_sum {ι : Type*} (S : Finset ι) (f : ι → EReal) (h : ∀ i, ∃ r : ℝ, f i = (r : EReal)) :
    ∃ r : ℝ, ∑ i ∈ S, f i = (r : EReal) := by
  choose g hg using h
  exact ⟨∑ i ∈ S, g i, by rw [← coe_sum]; exact Finset.sum_congr rfl fun i _ => hg i⟩

/-- A product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

/-- A sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨t, rfl⟩ := hb
  exact ⟨r + t, (EReal.coe_add r t).symm⟩

/-- The maximum of finitely many reals, at least one, is a real. -/
theorem sup_real {ι : Type*} (T : Finset ι) (hT : T.Nonempty) (s : ι → ℝ) :
    ∃ r : ℝ, (T.sup fun n => (s n : EReal)) = (r : EReal) := by
  obtain ⟨i, _, h⟩ := Finset.exists_mem_eq_sup T hT fun n => (s n : EReal)
  exact ⟨s i, h⟩

/-! ### The blocks of rows -/

/-- The rows of block k. -/
def blk (k : ℕ) : Finset (Fin 2048) := Finset.univ.image (row k)

/-- The rows of the first k blocks. -/
def seen (k : ℕ) : Finset (Fin 2048) := (Finset.range k).biUnion blk

theorem row_inj (k : ℕ) : Function.Injective (row k) := by
  intro i j h
  simp only [row, Fin.mk.injEq] at h
  have := i.isLt
  have := j.isLt
  ext
  omega

theorem seen_zero : seen 0 = ∅ := by
  unfold seen
  rw [Finset.range_zero, Finset.biUnion_empty]

theorem seen_succ (k : ℕ) : seen (k + 1) = seen k ∪ blk k := by
  unfold seen
  rw [Finset.range_add_one, Finset.biUnion_insert, Finset.union_comm]

/-- Below 8 blocks no row comes twice. -/
theorem disj (k : ℕ) (hk : k < 8) : Disjoint (seen k) (blk k) := by
  rw [Finset.disjoint_left]
  intro n hn hn'
  simp only [seen, blk, Finset.mem_biUnion, Finset.mem_range, Finset.mem_image, Finset.mem_univ, true_and] at hn hn'
  obtain ⟨i, hi, j, rfl⟩ := hn
  obtain ⟨j', h⟩ := hn'
  simp only [row, Fin.mk.injEq] at h
  have := j.isLt
  have := j'.isLt
  omega

/-- The 8 blocks are all the rows. -/
theorem seen_eight : seen 8 = Finset.univ := by
  rw [Finset.eq_univ_iff_forall]
  intro n
  simp only [seen, blk, Finset.mem_biUnion, Finset.mem_range, Finset.mem_image, Finset.mem_univ, true_and]
  have := n.isLt
  refine ⟨n.val / 256, by omega, ⟨n.val % 256, by omega⟩, ?_⟩
  simp only [row, Fin.ext_iff]
  omega

theorem blk_nonempty (k : ℕ) : (blk k).Nonempty := Finset.univ_nonempty.image _

/-- A sum over the 256 rows of a block, re-indexed by the rows themselves. -/
theorem sum_blk {α : Type*} [AddCommMonoid α] (k : ℕ) (g : Fin 2048 → α) :
    ∑ j : Fin 256, g (row k j) = ∑ m ∈ blk k, g m := by
  rw [blk, Finset.sum_image fun i _ j _ h => row_inj k h]

/-- The maximum from -∞ over the 256 rows of a block, re-indexed by the rows themselves. -/
theorem sup_blk (k : ℕ) (g : Fin 2048 → EReal) :
    ((Finset.univ : Finset (Fin 256)).fold max ⊥ fun j => g (row k j)) = (blk k).sup g := by
  rw [blk, Finset.sup_image]
  rfl

/-! ### The projections and the scores are reals -/

section Reals

variable (x : Fin 8 → Fin 2048 → Fin 1024 → EReal) (wt wp : Fin 1024 → Fin 512 → EReal) (bt bp : Fin 512 → EReal)

theorem theta_real (hx : ∀ b n d, ∃ r : ℝ, x b n d = (r : EReal)) (hwt : ∀ d f, ∃ r : ℝ, wt d f = (r : EReal))
    (hbt : ∀ f, ∃ r : ℝ, bt f = (r : EReal)) (b : Fin 8) (n : Fin 2048) (f : Fin 512) :
    ∃ r : ℝ, theta x wt bt b n f = (r : EReal) := by
  obtain ⟨r, hr⟩ := real_add
    (real_sum Finset.univ (fun d => x b n d * wt d f) fun d => real_mul (hx b n d) (hwt d f)) (hbt f)
  exact ⟨_, by rw [theta, hr, Ideal.logistic_coe]⟩

theorem phi_real (hx : ∀ b n d, ∃ r : ℝ, x b n d = (r : EReal)) (hwp : ∀ d f, ∃ r : ℝ, wp d f = (r : EReal))
    (hbp : ∀ f, ∃ r : ℝ, bp f = (r : EReal)) (b : Fin 8) (m : Fin 2048) (f : Fin 512) :
    ∃ r : ℝ, phi x wp bp b m f = (r : EReal) :=
  real_add (real_sum Finset.univ (fun d => x b m d * wp d f) fun d => real_mul (hx b m d) (hwp d f)) (hbp f)

theorem score_real (hx : ∀ b n d, ∃ r : ℝ, x b n d = (r : EReal)) (hwt : ∀ d f, ∃ r : ℝ, wt d f = (r : EReal))
    (hwp : ∀ d f, ∃ r : ℝ, wp d f = (r : EReal)) (hbt : ∀ f, ∃ r : ℝ, bt f = (r : EReal))
    (hbp : ∀ f, ∃ r : ℝ, bp f = (r : EReal)) (b : Fin 8) (m n : Fin 2048) :
    ∃ r : ℝ, score x wt wp bt bp b m n = (r : EReal) :=
  real_sum Finset.univ (fun f => phi x wp bp b m f * theta x wt bt b n f) fun f =>
    real_mul (phi_real x wp bp hx hwp hbp b m f) (theta_real x wt bt hx hwt hbt b n f)

/-- The reference's score is the kernel's: the factors commute. -/
theorem att_eq (b : Fin 8) (n m : Fin 2048) : att x wt wp bt bp b n m = score x wt wp bt bp b m n :=
  Finset.sum_congr rfl fun _ _ => mul_comm _ _

end Reals

/-! ### One column, swept block by block -/

section Column

variable (x : Fin 8 → Fin 2048 → Fin 1024 → EReal) (wt wp : Fin 1024 → Fin 512 → EReal) (bt bp : Fin 512 → EReal)
  (b : Fin 8) (m : Fin 2048) (s : Fin 2048 → ℝ)

/-- The running maximum after k blocks is the maximum from -∞ over the rows seen. -/
theorem mrun_eq (hs : ∀ n, score x wt wp bt bp b m n = (s n : EReal)) (k : ℕ) :
    mrun x wt wp bt bp b m k = (seen k).sup fun n => (s n : EReal) := by
  induction k with
  | zero => rw [seen_zero, Finset.sup_empty]; rfl
  | succ k ih =>
    rw [mrun, ih]
    simp only [hs]
    rw [sup_blk k fun n => (s n : EReal), seen_succ, Finset.sup_union]

/-- The exponentials of a block relative to a real offset, summed. -/
theorem block_sum (hs : ∀ n, score x wt wp bt bp b m n = (s n : EReal)) (k : ℕ) (M : ℝ) :
    ∑ j : Fin 256, Ideal.exp (score x wt wp bt bp b m (row k j) - (M : EReal))
      = ((∑ n ∈ blk k, Real.exp (s n - M) : ℝ) : EReal) := by
  rw [← coe_sum, ← sum_blk k fun n => ((Real.exp (s n - M) : ℝ) : EReal)]
  refine Finset.sum_congr rfl fun j _ => ?_
  rw [hs, ← EReal.coe_sub, Ideal.exp_coe]

/-- After k ≥ 1 blocks (k ≤ 8) the running maximum is a real M and the running sum is the sum over the rows seen
    of the exponentials relative to M. -/
theorem sweep (hs : ∀ n, score x wt wp bt bp b m n = (s n : EReal)) (k : ℕ) (hk : k < 8) :
    ∃ M : ℝ, mrun x wt wp bt bp b m (k + 1) = (M : EReal)
      ∧ lrun x wt wp bt bp b m (k + 1) = ((∑ n ∈ seen (k + 1), Real.exp (s n - M) : ℝ) : EReal) := by
  induction k with
  | zero =>
    obtain ⟨B, hB⟩ := sup_real (blk 0) (blk_nonempty 0) s
    have hm : mrun x wt wp bt bp b m 1 = (B : EReal) := by
      rw [mrun_eq x wt wp bt bp b m s hs 1, seen_succ, seen_zero, Finset.empty_union, hB]
    refine ⟨B, hm, ?_⟩
    rw [lrun, hm, seen_succ, seen_zero, Finset.empty_union, block_sum x wt wp bt bp b m s hs 0 B]
    exact LibOnlineLse.first B _
  | succ k ih =>
    obtain ⟨M, hM, hL⟩ := ih (by omega)
    obtain ⟨B, hB⟩ := sup_real (blk (k + 1)) (blk_nonempty (k + 1)) s
    have hm : mrun x wt wp bt bp b m (k + 1 + 1) = ((max M B : ℝ) : EReal) := by
      rw [mrun_eq x wt wp bt bp b m s hs (k + 1 + 1), seen_succ (k + 1), Finset.sup_union,
        ← mrun_eq x wt wp bt bp b m s hs (k + 1), hM, hB]
      exact (EReal.coe_strictMono.monotone.map_max).symm
    refine ⟨max M B, hm, ?_⟩
    rw [lrun, hm, hM, hL, block_sum x wt wp bt bp b m s hs (k + 1) (max M B), seen_succ (k + 1)]
    exact LibOnlineLse.step s (seen (k + 1)) (blk (k + 1)) (disj (k + 1) hk) M (max M B)

end Column

/-! ### Both sides -/

section Final

variable (x : Fin 8 → Fin 2048 → Fin 1024 → EReal) (wt wp : Fin 1024 → Fin 512 → EReal) (bt bp : Fin 512 → EReal)

/-- A column with real scores: after the 8 blocks the running maximum and sum are the column's maximum M and
    the column's sum L > 0 of the reference side. -/
theorem column (b : Fin 8) (m : Fin 2048) (s : Fin 2048 → ℝ)
    (hs : ∀ n, score x wt wp bt bp b m n = (s n : EReal)) :
    ∃ M L : ℝ, 0 < L ∧ mrun x wt wp bt bp b m 8 = (M : EReal) ∧ lrun x wt wp bt bp b m 8 = (L : EReal)
      ∧ cmax x wt wp bt bp b m = (M : EReal) ∧ csum x wt wp bt bp b m = (L : EReal) := by
  obtain ⟨M, hM, hL⟩ : ∃ M : ℝ, mrun x wt wp bt bp b m 8 = (M : EReal)
      ∧ lrun x wt wp bt bp b m 8 = ((∑ n ∈ seen 8, Real.exp (s n - M) : ℝ) : EReal) :=
    sweep x wt wp bt bp b m s hs 7 (by omega)
  rw [seen_eight] at hL
  have hc : cmax x wt wp bt bp b m = (M : EReal) := by
    rw [cmax, LibOnlineLse.max_bot]
    simp only [att_eq, hs]
    rw [← hM, mrun_eq x wt wp bt bp b m s hs 8, seen_eight]
    rfl
  refine ⟨M, ∑ n, Real.exp (s n - M), LibOnlineLse.sum_exp_pos s Finset.univ Finset.univ_nonempty M, hM, hL, hc, ?_⟩
  rw [csum, zero_add, ← coe_sum]
  refine Finset.sum_congr rfl fun n _ => ?_
  rw [eatt, hc, att_eq, hs, ← EReal.coe_sub, Ideal.exp_coe]

/-- The kernel's weight exp (s - lse) is the reference's shifted exponential over the column's sum. -/
theorem weight_eq (b : Fin 8) (m n : Fin 2048) (s : Fin 2048 → ℝ)
    (hs : ∀ n, score x wt wp bt bp b m n = (s n : EReal)) :
    Ideal.exp (score x wt wp bt bp b m n - lse x wt wp bt bp b m)
      = Ideal.div (eatt x wt wp bt bp b n m) (csum x wt wp bt bp b m) := by
  obtain ⟨M, L, hpos, hM, hL, hc, hS⟩ := column x wt wp bt bp b m s hs
  rw [lse, hM, hL, eatt, hc, hS, att_eq, hs]
  exact LibOnlineLse.exp_sub_lse (s n) M L hpos

/-- The accumulator after k ≤ 8 blocks is the sum over the rows seen. -/
theorem arun_eq (b : Fin 8) (n : Fin 2048) (d : Fin 1024) (k : ℕ) (hk : k ≤ 8) :
    arun x wt wp bt bp b n d k
      = ∑ m ∈ seen k, Ideal.exp (score x wt wp bt bp b m n - lse x wt wp bt bp b m) * x b m d := by
  induction k with
  | zero => rw [seen_zero, Finset.sum_empty]; rfl
  | succ k ih =>
    rw [arun, ih (by omega), seen_succ, Finset.sum_union (disj k (by omega)),
      sum_blk k fun m => Ideal.exp (score x wt wp bt bp b m n - lse x wt wp bt bp b m) * x b m d]

end Final

/-- On real inputs the kernel side and the reference side agree at every output entry. -/
theorem kernel_eq_ref (x : Fin 8 → Fin 2048 → Fin 1024 → EReal) (wt wp : Fin 1024 → Fin 512 → EReal) (bt bp : Fin 512 → EReal)
    (hx : ∀ b n d, ∃ r : ℝ, x b n d = (r : EReal)) (hwt : ∀ d f, ∃ r : ℝ, wt d f = (r : EReal)) (hwp : ∀ d f, ∃ r : ℝ, wp d f = (r : EReal))
    (hbt : ∀ f, ∃ r : ℝ, bt f = (r : EReal)) (hbp : ∀ f, ∃ r : ℝ, bp f = (r : EReal)) (b : Fin 8) (n : Fin 2048) (d : Fin 1024) :
    Cert.Spec.kernelOut x wt wp bt bp b n d = Cert.Spec.refOut x wt wp bt bp b n d := by
  have hsc := score_real x wt wp bt bp hx hwt hwp hbt hbp b
  choose S hS using hsc
  rw [kernelOut, refOut, arun_eq x wt wp bt bp b n d 8 le_rfl, seen_eight]
  congr 1
  refine Finset.sum_congr rfl fun m _ => ?_
  rw [weight_eq x wt wp bt bp b m n (S m) (hS m)]

end Cert.Math

end
-- ==== Proof.PreReal.lean ====
/-
  From the precondition "every float input is finite" to "every entry of the five arrays the result reads is a real".
  The predicate is a conjunction of seven tests, one per argument array: all entries have absolute value below +∞.
  An extended real whose absolute value is below +∞ is neither infinity, so it is a real.
-/
import proofs.«133348_j60799557042445_2_alg».proof.Defs
import Idealize.ShloMosaic.Lib.ReduceAll
import Idealize.ShloMosaic.Lib.ValueIdx

noncomputable section

namespace Cert.PreReal

open Idealize.ShloMosaic Idealize.SL.Sem

/-- The scalar shape has one index. -/
instance : Subsingleton Cert.Pre_finite_inputs.S_.Idx := ⟨fun a b => funext fun d => d.elim0⟩

/-- The word 0x7F800000 is +∞. -/
theorem ofBits_posInf : Ideal.ofBits .f32 0x7F800000#32 = ⊤ := by
  simp [Ideal.ofBits, Ideal.ieee]

/-- An extended real whose absolute value max x (-x) compares below +∞ is a real. -/
theorem real_of_abs_lt (x : EReal) (h : Ideal.cmp .olt (max x (-x)) (Ideal.ofBits .f32 0x7F800000#32) = 1#1) :
    ∃ r : ℝ, x = (r : EReal) := by
  rw [ofBits_posInf] at h
  induction x using EReal.rec with
  | bot => simp [Ideal.cmp] at h
  | coe r => exact ⟨r, rfl⟩
  | top => simp [Ideal.cmp] at h

/-- If the test "all entries have absolute value below +∞" of an array is 1, every entry of the array is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi (cmpf .olt (Host.absf x) (broadcastInDim s ![] hb (constant Cert.Pre_finite_inputs.S_ .f32 0x7F800000#32)))
      (constantI Cert.Pre_finite_inputs.S_ 1 1#1) hr hu ValueIdx.ix0 = 1#1) (i : s.Idx) :
    ∃ r : ℝ, x i = (r : EReal) :=
  real_of_abs_lt (x i) (Host.reduce_andi_all _ _ hr hu ValueIdx.ix0 e i)

/-- A conjunction of two one-bit scalars that is 1 has both conjuncts 1. -/
theorem split (a b : IVec Cert.Pre_finite_inputs.S_ 1) (e : andi a b ValueIdx.ix0 = 1#1) :
    a ValueIdx.ix0 = 1#1 ∧ b ValueIdx.ix0 = 1#1 := IntOp.andi_eq_one.1 e

/-- Under the precondition every entry of the input, the two weights the result reads and their biases is a real. -/
theorem pre_real [hPre_finite_inputs : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread _ Cert.KernelIdeal.τ).loc Cert.KernelIdeal.main_arg3) i = (r : EReal))
    ∧ (∀ i, ∃ r : ℝ, m ((c.tc : Thread _ Cert.KernelIdeal.τ).loc Cert.KernelIdeal.main_arg4) i = (r : EReal))
    ∧ (∀ i, ∃ r : ℝ, m ((c.tc : Thread _ Cert.KernelIdeal.τ).loc Cert.KernelIdeal.main_arg5) i = (r : EReal))
    ∧ (∀ i, ∃ r : ℝ, m ((c.tc : Thread _ Cert.KernelIdeal.τ).loc Cert.KernelIdeal.main_arg6) i = (r : EReal)) := by
  have h0 := congrFun (h c) ValueIdx.ix0
  dsimp only [Cert.Pre_finite_inputs.fn, Cert.Pre_finite_inputs.fn_part1] at h0
  obtain ⟨h28, h32⟩ := split _ _ h0
  obtain ⟨h23, h27⟩ := split _ _ h28
  obtain ⟨h18, h22⟩ := split _ _ h23
  obtain ⟨h13, h17⟩ := split _ _ h18
  obtain ⟨h8, _⟩ := split _ _ h13
  obtain ⟨h3, _⟩ := split _ _ h8
  exact ⟨all_real _ _ _ _ h3, all_real _ _ _ _ h17, all_real _ _ _ _ h22, all_real _ _ _ _ h27, all_real _ _ _ _ h32⟩

end Cert.PreReal

end
-- ==== Proof.lean ====
/-
  Non-local self-attention with the softmax taken over the QUERY axis, as three kernel regions against its plain
  reference, equal on the extended reals under finite inputs.

  Both sides form `theta = sigmoid (x·wt + bt)`, `phi = x·wp + bp` and the scores `s[b, m, n] = Σ_f phi[b,m,f]·theta[b,n,f]`,
  normalise every column `(b, m)` over `n`, contract the weights with `x` over `m` and add `x`.
  The reference subtracts the column's maximum, exponentiates and divides by the column's sum. The kernel's first region
  writes `theta`, `phi` and a narrow copy of `x` (a change of format is the identity here); its second region sweeps the
  rows in blocks keeping a running maximum and a running rescaled sum and leaves `lse = max + log sum`; its third region
  sweeps the summed rows in blocks adding `exp (s - lse)·x` into an accumulator that starts at zero, and adds `x` at the
  end. With every input a real number all scores are reals, the running pair is the pair (maximum, sum of
  `exp (s - maximum)`) over the rows seen so far, `exp (s - lse) = exp (s - max) / sum`, and a finite sum regroups freely:
  the two results agree entry by entry.

  The three frames: each region's body is run at a generic grid point (the first region's three whole stores; the other
  two in their three cases first / middle / last of the sweep, the carried scratch contents stated point by point), the
  regions are chained over "every buffer outside the regions at the boundary's contents", and the arguments are read
  back through the boundaries to the launch memory. The reference has no kernel: its frame is its run.
-/
import proofs.«133348_j60799557042445_2_alg».proof.Defs
import proofs.«133348_j60799557042445_2_alg».proof.Proof.Gen.Kernel
import proofs.«133348_j60799557042445_2_alg».proof.Proof.Gen.KernelIdeal
import proofs.«133348_j60799557042445_2_alg».proof.Proof.Gen.ReferenceIdeal
import proofs.«133348_j60799557042445_2_alg».proof.Proof.Gen.Pre_finite_inputs
import proofs.«133348_j60799557042445_2_alg».proof.Proof.Gen.ReferenceIdeal.Run
import proofs.«133348_j60799557042445_2_alg».proof.Proof.KB.Run
import proofs.«133348_j60799557042445_2_alg».proof.Proof.KI.V1
import proofs.«133348_j60799557042445_2_alg».proof.Proof.KI.V2
import proofs.«133348_j60799557042445_2_alg».proof.Proof.Ref
import proofs.«133348_j60799557042445_2_alg».proof.Proof.Math
import proofs.«133348_j60799557042445_2_alg».proof.Proof.PreReal

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- On the extended reals the kernel's result array ends at the block-swept formula of the argument arrays and the
    reference's at the direct one; under finite inputs the two formulas agree entry by entry. -/
theorem algebraic : Cert.algebraic_KernelIdeal_ReferenceIdeal := by
  intro m ρ m' ρ' hpre hagree
  refine ⟨fun c => Cert.KernelIdeal.Hand.outA m c, ?_, ?_⟩
  · refine (θ_run Cert.KernelIdeal.defs _ _).mono (fun r h c => ⟨(h c).1.trans ?_, (h c).2⟩)
      (Cert.KernelIdeal.Hand.run_value (F := Ideal) m ρ)
    exact Cert.KernelIdeal.Hand.final2_5 m c (Cert.KernelIdeal.Hand.V3_lse m c)
  · refine (θ_run Cert.ReferenceIdeal.defs _ _).mono (fun _ h c => ⟨(h c).1.trans ?_, (h c).2⟩)
      (Cert.ReferenceIdeal.Value.run (F := Ideal) m' ρ')
    obtain ⟨h0, h3, h4, h5, h6⟩ := Cert.PreReal.pre_real m hpre c
    funext i
    obtain ⟨b, n, d, rfl⟩ : ∃ (b : Fin 8) (n : Fin 2048) (d : Fin 1024), i = ix3 b n d := ⟨i 0, i 1, i 2, eq_ix3 i⟩
    rw [Cert.RefValue.ref_eq m' c b n d, (hagree c).1, (hagree c).2.2.2.1, (hagree c).2.2.2.2.1, (hagree c).2.2.2.2.2.1,
      (hagree c).2.2.2.2.2.2]
    show _ = Cert.KernelIdeal.Hand.outA m c (ix3 b n d)
    rw [Cert.KernelIdeal.Hand.outA_apply m c (ix3 b n d) b n d rfl rfl rfl]
    exact (Cert.Math.kernel_eq_ref _ _ _ _ _ (fun b n d => h0 _) (fun d f => h3 _) (fun d f => h5 _) (fun f => h4 _) (fun f => h6 _) b n d).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
